-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S12288x256 .f32) (main_arg1 : FVec F S12288x12288 .f32) (main_arg2 : FVec F S256x128 .f32) (main_arg3 : FVec F S128 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S12288 : Shape := ⟨1, ![12288]⟩
abbrev S1024x2048 : Shape := ⟨2, ![1024, 2048]⟩
abbrev S1024 : Shape := ⟨1, ![1024]⟩
abbrev S_ : Shape := ⟨0, ![]⟩
abbrev S12288x128 : Shape := ⟨2, ![12288, 128]⟩
abbrev S2048x256 : Shape := ⟨2, ![2048, 256]⟩
abbrev S2048x128 : Shape := ⟨2, ![2048, 128]⟩
abbrev S12288x1 : Shape := ⟨2, ![12288, 1]⟩
abbrev S1x12288 : Shape := ⟨2, ![1, 12288]⟩
abbrev S1024x1024 : Shape := ⟨2, ![1024, 1024]⟩
abbrev S1024x128 : Shape := ⟨2, ![1024, 128]⟩
abbrev S1024x1 : Shape := ⟨2, ![1024, 1]⟩
abbrev S1x1024 : Shape := ⟨2, ![1, 1024]⟩
abbrev S1x128 : Shape := ⟨2, ![1, 128]⟩

abbrev nBuf : Space → Nat
  | .hbm => 12
  | .vmem => 23
  | .smem => 0
  | _ => 0

abbrev bufTy : (tb : Table) → Fin (tcTables nBuf tb) → BufTy
  | .hbm, ⟨0, _⟩ => ⟨S12288x256, .f32⟩
  | .hbm, ⟨1, _⟩ => ⟨S12288x12288, .f32⟩
  | .hbm, ⟨2, _⟩ => ⟨S256x128, .f32⟩
  | .hbm, ⟨3, _⟩ => ⟨S128, .f32⟩
  | .hbm, ⟨4, _⟩ => ⟨S12288, .f32⟩
  | .hbm, ⟨5, _⟩ => ⟨S_, .f32⟩
  | .hbm, ⟨6, _⟩ => ⟨S12288, .f32⟩
  | .hbm, ⟨7, _⟩ => ⟨S12288, .f32⟩
  | .hbm, ⟨8, _⟩ => ⟨S12288x128, .bf16⟩
  | .hbm, ⟨9, _⟩ => ⟨S12288x1, .f32⟩
  | .hbm, ⟨10, _⟩ => ⟨S1x12288, .f32⟩
  | .hbm, ⟨11, _⟩ => ⟨S12288x128, .f32⟩
  | .local _ .vmem, ⟨0, _⟩ => ⟨S1024x2048, .f32⟩
  | .local _ .vmem, ⟨1, _⟩ => ⟨S1024x2048, .f32⟩
  | .local _ .vmem, ⟨2, _⟩ => ⟨S1024, .f32⟩
  | .local _ .vmem, ⟨3, _⟩ => ⟨S1024, .f32⟩
  | .local _ .vmem, ⟨4, _⟩ => ⟨S2048x256, .f32⟩
  | .local _ .vmem, ⟨5, _⟩ => ⟨S2048x256, .f32⟩
  | .local _ .vmem, ⟨6, _⟩ => ⟨S256x128, .f32⟩
  | .local _ .vmem, ⟨7, _⟩ => ⟨S2048x128, .bf16⟩
  | .local _ .vmem, ⟨8, _⟩ => ⟨S2048x128, .bf16⟩
  | .local _ .vmem, ⟨9, _⟩ => ⟨S1024x1024, .f32⟩
  | .local _ .vmem, ⟨10, _⟩ => ⟨S1024x1024, .f32⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![12, 12], ![false, false]⟩

def k2_cond2 (i : grid2.Coords) : BitVec 1 :=
  let arg1 : BitVec 32 := BitVec.ofNat 32 (i 1).val
  let c11_i32 : BitVec 32 := 11#32
  let v21 : BitVec 1 := Scalar.cmpi .eq arg1 c11_i32
  let v22 : BitVec 32 := Scalar.extui v21
  let c0_i32_12 : BitVec 32 := 0#32
  let v23 : BitVec 1 := Scalar.cmpi .ne v22 c0_i32_12
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S1024_S1024_0 : ∀ a, (![0] : Fin 1 → Nat) a + S1024.size a ≤ S1024.size a
  h_S1024 : 0 < S1024.numel
  shapeCasts_S1024_S1024 : S1024.ShapeCasts S1024
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  bcast_S_S12288 : S_.BroadcastsInDim S12288 (![] : Fin 0 → Fin S12288.rank)
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  broadcasts_S1x1024_S1024x1024 : S1x1024.Broadcasts S1024x1024
  broadcasts_S1024x1_S1024x128 : S1024x1.Broadcasts S1024x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  dot_S2048x256_S256x128_S2048x128_1_0_0_1_n_n_wf : DotDims.WF S2048x256 S256x128 S2048x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x12288.size a
  hwx0_0 : ∀ i : grid0.Coords, EltTy.bits .f32 = 32 ∨ (Rect.block (s := S12288x12288) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S12288.size a
  hwx0_1 : ∀ i : grid0.Coords, EltTy.bits .f32 = 32 ∨ (Rect.block (s := S12288) S1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S12288x256.size a
  hwx1_0 : ∀ i : grid1.Coords, EltTy.bits .f32 = 32 ∨ (Rect.block (s := S12288x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S12288x128.size a
  hwx1_2 : ∀ i : grid1.Coords, EltTy.bits .bf16 = 32 ∨ (Rect.block (s := S12288x128) S2048x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S12288x12288.size a
  hwx2_0 : ∀ i : grid2.Coords, EltTy.bits .f32 = 32 ∨ (Rect.block (s := S12288x12288) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S12288x128.size a
  hwx2_1 : ∀ i : grid2.Coords, EltTy.bits .bf16 = 32 ∨ (Rect.block (s := S12288x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S12288x128.size a
  hwx2_2 : ∀ i : grid2.Coords, EltTy.bits .bf16 = 32 ∨ (Rect.block (s := S12288x128) S1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S12288x1.size a
  hwx2_3 : ∀ i : grid2.Coords, EltTy.bits .f32 = 32 ∨ (Rect.block (s := S12288x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x12288.size a
  hwx2_4 : ∀ i : grid2.Coords, EltTy.bits .f32 = 32 ∨ (Rect.block (s := S1x12288) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S12288x128.size a
  hwx2_6 : ∀ i : grid2.Coords, EltTy.bits .f32 = 32 ∨ (Rect.block (s := S12288x128) S1024x128.size (cc2_transform_6 i) (hinb2_6 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg3) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1024x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S12288x256 : Shape := ⟨2, ![12288, 256]⟩
abbrev S12288x12288 : Shape := ⟨2, ![12288, 12288]⟩
abbrev S256x128 : Shape := ⟨2, ![256, 128]⟩
abbrev S128 : Shape := ⟨1, ![128]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x128 : Shape := ⟨2, ![12288, 128]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S12288x12288, .f32⟩
  | .hbm, ⟨2, _⟩ => ⟨S256x128, .f32⟩
  | .hbm, ⟨3, _⟩ => ⟨S128, .f32⟩
  | .hbm, ⟨4, _⟩ => ⟨S12288x12288, .i32⟩
  | .hbm, ⟨5, _⟩ => ⟨S12288x12288, .i32⟩
  | .hbm, ⟨6, _⟩ => ⟨S_, .i32⟩
  | .hbm, ⟨7, _⟩ => ⟨S12288x12288, .i32⟩
  | .hbm, ⟨8, _⟩ => ⟨S12288x12288, .i32⟩
  | .hbm, ⟨9, _⟩ => ⟨S12288x12288, .i1⟩
  | .hbm, ⟨10, _⟩ => ⟨S12288x12288, .f32⟩
  | .hbm, ⟨11, _⟩ => ⟨S12288x12288, .f32⟩
  | .hbm, ⟨12, _⟩ => ⟨S_, .f32⟩
  | .hbm, ⟨13, _⟩ => ⟨S12288, .f32⟩
  | .hbm, ⟨14, _⟩ => ⟨S_, .f32⟩
  | .hbm, ⟨15, _⟩ => ⟨S12288, .f32⟩
  | .hbm, ⟨16, _⟩ => ⟨S12288, .f32⟩
  | .hbm, ⟨17, _⟩ => ⟨S12288x1, .f32⟩
  | .hbm, ⟨18, _⟩ => ⟨S12288x12288, .f32⟩
  | .hbm, ⟨19, _⟩ => ⟨S12288x12288, .f32⟩
  | .hbm, ⟨20, _⟩ => ⟨S1x12288, .f32⟩
  | .hbm, ⟨21, _⟩ => ⟨S12288x12288, .f32⟩
  | .hbm, ⟨22, _⟩ => ⟨S12288x12288, .f32⟩
  | .hbm, ⟨23, _⟩ => ⟨S12288x128, .f32⟩
  | .hbm, ⟨24, _⟩ => ⟨S12288x128, .f32⟩
  | .hbm, ⟨25, _⟩ => ⟨S1x128, .f32⟩
  | .hbm, ⟨26, _⟩ => ⟨S12288x128, .f32⟩
  | .hbm, ⟨27, _⟩ => ⟨S12288x128, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  dot_S12288x256_S256x128_S12288x128_1_0_0_1_n_n_wf : DotDims.WF S12288x256 S256x128 S12288x128 [1] [0] [0] [1] [] []
  dot_S12288x12288_S12288x128_S12288x128_1_0_0_1_n_n_wf : DotDims.WF S12288x12288 S12288x128 S12288x128 [1] [0] [0] [1] [] []

variable [Facts₀]

def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x12288_S12288x128_S12288x128_1_0_0_1_n_n : DotDims S12288x12288 S12288x128 S12288x128 where
  lhsContracting := [1]
  rhsContracting := [0]
  lhsNonContracting := [0]
  rhsNonContracting := [1]
  lhsBatch := []
  rhsBatch := []
  wf := dot_S12288x12288_S12288x128_S12288x128_1_0_0_1_n_n_wf

class Facts : Prop extends Facts₀ where

variable [Facts]
-- ==== Proof.Spec.lean ====
import Idealize.ShloMosaic.PureOps.Ideal

/-!
The two closed forms of the normalised graph convolution
`D^(-1/2) (A + I) D^(-1/2) (X W) + b` over the extended reals.

`outK` keeps the identity's contribution as a separate diagonal term and counts the
self loop in the degree by adding one to the row sum; `outR` adds the identity matrix
`eye` to the adjacency entries first and sums the result.
-/

namespace Cert.Spec

open Idealize.ShloMosaic
open scoped BigOperators

noncomputable section

/-- The identity matrix: one on the diagonal, zero elsewhere. -/
def eye (r k : Fin 12288) : EReal := if r = k then 1 else 0

/-- The exponent of the normalisation: the single-precision word of `-1/2`. -/
def e : EReal := Ideal.ofBits .f32 0xBF000000#32

/-- Degree of row `r` with its self loop: the row sum plus one. -/
def degK (a : Fin 12288 → Fin 12288 → EReal) (r : Fin 12288) : EReal :=
  (∑ k : Fin 12288, a r k) + 1

/-- Degree of row `r` as the row sum of `A + I`, accumulated from zero. -/
def degR (a : Fin 12288 → Fin 12288 → EReal) (r : Fin 12288) : EReal :=
  0 + ∑ k : Fin 12288, (a r k + eye r k)

/-- The support matrix `X W`. -/
def sup (x : Fin 12288 → Fin 256 → EReal) (w : Fin 256 → Fin 128 → EReal)
    (i : Fin 12288) (j : Fin 128) : EReal :=
  ∑ l : Fin 256, x i l * w l j

/-- The value with the diagonal term kept apart. -/
def outK (a : Fin 12288 → Fin 12288 → EReal) (x : Fin 12288 → Fin 256 → EReal)
    (w : Fin 256 → Fin 128 → EReal) (b : Fin 128 → EReal) (r : Fin 12288) (j : Fin 128) : EReal :=
  ((∑ k : Fin 12288, ((a r k * Ideal.pow (degK a r) e) * Ideal.pow (degK a k) e) * sup x w k j)
      + (Ideal.pow (degK a r) e * Ideal.pow (degK a r) e) * sup x w r j)
    + b j

/-- The value with the identity added to the adjacency matrix. -/
def outR (a : Fin 12288 → Fin 12288 → EReal) (x : Fin 12288 → Fin 256 → EReal)
    (w : Fin 256 → Fin 128 → EReal) (b : Fin 128 → EReal) (r : Fin 12288) (j : Fin 128) : EReal :=
  (∑ k : Fin 12288, (((a r k + eye r k) * Ideal.pow (degR a r) e) * Ideal.pow (degR a k) e)
      * sup x w k j)
    + b j

end

end Cert.Spec
-- ==== Proof.Algebra.lean ====
import proofs.«129173_j30640296690052_1_alg».proof.Proof.Spec

/-!
The two closed forms of `Spec` agree when every input entry is a real number.

On the extended reals the distributive law fails at the infinities, so the argument is
carried out in `ℝ`: with real entries every degree, every power `d r = deg r ^ e` and every
entry of `X W` is a real number, both closed forms are coercions of real expressions, and
there

  `∑ k, (a r k + δ r k) · d r · d k · S k j = ∑ k, a r k · d r · d k · S k j + d r · d r · S r j`

by distributivity and the Kronecker sum `∑ k, δ r k · f k = f r`.  The same Kronecker sum
gives `∑ k, (a r k + δ r k) = (∑ k, a r k) + 1`, so the two degrees are the same number.
-/

namespace Cert.Spec

open Idealize.ShloMosaic
open scoped BigOperators

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponent word denotes a real number (minus one half). -/
theorem e_real : ∃ t : ℝ, e = (t : EReal) := by
  refine ⟨-(1 / 2), ?_⟩
  simp [e, Ideal.ofBits, Ideal.ieee, -EReal.coe_mul]
  norm_num

/-- The identity matrix has real entries. -/
theorem eye_coe (r k : Fin 12288) : eye r k = (((if r = k then 1 else 0 : ℝ)) : EReal) := by
  unfold eye
  split_ifs <;> simp

/-- The real identity behind the agreement: splitting off the diagonal term. -/
theorem real_identity (A : Fin 12288 → Fin 12288 → ℝ) (D : Fin 12288 → ℝ) (S : Fin 12288 → Fin 128 → ℝ)
    (r : Fin 12288) (j : Fin 128) :
    (∑ k : Fin 12288, ((A r k + (if r = k then 1 else 0)) * D r) * D k * S k j)
      = (∑ k : Fin 12288, (A r k * D r) * D k * S k j) + (D r * D r) * S r j := by
  have h : ∀ k : Fin 12288, ((A r k + (if r = k then 1 else 0)) * D r) * D k * S k j
      = (A r k * D r) * D k * S k j + (if r = k then D r * D k * S k j else 0) := by
    intro k
    split_ifs <;> ring
  rw [Finset.sum_congr rfl fun k _ => h k, Finset.sum_add_distrib, Finset.sum_ite_eq]
  simp

/-- The row sum of `A + I` is the row sum of `A` plus one. -/
theorem real_degree (A : Fin 12288 → Fin 12288 → ℝ) (r : Fin 12288) :
    (∑ k : Fin 12288, (A r k + (if r = k then 1 else 0))) = (∑ k : Fin 12288, A r k) + 1 := by
  rw [Finset.sum_add_distrib, Finset.sum_ite_eq]
  simp

theorem outK_eq_outR (a : Fin 12288 → Fin 12288 → EReal) (x : Fin 12288 → Fin 256 → EReal)
    (w : Fin 256 → Fin 128 → EReal) (b : Fin 128 → EReal)
    (ha : ∀ r k, ∃ t : ℝ, a r k = (t : EReal)) (hx : ∀ i l, ∃ t : ℝ, x i l = (t : EReal))
    (hw : ∀ l j, ∃ t : ℝ, w l j = (t : EReal)) (hb : ∀ j, ∃ t : ℝ, b j = (t : EReal))
    (r : Fin 12288) (j : Fin 128) : outK a x w b r j = outR a x w b r j := by
  choose A hA using ha
  choose X hX using hx
  choose W hW using hw
  choose B hB using hb
  obtain ⟨t, ht⟩ := e_real
  -- the support matrix is real
  have hsup : ∀ i j, sup x w i j = ((∑ l : Fin 256, X i l * W l j : ℝ) : EReal) := by
    intro i j
    unfold sup
    rw [coe_sum]
    exact Finset.sum_congr rfl fun l _ => by rw [hX, hW, EReal.coe_mul]
  -- both degrees are the same real number
  have hdegK : ∀ r, degK a r = (((∑ k : Fin 12288, A r k) + 1 : ℝ) : EReal) := by
    intro r
    unfold degK
    rw [EReal.coe_add, coe_sum, EReal.coe_one]
    exact congrArg (· + 1) (Finset.sum_congr rfl fun k _ => hA r k)
  have hdegR : ∀ r, degR a r = (((∑ k : Fin 12288, A r k) + 1 : ℝ) : EReal) := by
    intro r
    unfold degR
    rw [zero_add, ← real_degree, coe_sum]
    exact Finset.sum_congr rfl fun k _ => by rw [hA, eye_coe, EReal.coe_add]
  -- the powers are real
  have hpK : ∀ r, Ideal.pow (degK a r) e
      = ((Real.rpow ((∑ k : Fin 12288, A r k) + 1) t : ℝ) : EReal) := by
    intro r
    rw [hdegK, ht, Ideal.pow_coe_coe]
  have hpR : ∀ r, Ideal.pow (degR a r) e
      = ((Real.rpow ((∑ k : Fin 12288, A r k) + 1) t : ℝ) : EReal) := by
    intro r
    rw [hdegR, ht, Ideal.pow_coe_coe]
  unfold outK outR
  simp only [hpK, hpR, hsup, hA, hB, eye_coe]
  simp only [← EReal.coe_mul, ← EReal.coe_add, ← coe_sum]
  rw [real_identity A (fun r => Real.rpow ((∑ k : Fin 12288, A r k) + 1) t)
    (fun i j => ∑ l : Fin 256, X i l * W l j) r j]

end Cert.Spec
-- ==== Proof.RefValue.lean ====
import proofs.«129173_j30640296690052_1_alg».proof.Proof.Spec
import proofs.«129173_j30640296690052_1_alg».proof.Proof.Gen.ReferenceIdeal.Read
import Idealize.ShloMosaic.Lib.ValueIdx

/-!
The reference's result, read at an index, is the closed form `Cert.Spec.outR`.

The reference builds `A + I` from two iotas: the entry at `(r, k)` compares the row
coordinate with the column coordinate as 32-bit words and converts the one-bit answer
to a float, which is the identity matrix `eye r k` because both coordinates are below
`2^32`.  The row sums of `A + I` from the zero word are `degR`, their power with the
exponent word is broadcast along rows and along columns, and the two contractions are
finite sums over the contracted coordinate.
-/

namespace Cert.ReferenceIdeal.RefValue

open Cert.ReferenceIdeal Cert.ReferenceIdeal.Read Idealize.ShloMosaic Idealize.ShloMosaic.ValueIdx
open scoped BigOperators

/-- Two coordinates below `12288` are equal as 32-bit words exactly when they are equal. -/
theorem ofNat_eq_iff (r k : Fin 12288) : BitVec.ofNat 32 r.val = BitVec.ofNat 32 k.val ↔ r = k := by
  constructor
  · intro h
    have h' := congrArg BitVec.toNat h
    simp only [BitVec.toNat_ofNat] at h'
    have hr := r.isLt
    have hk := k.isLt
    rw [Nat.mod_eq_of_lt (by omega), Nat.mod_eq_of_lt (by omega)] at h'
    exact Fin.ext h'
  · rintro rfl
    rfl

/-- The iota / compare / convert chain at `(r, k)` is the identity matrix. -/
theorem eye_apply (r k : Fin 12288) : val_main_v5 (F := Ideal) (ix2 r k) = Cert.Spec.eye r k := by
  rw [val_main_v5_apply, val_main_v4_apply, val_main_v3_apply, val_main_v0_apply, val_main_v2_apply,
    val_main_c_apply, val_main_v1_apply]
  have hadd : IntOp.addi (BitVec.ofNat 32 ((ix2 r k) 0).val) 0#32 = BitVec.ofNat 32 r.val :=
    BitVec.add_zero _
  rw [hadd]
  show FloatOps.uitofp (F := Ideal) .f32 (IntOp.cmpi .eq (BitVec.ofNat 32 r.val) (BitVec.ofNat 32 k.val)) = _
  unfold Cert.Spec.eye
  by_cases hrk : r = k
  · rw [if_pos hrk, IntOp.cmpi_eq.2 ((ofNat_eq_iff r k).2 hrk)]
    show ((((1#1 : BitVec 1).toNat : ℝ)) : EReal) = 1
    simp
  · rw [if_neg hrk, eq_zero_of_ne_one (fun h => hrk ((ofNat_eq_iff r k).1 (IntOp.cmpi_eq.1 h)))]
    show ((((0#1 : BitVec 1).toNat : ℝ)) : EReal) = 0
    simp

/-- `A + I` at `(r, k)`. -/
theorem v6_apply (x1 : (⟨S12288x12288, .f32⟩ : BufTy).Contents (Elt Ideal)) (r k : Fin 12288) :
    val_main_v6 (F := Ideal) x1 (ix2 r k) = (x1 : S12288x12288.Idx → EReal) (ix2 r k) + Cert.Spec.eye r k := by
  rw [val_main_v6_apply, eye_apply]
  rfl

/-- The row sum of `A + I` from the zero word is `degR`. -/
theorem v7_apply (x1 : (⟨S12288x12288, .f32⟩ : BufTy).Contents (Elt Ideal)) (r : Fin 12288) :
    val_main_v7 (F := Ideal) x1 (ix1 r)
      = Cert.Spec.degR (fun r k => (x1 : S12288x12288.Idx → EReal) (ix2 r k)) r := by
  rw [val_main_v7_apply, val_main_cst_apply, Ideal.ofBits_def, Ideal.ofBits_zero_f32]
  unfold Cert.Spec.degR
  refine congrArg (0 + ·) (Finset.sum_congr rfl fun k _ => ?_)
  have e : idx_main_v7 (ix1 r) k = ix2 r k :=
    funext fun a => Fin.ext (by match a with | ⟨0, _⟩ => rfl | ⟨1, _⟩ => rfl)
  rw [e, v6_apply]

/-- The normalising factor of row `r`: the degree to the power of the exponent word. -/
theorem v9_apply (x1 : (⟨S12288x12288, .f32⟩ : BufTy).Contents (Elt Ideal)) (r : Fin 12288) :
    val_main_v9 (F := Ideal) x1 (ix1 r)
      = Ideal.pow (Cert.Spec.degR (fun r k => (x1 : S12288x12288.Idx → EReal) (ix2 r k)) r) Cert.Spec.e := by
  rw [val_main_v9_apply, v7_apply, val_main_v8_apply, val_main_cst_0_apply]
  rfl

/-- The normalised adjacency matrix at `(r, k)`. -/
theorem v15_apply (x1 : (⟨S12288x12288, .f32⟩ : BufTy).Contents (Elt Ideal)) (r k : Fin 12288) :
    val_main_v15 (F := Ideal) x1 (ix2 r k)
      = (((x1 : S12288x12288.Idx → EReal) (ix2 r k) + Cert.Spec.eye r k)
          * Ideal.pow (Cert.Spec.degR (fun r k => (x1 : S12288x12288.Idx → EReal) (ix2 r k)) r) Cert.Spec.e)
        * Ideal.pow (Cert.Spec.degR (fun r k => (x1 : S12288x12288.Idx → EReal) (ix2 r k)) k) Cert.Spec.e := by
  have e11 : idx_main_v10 (idx_main_v11 (ix2 r k)) = ix1 r :=
    funext fun a => Fin.ext (by match a with | ⟨0, _⟩ => rfl)
  have e14 : idx_main_v13 (idx_main_v14 (ix2 r k)) = ix1 k :=
    funext fun a => Fin.ext (by match a with | ⟨0, _⟩ => rfl)
  rw [val_main_v15_apply, val_main_v12_apply, val_main_v11_apply, val_main_v10_apply, val_main_v14_apply,
    val_main_v13_apply, e11, e14, v9_apply, v9_apply, v6_apply]
  rfl

/-- The support matrix `X W` at `(i, j)`. -/
theorem v16_apply (x0 : (⟨S12288x256, .f32⟩ : BufTy).Contents (Elt Ideal))
    (x2 : (⟨S256x128, .f32⟩ : BufTy).Contents (Elt Ideal)) (i : Fin 12288) (j : Fin 128) :
    val_main_v16 (F := Ideal) x0 x2 (ix2 i j)
      = Cert.Spec.sup (fun i l => (x0 : S12288x256.Idx → EReal) (ix2 i l))
          (fun l j => (x2 : S256x128.Idx → EReal) (ix2 l j)) i j := by
  rw [val_main_v16_apply]
  unfold Cert.Spec.sup
  refine Finset.sum_congr rfl fun l _ => ?_
  have el : lidx_main_v16 (ix2 i j) l = ix2 i l :=
    funext fun a => Fin.ext (by match a with | ⟨0, _⟩ => rfl | ⟨1, _⟩ => rfl)
  have er : ridx_main_v16 (ix2 i j) l = ix2 l j :=
    funext fun a => Fin.ext (by match a with | ⟨0, _⟩ => rfl | ⟨1, _⟩ => rfl)
  rw [el, er]

/-- The reference's result at `(r, j)` is `outR` of the four argument arrays. -/
theorem ref_apply (x0 : (⟨S12288x256, .f32⟩ : BufTy).Contents (Elt Ideal))
    (x1 : (⟨S12288x12288, .f32⟩ : BufTy).Contents (Elt Ideal))
    (x2 : (⟨S256x128, .f32⟩ : BufTy).Contents (Elt Ideal))
    (x3 : (⟨S128, .f32⟩ : BufTy).Contents (Elt Ideal)) (r : Fin 12288) (j : Fin 128) :
    (Cert.ReferenceIdeal.Read.val_main_v20 (F := Ideal) x0 x1 x2 x3 : S12288x128.Idx → EReal) (ix2 r j)
      = Cert.Spec.outR (fun r k => (x1 : S12288x12288.Idx → EReal) (ix2 r k))
          (fun i l => (x0 : S12288x256.Idx → EReal) (ix2 i l))
          (fun l j => (x2 : S256x128.Idx → EReal) (ix2 l j))
          (fun j => (x3 : S128.Idx → EReal) (ix1 j)) r j := by
  have e19 : idx_main_v18 (idx_main_v19 (ix2 r j)) = ix1 j :=
    funext fun a => Fin.ext (by match a with | ⟨0, _⟩ => rfl)
  rw [val_main_v20_apply, val_main_v17_apply, val_main_v19_apply, val_main_v18_apply, e19]
  unfold Cert.Spec.outR
  refine congrArg (· + (x3 : S128.Idx → EReal) (ix1 j)) (Finset.sum_congr rfl fun k _ => ?_)
  have el : lidx_main_v17 (ix2 r j) k = ix2 r k :=
    funext fun a => Fin.ext (by match a with | ⟨0, _⟩ => rfl | ⟨1, _⟩ => rfl)
  have er : ridx_main_v17 (ix2 r j) k = ix2 k j :=
    funext fun a => Fin.ext (by match a with | ⟨0, _⟩ => rfl | ⟨1, _⟩ => rfl)
  rw [el, er, v15_apply, v16_apply]

end Cert.ReferenceIdeal.RefValue
-- ==== Proof.LibFiniteAll.lean ====
/-
  GENERAL LEMMA: a printed finiteness test read back, at the ideal values (no program is imported).

  A precondition "every entry of x is finite" is written `jnp.all(jnp.abs(x) < inf)` and prints as: the absolute value,
  a splat of the word of +∞, an ordered less-than, and a reduction by `and` over every axis from the constant 1. At the
  exact reading of the floats an entry is an extended real, and the test being 1 says it is neither infinity: it is a
  real number (`real_of_abs_lt_inf` for one value, `all_real` for an array of any shape).
-/
import Idealize.ShloMosaic.PureOps.Ideal
import Idealize.ShloMosaic.Lib.ValueIdx
import Idealize.ShloMosaic.Lib.ReduceAll
import Idealize.ShloMosaic.Lib.Pipeline.Value

noncomputable section

namespace Cert.FiniteAll

open Idealize.ShloMosaic Idealize.ShloMosaic.ValueIdx

/-- The scalar shape has one index. -/
instance : Subsingleton (⟨0, ![]⟩ : Shape).Idx := ⟨fun a b => funext fun d => d.elim0⟩

/-- One value: if |x| < +∞ tests true, x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) ⊤ = 1#1 := by rw [← htop]; exact h
  unfold Ideal.cmp at h'
  by_cases hlt : max (x : EReal) (-(x : EReal)) < ⊤
  · rw [max_lt_iff] at hlt
    have h1 : (x : EReal) ≠ ⊤ := hlt.1.ne
    have h2 : (x : EReal) ≠ ⊥ := by
      intro hh
      rw [hh] at hlt
      simp at hlt
    exact ⟨(x : EReal).toReal, (EReal.coe_toReal h1 h2).symm⟩
  · exfalso
    simp [hlt] at h'

/-- An array: if `jnp.all(|x| < +∞)` is 1, every entry of x is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpf .olt (Host.absf x) (broadcastInDim s ![] hb (constant (F := Ideal) ⟨0, ![]⟩ .f32 0x7F800000#32)))
          init hr hu ix0 = 1#1) (i : s.Idx) : ∃ r : ℝ, x i = (r : EReal) := by
  have e := Host.reduce_andi_all _ init hr hu ix0 h i
  refine real_of_abs_lt_inf (x i) ?_
  rw [cmpf_apply, broadcastInDim_apply _ hb _ i ix0 (fun a => a.elim0)] at e
  exact e

end Cert.FiniteAll

end
-- ==== Proof.Finite.lean ====
import proofs.«129173_j30640296690052_1_alg».proof.Defs
import proofs.«129173_j30640296690052_1_alg».proof.Proof.Gen.Pre_finite_inputs
import Idealize.ShloMosaic.Lib.ReduceAll
import proofs.«129173_j30640296690052_1_alg».proof.Proof.LibFiniteAll

/-!
From the precondition to real entries.

The precondition is the conjunction, over the four argument arrays, of
`all (|x| < +∞)`, read back as the one-bit word 1.  A conjunction of one-bit words is 1
exactly when each of them is, and `all p = 1` gives `p = 1` at every index; an extended
real whose absolute value is below `+∞` is neither infinity, hence a real number.
-/

namespace Cert.Proof.Finite

open Idealize.ShloMosaic Idealize.ShloMosaic.ValueIdx Idealize.SL.Sem
open Cert.Pre_finite_inputs

variable [Cert.Pre_finite_inputs.Facts]

/-- If the finiteness test of four arrays is the word 1, every entry of each is a real number. -/
theorem real_of_fn (a0 : FVec Ideal S12288x256 .f32) (a1 : FVec Ideal S12288x12288 .f32)
    (a2 : FVec Ideal S256x128 .f32) (a3 : FVec Ideal S128 .f32)
    (h : Cert.Pre_finite_inputs.fn (F := Ideal) a0 a1 a2 a3 = fun _ => 1#1) :
    (∀ i, ∃ t : ℝ, a0 i = (t : EReal)) ∧ (∀ i, ∃ t : ℝ, a1 i = (t : EReal))
      ∧ (∀ i, ∃ t : ℝ, a2 i = (t : EReal)) ∧ (∀ i, ∃ t : ℝ, a3 i = (t : EReal)) := by
  have h0 := congrFun h ix0
  dsimp only [Cert.Pre_finite_inputs.fn, Cert.Pre_finite_inputs.fn_part1] at h0
  -- the test is ((t0 ∧ t1) ∧ t2) ∧ t3
  obtain ⟨h012, h3⟩ := IntOp.andi_eq_one.1 h0
  obtain ⟨h01, h2⟩ := IntOp.andi_eq_one.1 h012
  obtain ⟨h0', h1⟩ := IntOp.andi_eq_one.1 h01
  exact ⟨Cert.FiniteAll.all_real a0 _ _ _ _ h0', Cert.FiniteAll.all_real a1 _ _ _ _ h1,
    Cert.FiniteAll.all_real a2 _ _ _ _ h2, Cert.FiniteAll.all_real a3 _ _ _ _ h3⟩

/-- Under the precondition every entry of the four argument arrays, on every device, is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ t : ℝ, (m ((c.tc : Thread Cert.KernelIdeal.nD Cert.KernelIdeal.τ).loc Cert.KernelIdeal.main_arg0) : Cert.KernelIdeal.S12288x256.Idx → EReal) i = (t : EReal))
    ∧ (∀ i, ∃ t : ℝ, (m ((c.tc : Thread _ _).loc Cert.KernelIdeal.main_arg1) : Cert.KernelIdeal.S12288x12288.Idx → EReal) i = (t : EReal))
    ∧ (∀ i, ∃ t : ℝ, (m ((c.tc : Thread _ _).loc Cert.KernelIdeal.main_arg2) : Cert.KernelIdeal.S256x128.Idx → EReal) i = (t : EReal))
    ∧ (∀ i, ∃ t : ℝ, (m ((c.tc : Thread _ _).loc Cert.KernelIdeal.main_arg3) : Cert.KernelIdeal.S128.Idx → EReal) i = (t : EReal)) :=
  real_of_fn _ _ _ _ (h c)

end Cert.Proof.Finite
-- ==== Proof.K.R0Base.lean ====
/- The degree kernel (the first pallas_call): what its three control cases share.
   The kernel walks a 12 x 6 grid; point t has row tile t / 6 and column tile t % 6. Its output block
   (1024 row sums) is accumulated over the six column tiles of one row tile: zeroed at column tile 0,
   increased by the tile's row sums at every tile, and increased by one at column tile 5. This module
   fixes the input block at a point, the two branch conditions in closed form over the grid, and the
   staging memrefs the body is called with. -/
import proofs.«129173_j30640296690052_1_alg».proof.Proof.Gen.Kernel.Launch
import proofs.«129173_j30640296690052_1_alg».proof.Proof.Gen.Kernel.Skeleton
import proofs.«129173_j30640296690052_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The adjacency window's staging buffer holds its block at every point, for any proof data whose array is
    the region-entry contents and whose body leaves the block in place: the window is an input, uncut and
    never idle. -/
theorem before0_0_of {c : Dev nD} (dat : Dat τ (Elt F) Unit ℕ (UR sig nD τ) ℕ cfg0 c)
    (hA : dat.A 0 = V c (Proc.devRef .tc (Pipeline.arrRef spec0 0)))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional of the body: the column tile is the first one. -/
abbrev cond0_0 (i : grid0.Coords) : Prop := (Scalar.cmpi .ne (Scalar.extui (Scalar.cmpi .eq (BitVec.ofNat 32 (i 1).val) 0#32)) 0#32) = 1#1
/-- It holds exactly at the points whose column tile is 0. -/
theorem hcond0_0 : ∀ t : Fin cfg0.N, cond0_0 (grid0.coords t) ↔ t.val % 6 = 0 :=
  (by decide +kernel : ∀ t : Fin grid0.N, cond0_0 (grid0.coords t) ↔ t.val % 6 = 0)

/-- The second conditional of the body: the column tile is the last one. -/
abbrev cond0_1 (i : grid0.Coords) : Prop := (Scalar.cmpi .ne (Scalar.extui (Scalar.cmpi .eq (BitVec.ofNat 32 (i 1).val) 5#32)) 0#32) = 1#1
/-- It holds exactly at the points whose column tile is 5. -/
theorem hcond0_1 : ∀ t : Fin cfg0.N, cond0_1 (grid0.coords t) ↔ t.val % 6 = 5 :=
  (by decide +kernel : ∀ t : Fin grid0.N, cond0_1 (grid0.coords t) ↔ t.val % 6 = 5)

/-! ## The staging memrefs -/

/-- One staging buffer of the output window, through which its contents are stated (the choice does not matter). -/
abbrev VO0_1 : View sig .tc .vmem S1024 .f32 := (Memref.whole cc0_stg1_0 : Memref sig .tc .vmem S1024 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)

end Cert.Kernel.Hand

end
-- ==== Proof.K.R0RunA.lean ====
/- The degree kernel's body run in one of its three control cases: the first column tile (the block is zeroed, then the tile's row sums are added).
   The run is found by symbolic execution of the body over its skeleton; what the output's staging
   buffer ends with is the list of stored pieces, the witness of the subtype. -/
import proofs.«129173_j30640296690052_1_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of the first column tile: on whole staging memrefs, the adjacency block at `x0` and the
    output's buffer at anything, the body runs to the continuation holding the input as it was and the output's
    buffer with the pieces `L1` written. -/
noncomputable def kernelRun0_A (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) :
    { L1 : List (View.Piece (Elt F) S1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.K.R0RunB.lean ====
/- The degree kernel's body run in one of its three control cases: a middle column tile (the tile's row sums are added to what the point before left).
   The run is found by symbolic execution of the body over its skeleton; what the output's staging
   buffer ends with is the list of stored pieces, the witness of the subtype. -/
import proofs.«129173_j30640296690052_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of a middle column tile: on whole staging memrefs, the adjacency block at `x0` and the output's
    buffer at its running contents `xo1`, the body runs to the continuation holding the input as it was and the
    output's buffer with the pieces `L1` written. -/
noncomputable def kernelRun0_B (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) :
    { L1 : List (View.Piece (Elt F) S1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.K.R0RunC.lean ====
/- The degree kernel's body run in one of its three control cases: the last column tile (the tile's row sums are added to what the point before left, then one).
   The run is found by symbolic execution of the body over its skeleton; what the output's staging
   buffer ends with is the list of stored pieces, the witness of the subtype. -/
import proofs.«129173_j30640296690052_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of the last column tile: on whole staging memrefs, the adjacency block at `x0` and the output's
    buffer at its running contents `xo1`, the body runs to the continuation holding the input as it was and the
    output's buffer with the pieces `L1` written. -/
noncomputable def kernelRun0_C (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) :
    { L1 : List (View.Piece (Elt F) S1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.Kernel.Hand

end
-- ==== Proof.K.R0.lean ====
/- The degree kernel (the first pallas_call) as one region: its proof data, its body obligation, and the
   passage of the region invariant in and out.
   Point t of the 12 x 6 grid works on row tile t / 6 and column tile t % 6. The output block of a row tile
   stays in its staging buffer over the six column tiles and is written back after the last. What that buffer
   holds after point t is therefore defined by recursion on t: at column tile 0 it is what the body leaves
   from the input block alone (it zeroes the block first), at a later column tile it is what the body leaves
   from the input block and the contents left at point t - 1. -/
import proofs.«129173_j30640296690052_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## What each case leaves in the output's staging buffer -/

/-- The pieces stored at a first column tile tile the block, so they cover it. -/
theorem cover0_A_1 (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) (y : S1024.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1024.size (by sl_kernel_rfl) y

/-- What a first column tile leaves in the output's staging buffer: its pieces read back. -/
def out0_A_1 (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) : Vec F S1024 .f32 :=
  VO0_1.read (Elt F) (VO0_1.writes (Elt F) VO0_1.junk (kernelRun0_A c i arg2 harg2 arg3 harg3 hc0 hc1 x0).1)

/-- The piece stored at a middle column tile is the whole block. -/
theorem cover0_B_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) (y : S1024.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1024.size (by sl_kernel_rfl) y

/-- What a middle column tile leaves in the output's staging buffer: its pieces read back. -/
def out0_B_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) : Vec F S1024 .f32 :=
  VO0_1.read (Elt F) (VO0_1.writes (Elt F) VO0_1.junk (kernelRun0_B c i arg2 harg2 arg3 harg3 hc0 hc1 x0 xo1).1)

/-- The pieces stored at the last column tile tile the block, so they cover it. -/
theorem cover0_C_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) (y : S1024.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S1024.size (by sl_kernel_rfl) y

/-- What the last column tile leaves in the output's staging buffer: its pieces read back. -/
def out0_C_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) : Vec F S1024 .f32 :=
  VO0_1.read (Elt F) (VO0_1.writes (Elt F) VO0_1.junk (kernelRun0_C c i arg2 harg2 arg3 harg3 hc0 hc1 x0 xo1).1)

/-! ## What the output's staging buffer holds after each point -/

/-- A point of column tile 0 is not of column tile 5. -/
theorem not_cond1_of_mod (t : Fin cfg0.N) (h0 : t.val % 6 = 0) : ¬cond0_1 (grid0.coords t) :=
  fun h => by have h5 := (hcond0_1 t).mp h; omega

/-- THE ACCUMULATION. What the output's staging buffer holds after the body at position `n`: the case the column
    tile selects, run at the point's memrefs and input block; at a column tile after the first, over what the body
    left at position `n - 1` (the buffer is not written back in between). -/
def outsAt0 (c : Dev nD) : (n : ℕ) → n < cfg0.N → Vec F S1024 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (not_cond1_of_mod ⟨0, hn⟩ (Nat.zero_mod _)) (iblk0 V c 0 ⟨0, hn⟩)
  | n + 1, hn =>
    if h0 : (n + 1) % 6 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (not_cond1_of_mod ⟨n + 1, hn⟩ h0) (iblk0 V c 0 ⟨n + 1, hn⟩)
    else
      if h1 : (n + 1) % 6 = 5 then
        out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

/-- `outsAt0` at a point of column tile 0. -/
theorem outsAt0_A (c : Dev nD) (t : Fin cfg0.N) (h0 : t.val % 6 = 0) :
    outsAt0 V c t.val t.isLt = out0_A_1 c (grid0.coords t) (ms0_0 t) (hs0_0 t) (ms0_1 t) (hs0_1 t) ((hcond0_0 t).mpr h0) (not_cond1_of_mod t h0) (iblk0 V c 0 t) := by
  obtain ⟨n, hn⟩ := t
  cases n with
  | zero => exact rfl
  | succ n => exact (dif_pos h0).trans rfl

/-- `outsAt0` at a point of a middle column tile: over what the point before left. -/
theorem outsAt0_B (c : Dev nD) (t : Fin cfg0.N) (h0 : ¬t.val % 6 = 0) (h1 : ¬t.val % 6 = 5) :
    outsAt0 V c t.val t.isLt = out0_B_1 c (grid0.coords t) (ms0_0 t) (hs0_0 t) (ms0_1 t) (hs0_1 t) (fun h => h0 ((hcond0_0 t).mp h)) (fun h => h1 ((hcond0_1 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last column tile: over what the point before left. -/
theorem outsAt0_C (c : Dev nD) (t : Fin cfg0.N) (h0 : ¬t.val % 6 = 0) (h1 : t.val % 6 = 5) :
    outsAt0 V c t.val t.isLt = out0_C_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The proof data of the degree kernel's pipeline on core `c`: the arrays as the region finds them; after the
    body at point `t` the adjacency buffer at its block and the output's at `outsAt0`; the invariant the scoped
    rest and the generator register, untouched; nothing owed; full shares. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => outsAt0 V c t.val t.isLt
  Φ _ := Pipeline.ΦA spec0 c
  q _ := fullShare
  owed _ := 0

/-- The proof data's arrays are the region-entry contents. -/
theorem dat0_A (c : Dev nD) (w : Fin cfg0.W) : (dat0 V c).A w = V c (Proc.devRef .tc (Pipeline.arrRef spec0 w)) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

/-- The adjacency window's staging buffer holds its block at every point. -/
theorem before0_0 (c : Dev nD) (t : Fin cfg0.N) (d) : (dat0 V c).before 0 t d = iblk0 V c 0 t :=
  before0_0_of V (dat0 V c) (dat0_A V c 0) (after0_0 V c) t d

/-- At a column tile after the first the output's staging buffer holds what the body left at the point before:
    the point is not the first of the grid, and the buffer is written back only after a last column tile. -/
theorem before0_1_kept (c : Dev nD) (t : Fin cfg0.N) (h0 : ¬t.val % 6 = 0) (d) :
    (dat0 V c).before 1 t d = outsAt0 V c (t.val - 1) (Nat.lt_of_le_of_lt (Nat.sub_le _ _) t.isLt) := by
  have hN : t.val < 72 := lt_of_lt_of_eq t.isLt (show cfg0.N = 72 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the adjacency memref holds its block; the column tile says which case the point is in; at
    a column tile after the first the output's memref holds what the point before left; so that case's run applies.
    The invariant passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 6 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (not_cond1_of_mod t h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 6 = 5
    · rw [outsAt0_C V c t h0 h1]
      simp only [before0_1_kept V c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_kept V c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body0 (c : Dev nD) : BodyObligation (dat0 (F := F) V c) (defs₀ (F := F)) Variants.none () Set.univ := fun t => by
  rw [bigSep_W0, bigSep_W0]
  exact sound_body0 V c t

/-! ## The invariant in and out -/

/-- The region's invariant before the first point is the class's. -/
theorem hin0 (c : Dev nD) : Pipeline.ΦA spec0 c ⊢ (dat0 V c).Φ 0 := by
  dsimp only [dat0]; exact .rfl

/-- And after the last point. -/
theorem hout0 (c : Dev nD) : (dat0 V c).Φ (Fin.last cfg0.N) ⊢ Pipeline.ΦA spec0 c := by
  dsimp only [dat0]; exact .rfl

end Cert.Kernel.Hand

end
-- ==== Proof.K.R1.lean ====
import proofs.«129173_j30640296690052_1_alg».proof.Proof.Gen.Kernel.Launch
import proofs.«129173_j30640296690052_1_alg».proof.Proof.Gen.Kernel.Skeleton
import proofs.«129173_j30640296690052_1_alg».proof.Proof.Gen.Kernel.Points
import Idealize.ShloMosaic.Lib.Pipeline.FrameBody
import Idealize.ShloMosaic.Lib.Tactic

/-!
# The support kernel (custom_call 1): proof data and body obligation

The second pallas_call computes `support = x · W` one row tile at a time: grid point `t` (of 6) loads
the 2048×256 block `t` of `x` and the whole 256×128 matrix `W`, multiplies them into a zero accumulator
and stores the product, narrowed to bf16, into the 2048×128 block `t` of the result. The body keeps nothing
from point to point, so what it leaves in the output window's buffer is a function of the two input blocks
alone, and each input buffer holds its block of the array as the region found it.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's unscoped buffers when the region is entered
variable (V : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The buffer of the `x` window holds the block of `x` at every point, for any proof data over the region's
    arrays whose body leaves the block in place. -/
theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of the `W` window holds all of `W` at every point: it is fetched once, at the first point, and its
    block index never moves. -/
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x256 := Rect.unit (s := S2048x256) ![0, 0] S2048x256.size inb_S2048x256_S2048x256_0_0
abbrev r1_1 : Rect S256x128 := Rect.unit (s := S256x128) ![0, 0] S256x128.size inb_S256x128_S256x128_0_0
abbrev r1_2 : Rect S2048x128 := Rect.unit (s := S2048x128) ![0, 0] S2048x128.size inb_S2048x128_S2048x128_0_0

/-! ## What the body leaves in the output window's buffer -/

/-- The output buffer after the body, from the two input blocks: its one store, of the narrowed product. -/
def out1_2 (x0 : Vec F S2048x256 .f32) (x1 : Vec F S256x128 .f32) : Vec F S2048x128 .bf16 :=
  View.canon [⟨r1_2, k1_pay1 (View.ld x0 r1_0) (View.ld x1 r1_1)⟩]

/-- The one store covers the buffer. -/
theorem cover1_2 (p0 : Vec F S2048x128 .bf16) (y : S2048x128.Idx) :
    ∃ pc ∈ ([⟨r1_2, p0⟩] : List (View.Piece (Elt F) S2048x128 .bf16)), y ∈ pc.1.set :=
  View.cover_of_tiled [⟨r1_2, p0⟩] S2048x128.size (by rfl) y

/-! ## The body's triple -/

set_option maxHeartbeats 1000000 in
/-- The body on whole staging memrefs, the inputs' holding `x0` and `x1` and the output's anything, runs to the
    continuation holding the inputs' as they were and the output's at `out1_2 x0 x1`. -/
theorem sound_kernel1 (c : Dev nD) (E : Set ℕ) (i : grid1.Coords) (arg1 : Memref sig .tc .vmem S2048x256 .f32) (harg1 : arg1.IsWhole) (arg2 : Memref sig .tc .vmem S256x128 .f32) (harg2 : arg2.IsWhole) (arg3 : Memref sig .tc .vmem S2048x128 .bf16) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__support_kernel i arg1 harg1 arg2 harg2 arg3 harg3) K := by
  simp only [cc1__support_kernel_eq_skeleton]; unfold cc1__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the support kernel's pipeline on core `c`: the arrays as the region finds them; after the
    body at point `t` each input's buffer at its block and the output's at `out1_2` of the two blocks; the scoped
    rest and the generator register untouched; nothing owed; full shares. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem dat1_A (c : Dev nD) (w : Fin cfg1.W) : (dat1 V c).A w = V c (Proc.devRef .tc (Pipeline.arrRef spec1 w)) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (dat1_A V c 0) (after1_0 V c) t d
theorem before1_1 (c : Dev nD) (t : Fin cfg1.N) (d) : (dat1 V c).before 1 t d = iblk1 V c 1 t :=
  before1_1_of V (dat1 V c) (dat1_A V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body1 (c : Dev nD) : BodyObligation (dat1 (F := F) V c) (defs₀ (F := F)) Variants.none () Set.univ := fun t => by
  rw [bigSep_W1, bigSep_W1]
  exact sound_body1 V c t

/-! ## The invariant at the region's two ends -/

/-- Entering the region: the invariant before the first point is the scoped rest and the generator register. -/
theorem hin1 (c : Dev nD) : (Pipeline.ΦA spec1 c : sProp 𝕄) ⊢ (dat1 V c).Φ 0 := .rfl

/-- Leaving it: the invariant after the last point is the same. -/
theorem hout1 (c : Dev nD) : (dat1 V c).Φ (Fin.last cfg1.N) ⊢ (Pipeline.ΦA spec1 c : sProp 𝕄) := .rfl

end Cert.Kernel.Hand

end
-- ==== Proof.K.R2Runs.lean ====
import proofs.«129173_j30640296690052_1_alg».proof.Proof.Gen.Kernel.Launch
import proofs.«129173_j30640296690052_1_alg».proof.Proof.Gen.Kernel.Skeleton
import proofs.«129173_j30640296690052_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! # The third kernel (scale, multiply, accumulate, add bias): what its three control cases share

The grid is 12 × 12: point `t` has row tile `t / 12` and column tile `j = t % 12`. The body zeroes its
accumulator when `j = 0`, adds one tile's product at every point, and writes the output block when `j = 11`. -/

/-- An array of the core as the region finds it, read at a TensorCore reference. -/
abbrev VA (c : Dev nD) (b : Ref sig .tc) : Buf (Elt F) ((c : Thread nD τ).loc b) := V c (Proc.devRef .tc b)

/-! ## The branch conditions, in closed form over the grid -/

/-- The first conditional's test: the column tile is the first. -/
abbrev cond2_0 (i : grid2.Coords) : Prop := (Scalar.cmpi .ne (Scalar.extui (Scalar.cmpi .eq (BitVec.ofNat 32 (i 1).val) 0#32)) 0#32) = 1#1
/-- It holds exactly at the points with `t % 12 = 0`. -/
theorem hcond2_0 : ∀ t : Fin cfg2.N, cond2_0 (grid2.coords t) ↔ t.val % 12 = 0 :=
  (by decide +kernel : ∀ t : Fin grid2.N, cond2_0 (grid2.coords t) ↔ t.val % 12 = 0)

/-- The second conditional's test: the column tile is the last. -/
abbrev cond2_1 (i : grid2.Coords) : Prop := k2_cond2 i = 1#1
/-- It holds exactly at the points with `t % 12 = 11`. -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the output window is idle -/

/-- With the first column tile (and not the last) the output block is not stored: the window is idle, -/
theorem idleAt2_6_A : ∀ t : Fin cfg2.N, cond2_0 (grid2.coords t) → ¬cond2_1 (grid2.coords t) → cfg2.idle 6 (grid2.coords t) = true := by decide +kernel
/-- and not written back. -/
theorem noFlush2_6_A : ∀ t : Fin cfg2.N, cond2_0 (grid2.coords t) → ¬cond2_1 (grid2.coords t) → (cfg2.win 6).flush t = false := by decide +kernel
/-- At a middle column tile likewise idle, -/
theorem idleAt2_6_B : ∀ t : Fin cfg2.N, ¬cond2_0 (grid2.coords t) → ¬cond2_1 (grid2.coords t) → cfg2.idle 6 (grid2.coords t) = true := by decide +kernel
/-- and not written back. -/
theorem noFlush2_6_B : ∀ t : Fin cfg2.N, ¬cond2_0 (grid2.coords t) → ¬cond2_1 (grid2.coords t) → (cfg2.win 6).flush t = false := by decide +kernel
/-- At the last column tile the output block is stored: the window is live. -/
theorem liveAt2_6_C : ∀ t : Fin cfg2.N, ¬cond2_0 (grid2.coords t) → cond2_1 (grid2.coords t) → cfg2.idle 6 (grid2.coords t) = false := by decide +kernel

/-! ## The staging memrefs and the accumulator -/

/-- Window 0's current staging memref at point `t`, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
/-- Window 1's current staging memref at point `t`, and its wholeness. -/
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
/-- Window 2's current staging memref at point `t`, and its wholeness. -/
abbrev ms2_2 (t : Fin cfg2.N) : Memref sig .tc .vmem S1024x128 .bf16 := win2_2.stage (cfg2.slots t 2)
abbrev hs2_2 (t : Fin cfg2.N) : (ms2_2 t).IsWhole := hstage2_2 ((cfg2.slots t 2).cast nbuf2_2)
/-- Window 3's current staging memref at point `t`, and its wholeness. -/
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
/-- Window 4's current staging memref at point `t`, and its wholeness. -/
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
/-- Window 5's current staging memref at point `t`, and its wholeness. -/
abbrev ms2_5 (t : Fin cfg2.N) : Memref sig .tc .vmem S128 .f32 := win2_5.stage (cfg2.slots t 5)
abbrev hs2_5 (t : Fin cfg2.N) : (ms2_5 t).IsWhole := hstage2_5 ((cfg2.slots t 5).cast nbuf2_5)
/-- Window 6's current staging memref at point `t`, and its wholeness. -/
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the kernel's own, carried from point to point. -/
abbrev scM2_0 : Memref sig .tc .vmem S1024x128 .f32 := Memref.whole cc2_scratch0
/-- The accumulator as a view: its contents are stated through it. -/
abbrev VS2_0 : View sig .tc .vmem S1024x128 .f32 := (scM2_0).view
/-- One staging buffer of the output window, through which its contents are stated. -/
abbrev VO2_6 : View sig .tc .vmem S1024x128 .f32 := (Memref.whole cc2_stg6_0 : Memref sig .tc .vmem S1024x128 .f32).view

/-- The core's scoped buffers other than this kernel's staging buffers, each at some contents, the accumulator
    last and at `P`. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P)

/-- The region invariant of the class with the accumulator as an owned memref. -/
theorem PhiA2_eq (c : Dev nD) :
    (Pipeline.ΦA spec2 c : sProp 𝕄)
      = iprop(restWith (F := F) c iprop(∃ d, owns (c : Thread nD τ) scM2_0 fullShare d) ∗ (∃ r, prngReg c r)) := by
  unfold Pipeline.ΦA restWith; rw [scopedRest2_eq]; simp only [scM2_0, owns_whole]; try rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (VA V c (Pipeline.arrRef spec2 w))

/-- Input window 0's current staging buffer holds its block at every point, fetched there or not: unfetched,
    the block index has not moved. -/
theorem before2_0_of {c : Dev nD} (dat : Dat τ (Elt F) Unit ℕ (UR sig nD τ) ℕ cfg2 c) (hA : dat.A 0 = VA V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched,
    the block index has not moved. -/
theorem before2_1_of {c : Dev nD} (dat : Dat τ (Elt F) Unit ℕ (UR sig nD τ) ℕ cfg2 c) (hA : dat.A 1 = VA V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched,
    the block index has not moved. -/
theorem before2_2_of {c : Dev nD} (dat : Dat τ (Elt F) Unit ℕ (UR sig nD τ) ℕ cfg2 c) (hA : dat.A 2 = VA V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched,
    the block index has not moved. -/
theorem before2_3_of {c : Dev nD} (dat : Dat τ (Elt F) Unit ℕ (UR sig nD τ) ℕ cfg2 c) (hA : dat.A 3 = VA V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched,
    the block index has not moved. -/
theorem before2_4_of {c : Dev nD} (dat : Dat τ (Elt F) Unit ℕ (UR sig nD τ) ℕ cfg2 c) (hA : dat.A 4 = VA V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched,
    the block index has not moved. -/
theorem before2_5_of {c : Dev nD} (dat : Dat τ (Elt F) Unit ℕ (UR sig nD τ) ℕ cfg2 c) (hA : dat.A 5 = VA V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Hand

end
-- ==== Proof.K.R2RunA.lean ====
/- The third kernel's body run in one of its three control cases: the first column tile of a row of tiles.
   The accumulator is zeroed, one tile's product is added to it, and the output block is not touched. What the
   accumulator ends with is the list of stored pieces the run finds, the witness of the subtype. -/
import proofs.«129173_j30640296690052_1_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at the first column tile of a row of tiles (first conditional taken, second not): the accumulator is zeroed, then one product added; the output block is left untouched. On whole memrefs — the six inputs owned at their contents `x0 … x5`, the output's buffer at contents `xi6` handed back as found, the accumulator at anything — the body runs to the
    continuation holding the inputs as they were, and the accumulator with the pieces `LS0` written. The
    pieces are found by running the body's skeleton. -/
noncomputable def kernelRun2_A (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨[], ?_, fun xi6 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R2RunB.lean ====
/- The third kernel's body run in one of its three control cases: a middle column tile of a row of tiles.
   One tile's product is added to what the accumulator held, and the output block is not touched. What the
   accumulator ends with is the list of stored pieces the run finds, the witness of the subtype. -/
import proofs.«129173_j30640296690052_1_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at a middle column tile (neither conditional taken): one product is added to the accumulator; the output block is left untouched. On whole memrefs — the six inputs owned at their contents `x0 … x5`, the output's buffer at contents `xi6` handed back as found, the accumulator at the contents `xs0` the point before left — the body runs to the
    continuation holding the inputs as they were, and the accumulator with the pieces `LS0` written. The
    pieces are found by running the body's skeleton. -/
noncomputable def kernelRun2_B (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨[], ?_, fun xi6 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R2RunC.lean ====
/- The third kernel's body run in one of its three control cases: the last column tile of a row of tiles.
   One tile's product is added to what the accumulator held, and the output block is stored from the finished sum,
   the diagonal term and the bias. What the accumulator and the output's staging buffer end with are the lists of
   stored pieces the run finds, the witnesses of the subtype. -/
import proofs.«129173_j30640296690052_1_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at the last column tile (second conditional taken, first not): one product is added to the accumulator, and the output block is stored from it. On whole memrefs — the six inputs owned at their contents `x0 … x5`, the output's buffer at anything, the accumulator at the contents `xs0` the point before left — the body runs to the
    continuation holding the inputs as they were, the output's buffer with the pieces `L6` written, and the accumulator with the pieces `LS0` written. The
    pieces are found by running the body's skeleton. -/
noncomputable def kernelRun2_C (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨?_, ?_, fun E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.R2.lean ====
import proofs.«129173_j30640296690052_1_alg».proof.Proof.K.R2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (q : Fin cfg2.W → PosShare TreeShare) (V : Dev nD → Valuation τ sig (Elt F))

/-! # The third kernel: what each case leaves, the accumulation over the grid, the proof data, the body obligation

Within a row of tiles the accumulator after column tile `j` holds the sum of the first `j + 1` products; the
output block is written once, at the last column tile, from the finished sum. -/

/-- The first column tile stores nothing into the output block (the window is idle there and not written back): no
    pieces, a placeholder nothing consults. -/
def out2_A_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

/-- The accumulator's pieces in this case tile it (whole stores), so they cover it. -/
theorem scover2_A_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y

/-- What this case leaves in the accumulator: its pieces read back. -/
def sout2_A_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- A middle column tile stores nothing into the output block (the window is idle there and not written back): no
    pieces, a placeholder nothing consults. -/
def out2_B_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

/-- The accumulator's pieces in this case tile it (whole stores), so they cover it. -/
theorem scover2_B_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator: its pieces read back. -/
def sout2_B_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

/-- At the last column tile the output block's pieces tile it (one whole store), so they cover it. -/
theorem cover2_C_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What the last column tile leaves in the output's staging buffer: its pieces read back. -/
def out2_C_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

/-- The accumulator's pieces in this case tile it (whole stores), so they cover it. -/
theorem scover2_C_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator: its pieces read back. -/
def sout2_C_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n`
    (a pair: the output's buffer, then the accumulator): the case the column tile `n % 12` selects, run at the
    point's memrefs and input blocks, the accumulator entering a point that is not first in its row of tiles at
    what the point before left. No point is both first and last in its row. -/
def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 12 = 0 then
      if h1 : (n + 1) % 12 = 11 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 12 = 11 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a first column tile: that case's contents. -/
theorem outsAt2_A (c : Dev nD) (t : Fin cfg2.N) (h0 : t.val % 12 = 0) (h1 : ¬t.val % 12 = 11) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle column tile: that case's contents, over what the point before left. -/
theorem outsAt2_B (c : Dev nD) (t : Fin cfg2.N) (h0 : ¬t.val % 12 = 0) (h1 : ¬t.val % 12 = 11) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last column tile: that case's contents, over what the point before left. -/
theorem outsAt2_C (c : Dev nD) (t : Fin cfg2.N) (h0 : ¬t.val % 12 = 0) (h1 : t.val % 12 = 11) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer at anything); afterwards the same with the
    accumulator at what the point before left in it, and the generator register at some state. -/
def PhiS2 (c : Dev nD) : (n : ℕ) → n ≤ cfg2.N → sProp 𝕄
  | 0, _ => Pipeline.ΦA spec2 c
  | n + 1, hn => iprop(restWith (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(restWith (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(restWith (F := F) c (owns (c : Thread nD τ) scM2_0 fullShare ((outsAt2 V c (n - 1) (by omega)).2)) ∗ (∃ r, prngReg c r)) := by
  cases n with
  | zero => exact absurd rfl hz
  | succ n => rfl

/-! ## The proof data -/

/-- The proof data of the third kernel's pipeline on core `c`: the arrays as the region finds them; after the body
    at point `t` each input's buffer at its block and the output's at `outsAt2`'s first component; the invariant
    `PhiS2`; nothing owed; the arrays' shares `q` as given (two windows read one array, so its share is dealt
    between them by whoever launches the region; the body never touches the arrays). -/
def dat2 (c : Dev nD) : Dat τ (Elt F) Unit ℕ (UR sig nD τ) ℕ cfg2 c where
  A w := VA V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q
  owed _ := 0

/-- The proof data's arrays are the region-entry contents (the definition projected, nothing evaluated). -/
theorem dat2_A (c : Dev nD) (w : Fin cfg2.W) : (dat2 q V c).A w = V c (Proc.devRef .tc (Pipeline.arrRef spec2 w)) := by
  dsimp only [dat2]

theorem dat2_A' (c : Dev nD) (w : Fin cfg2.W) : (dat2 q V c).A w = VA V c (Pipeline.arrRef spec2 w) := by
  dsimp only [dat2]

/-- The invariant at a point's start, restated at the point's position. -/
theorem PhiS2_castSucc (c : Dev nD) (t : Fin cfg2.N) :
    (dat2 q V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 q V c).after 0 t = iblk2 V c 0 t := by dsimp only [dat2]
theorem after2_1 (c : Dev nD) (t : Fin cfg2.N) : (dat2 q V c).after 1 t = iblk2 V c 1 t := by dsimp only [dat2]
theorem after2_2 (c : Dev nD) (t : Fin cfg2.N) : (dat2 q V c).after 2 t = iblk2 V c 2 t := by dsimp only [dat2]
theorem after2_3 (c : Dev nD) (t : Fin cfg2.N) : (dat2 q V c).after 3 t = iblk2 V c 3 t := by dsimp only [dat2]
theorem after2_4 (c : Dev nD) (t : Fin cfg2.N) : (dat2 q V c).after 4 t = iblk2 V c 4 t := by dsimp only [dat2]
theorem after2_5 (c : Dev nD) (t : Fin cfg2.N) : (dat2 q V c).after 5 t = iblk2 V c 5 t := by dsimp only [dat2]
theorem after2_6 (c : Dev nD) (t : Fin cfg2.N) : (dat2 q V c).after 6 t = (outsAt2 V c t.val t.isLt).1 := by dsimp only [dat2]

/-- Each input's current staging buffer holds its block at every point, fetched there or not. -/
theorem before2_0 (c : Dev nD) (t : Fin cfg2.N) (d) : (dat2 q V c).before 0 t d = iblk2 V c 0 t :=
  before2_0_of V (dat2 q V c) (dat2_A' q V c 0) (after2_0 q V c) t d
theorem before2_1 (c : Dev nD) (t : Fin cfg2.N) (d) : (dat2 q V c).before 1 t d = iblk2 V c 1 t :=
  before2_1_of V (dat2 q V c) (dat2_A' q V c 1) (after2_1 q V c) t d
theorem before2_2 (c : Dev nD) (t : Fin cfg2.N) (d) : (dat2 q V c).before 2 t d = iblk2 V c 2 t :=
  before2_2_of V (dat2 q V c) (dat2_A' q V c 2) (after2_2 q V c) t d
theorem before2_3 (c : Dev nD) (t : Fin cfg2.N) (d) : (dat2 q V c).before 3 t d = iblk2 V c 3 t :=
  before2_3_of V (dat2 q V c) (dat2_A' q V c 3) (after2_3 q V c) t d
theorem before2_4 (c : Dev nD) (t : Fin cfg2.N) (d) : (dat2 q V c).before 4 t d = iblk2 V c 4 t :=
  before2_4_of V (dat2 q V c) (dat2_A' q V c 4) (after2_4 q V c) t d
theorem before2_5 (c : Dev nD) (t : Fin cfg2.N) (d) : (dat2 q V c).before 5 t d = iblk2 V c 5 t :=
  before2_5_of V (dat2 q V c) (dat2_A' q V c 5) (after2_5 q V c) t d

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl

/-! ## The body obligation, at a generic point -/

/-- What the body is called with at point `t`, the windows one by one, -/
def bodyPre2 (c : Dev nD) (t : Fin cfg2.N) : sProp 𝕄 :=
  iprop((dat2 q V c).Φ t.castSucc ∗ (dat2 q V c).owesAt () t.castSucc
    ∗ (∃ d, owns (c : Thread nD τ) (ms2_0 t) fullShare ((dat2 q V c).before 0 t d))
    ∗ (∃ d, owns (c : Thread nD τ) (ms2_1 t) fullShare ((dat2 q V c).before 1 t d))
    ∗ (∃ d, owns (c : Thread nD τ) (ms2_2 t) fullShare ((dat2 q V c).before 2 t d))
    ∗ (∃ d, owns (c : Thread nD τ) (ms2_3 t) fullShare ((dat2 q V c).before 3 t d))
    ∗ (∃ d, owns (c : Thread nD τ) (ms2_4 t) fullShare ((dat2 q V c).before 4 t d))
    ∗ (∃ d, owns (c : Thread nD τ) (ms2_5 t) fullShare ((dat2 q V c).before 5 t d))
    ∗ (∃ d, owns (c : Thread nD τ) (ms2_6 t) fullShare ((dat2 q V c).before 6 t d)))

/-- and what it returns. -/
def bodyPost2 (c : Dev nD) (t : Fin cfg2.N) : sProp 𝕄 :=
  iprop((dat2 q V c).Φ t.succ ∗ (dat2 q V c).owesAt () t.succ
    ∗ (dat2 q V c).leavesExact 0 t
    ∗ (dat2 q V c).leavesExact 1 t
    ∗ (dat2 q V c).leavesExact 2 t
    ∗ (dat2 q V c).leavesExact 3 t
    ∗ (dat2 q V c).leavesExact 4 t
    ∗ (dat2 q V c).leavesExact 5 t
    ∗ (dat2 q V c).leavesExact 6 t)

set_option maxHeartbeats 4800000 in
/-- The body at any point. The inputs' memrefs hold their blocks; the column tile `t % 12` says which case the
    point is in; at a first column tile the accumulator may hold anything (it is zeroed), elsewhere it holds what
    the point before left; the run of the case applies and the accumulator comes back at this point's contents;
    where the output block is not stored its buffer is handed back as found. -/
theorem sound_body2 (c : Dev nD) (t : Fin cfg2.N) :
    bodyPre2 q V c t ⊢ wp frame (wpE (defs₀ (F := F)) Variants.none c none) Set.univ (bodyAt2 t) (fun _ => bodyPost2 q V c t) := by
  unfold bodyPre2 bodyPost2 bodyAt2
  simp only [before2_0, before2_1, before2_2, before2_3, before2_4, before2_5]
  rw [show (dat2 q V c).owesAt () t.succ = (dat2 q V c).owesAt () t.castSucc from rfl]
  rw [show (dat2 q V c).Φ t.succ = PhiS2 V c (t.val + 1) t.isLt from rfl, PhiS2_succ]
  have hN : t.val < 144 := lt_of_lt_of_eq t.isLt (show cfg2.N = 144 from N_2)
  rw [show (dat2 q V c).leavesExact 0 t = owns (c : Thread nD τ) (ms2_0 t) fullShare ((dat2 q V c).after 0 t) from by
    unfold Dat.leavesExact; rw [liveAt2_0 t], after2_0]
  rw [show (dat2 q V c).leavesExact 1 t = owns (c : Thread nD τ) (ms2_1 t) fullShare ((dat2 q V c).after 1 t) from by
    unfold Dat.leavesExact; rw [liveAt2_1 t], after2_1]
  rw [show (dat2 q V c).leavesExact 2 t = owns (c : Thread nD τ) (ms2_2 t) fullShare ((dat2 q V c).after 2 t) from by
    unfold Dat.leavesExact; rw [liveAt2_2 t], after2_2]
  rw [show (dat2 q V c).leavesExact 3 t = owns (c : Thread nD τ) (ms2_3 t) fullShare ((dat2 q V c).after 3 t) from by
    unfold Dat.leavesExact; rw [liveAt2_3 t], after2_3]
  rw [show (dat2 q V c).leavesExact 4 t = owns (c : Thread nD τ) (ms2_4 t) fullShare ((dat2 q V c).after 4 t) from by
    unfold Dat.leavesExact; rw [liveAt2_4 t], after2_4]
  rw [show (dat2 q V c).leavesExact 5 t = owns (c : Thread nD τ) (ms2_5 t) fullShare ((dat2 q V c).after 5 t) from by
    unfold Dat.leavesExact; rw [liveAt2_5 t], after2_5]
  by_cases h0 : t.val % 12 = 0
  · by_cases h1 : t.val % 12 = 11
    · exfalso; omega
    · rw [Dat.leavesExact_idle (dat2 q V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc q V c t, PhiS2_zero V c _ _ hz, PhiA2_eq]
        unfold restWith
        iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 R8 R9 HS0 Hg]
        · isplitl [R1 R2 R3 R4 R5 R6 R7 R8 R9 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc q V c t, PhiS2_pos V c _ _ hz]
        unfold restWith
        iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [R1 R2 R3 R4 R5 R6 R7 R8 R9 HS0 Hg]
        · isplitl [R1 R2 R3 R4 R5 R6 R7 R8 R9 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 12 = 11
    · rw [show (dat2 q V c).leavesExact 6 t = owns (c : Thread nD τ) (ms2_6 t) fullShare ((dat2 q V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc q V c t, PhiS2_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover2_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 q V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc q V c t, PhiS2_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover2_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the third kernel's pipeline, at every point. -/
theorem body2 (c : Dev nD) : BodyObligation (dat2 (F := F) q V c) (defs₀ (F := F)) Variants.none () Set.univ := fun t => by
  rw [bigSep_W2, bigSep_W2]
  exact sound_body2 q V c t

/-- What the launch hands the region is the invariant before the first point. -/
theorem hin2 (c : Dev nD) : Pipeline.ΦA spec2 c ⊢ (dat2 q V c).Φ 0 := by
  rw [show (dat2 q V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 q V c).Φ t ⊢ Pipeline.ΦA spec2 c := by
  rw [show (dat2 q V c).Φ t = PhiS2 V c t.val (Nat.le_of_lt_succ t.isLt) from rfl, PhiS2_pos V c _ _ ht, PhiA2_eq]
  unfold restWith
  iintro ⟨⟨R1, R2, R3, R4, R5, R6, R7, R8, R9, HS0⟩, Hg⟩
  isplitl [R1 R2 R3 R4 R5 R6 R7 R8 R9 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout2 (c : Dev nD) : (dat2 q V c).Φ (Fin.last cfg2.N) ⊢ Pipeline.ΦA spec2 c :=
  Phi_out2 q V c _ (by rw [Fin.val_last]; have : cfg2.N = 144 := N_2; omega)

end Cert.Kernel.Hand

end
-- ==== Proof.LibPlainRegion.lean ====
/-
  GENERAL LEMMAS (the pipeline library only; no program is imported).

  A kernel region of a program of several regions whose kernel keeps only scoped scratch — no semaphore of its
  own, no prefetched table, nothing owed to another core — as a segment of the main program. The region is
  entered from every unscoped buffer of the core held at a valuation `V c`, beside the core owing nothing and its
  generator register at some state; it leaves every unscoped buffer held at the valuation `exitVal`: the arrays
  behind the region's windows at what the proof data compute after the last grid point, every other buffer as it was.
  What the region's invariant takes at the first point is the scoped buffers no window stages and the generator
  register, and it gives the same back after the last point.
-/
import Idealize.ShloMosaic.Lib.Pipeline.Regions
import Idealize.ShloMosaic.Lib.Pipeline.RegionsLoop
import Idealize.ShloMosaic.Lib.Pipeline.Frame
import Idealize.ShloMosaic.Lib.Pipeline.Kit

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section PlainRegion

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- What rides beside the buffers between the segments: the core owes nothing, and its generator register is at
    some state. -/
def plainRest (c : Dev nD) : sProp 𝕄 :=
  iprop((∃ W, owes (c.tc : Thread nD τ) (0 : CellTallies nD τ sig Unit) W) ∗ ∃ r, prngReg c r)

/-- The buffers' contents when the region is left: the array behind window `w` at what the write-backs of all
    the grid points leave in it, every other buffer at `V`. -/
def exitVal (cfg : Cfg sig Λ₀) {c : Dev nD} (dat : Dat τ Val Unit ℕ (UR sig nD τ) ℕ cfg c) (V : Valuation τ sig Val) :
    Valuation τ sig Val := fun d =>
  if h : ∃ w : Fin cfg.W, (Proc.devRef .tc (arrRef cfg.spec w) : DevRef τ sig) = d
  then h.choose_spec ▸ (show (Proc.devRef .tc (arrRef cfg.spec h.choose) : DevRef τ sig).ty.Contents Val from
    dat.arrAt h.choose cfg.N)
  else V d

/-- At the array behind window `w` the exit valuation is what the proof data compute (the arrays are distinct
    buffers). -/
theorem exitVal_arr {cfg : Cfg sig Λ₀} {c : Dev nD} (dat : Dat τ Val Unit ℕ (UR sig nD τ) ℕ cfg c)
    (hinj : Function.Injective (arrRef cfg.spec)) (V : Valuation τ sig Val) (w : Fin cfg.W) :
    exitVal cfg dat V (Proc.devRef .tc (arrRef cfg.spec w)) = dat.arrAt w cfg.N := by
  have key : ∀ (w' : Fin cfg.W)
      (e : (Proc.devRef .tc (arrRef cfg.spec w') : DevRef τ sig) = Proc.devRef .tc (arrRef cfg.spec w)),
      (e ▸ (show (Proc.devRef .tc (arrRef cfg.spec w') : DevRef τ sig).ty.Contents Val from
        dat.arrAt w' cfg.N) : (Proc.devRef .tc (arrRef cfg.spec w) : DevRef τ sig).ty.Contents Val)
        = dat.arrAt w cfg.N := by
    intro w' e
    have hw : w' = w := hinj (by
      by_contra hne
      exact StableHlo.devRef_ne_of_ne hne e)
    subst hw; rfl
  unfold exitVal
  rw [dif_pos ⟨w, rfl⟩]
  exact key _ _

/-- At a buffer that is no window's array the exit valuation is the entry one. -/
theorem exitVal_rest {cfg : Cfg sig Λ₀} {c : Dev nD} (dat : Dat τ Val Unit ℕ (UR sig nD τ) ℕ cfg c)
    (V : Valuation τ sig Val) (b : Ref sig .tc) (hb : b ∉ Finset.univ.image (arrRef cfg.spec)) :
    exitVal cfg dat V (Proc.devRef .tc b) = V (Proc.devRef .tc b) := by
  unfold exitVal
  rw [dif_neg]
  rintro ⟨w, hw⟩
  refine hb (Finset.mem_image.mpr ⟨w, Finset.mem_univ _, ?_⟩)
  by_contra hne
  exact StableHlo.devRef_ne_of_ne hne hw

variable (L : GSem nD τ sig → Finset Unit) (lv : GSem nD τ sig → Unit → ℕ)

set_option backward.isDefEq.respectTransparency.types false in
/-- THE REGION AS A SEGMENT. The layout is the launch facts'; the kernel has no semaphore of its own; the body
    obligation is the certificate's; the region's arrays are sorted out of the unscoped buffers at entry and put back
    at exit, the other unscoped buffers bypass it, the generator register enters the invariant and comes back. -/
def plainRegion (kit : LaunchFacts (nD := nD) (τ := τ) cfgs p)
    (hbody : ∀ c, BodyObligationLoose (dats p c) defs₀ 𝒱₀ () Set.univ)
    (howed : ∀ c t, (dats p c).owed t = 0)
    (hrec : ∀ c t, (dats p c).recorded t = Set.univ)
    (hq : ∀ c w, (dats p c).q w = fullShare)
    (V : Dev nD → Valuation τ sig Val)
    (hA : ∀ c w, (dats p c).A w = V c (Proc.devRef .tc (arrRef (cfgs p).spec w)))
    (hin : ∀ c, ΦA (cfgs p).spec c ⊢ (dats p c).Φ 0)
    (hout : ∀ c, (dats p c).Φ (Fin.last (cfgs p).N) ⊢ ΦA (cfgs p).spec c) :
    RegionSeg (fun q => (cfgs q).toPCfg (Val := Val)) (fun q => (cfgs q).toPCfg_adm) dats () defs₀ 𝒱₀ L lv p where
  win := kit.win.to₀
  block_pos := kit.block_pos
  stage_whole := kit.stage_whole
  K := PEmpty
  osem := fun k => k.elim
  ho := OwnSemFacts.none _
  hbody := hbody
  hwaits := hwaits_of_owed_zero _ _ _ _ L lv p howed
  pre c := iprop(StableHlo.held (c.tc : Thread nD τ) (ucRefs τ sig) (V c) ∗ plainRest c)
  post c := iprop(StableHlo.held (c.tc : Thread nD τ) (ucRefs τ sig) (exitVal (cfgs p) (dats p c) (V c)) ∗ plainRest c)
  X c := iprop(∃ r, prngReg c r)
  Y c := iprop(∃ r, prngReg c r)
  Z c := unscopedRest (cfgs p).spec c (fun b => V c (Proc.devRef .tc b))
  hentry c := by
    rw [← unscopedBufs_held c (V c)]
    have hsplit := arrays_of_unscopedBufs (fun q => (cfgs q).toPCfg (Val := Val)) (fun q => (cfgs q).toPCfg_adm) dats
      kit.win kit.arr_whole c ((dats p c).share_full (hq c)) (fun b => V c (Proc.devRef .tc b)) (hA c)
    unfold plainRest
    iintro ⟨⟨Hub, HR⟩, -, -⟩
    icases HR with ⟨HO, Hp⟩
    ihave H := hsplit $$ Hub
    icases H with ⟨Ha, Hr⟩
    imodintro
    isplitl [Ha]; · iexact Ha
    isplitr
    · unfold prefHeld; rw [show (Finset.univ : Finset (Fin 0)) = ∅ from rfl, BI.bigSep_empty]; iempintro
    isplitl [HO]
    · unfold Dat.owesAt owesWithin
      rw [howed c]
      icases HO with ⟨%W, HO⟩; iexists W; isplitr
      · ipureintro; unfold Dat.bound; rw [hrec c]; exact fun _ _ => Or.inl trivial
      iexact HO
    isplitl [Hp]; · iexact Hp
    iexact Hr
  hin c := by
    refine Entails.trans ?_ (hin c)
    unfold ΦA
    iintro ⟨Hp, -, Hr⟩
    isplitl [Hr] <;> iassumption
  hout c := by
    refine (hout c).trans ?_
    rw [ownSems0_none]; unfold ΦA
    iintro ⟨Hr, Hp⟩
    isplitl [Hp]; · iexact Hp
    isplitr; · iempintro
    iexact Hr
  hexit c := by
    rw [← unscopedBufs_held c (exitVal (cfgs p) (dats p c) (V c))]
    have hjoin := unscopedBufs_of_arrays (fun q => (cfgs q).toPCfg (Val := Val)) (fun q => (cfgs q).toPCfg_adm)
      kit.win kit.arr_whole c dats ((dats p c).share_full (hq c)) (fun b => V c (Proc.devRef .tc b))
      (fun b => exitVal (cfgs p) (dats p c) (V c) (Proc.devRef .tc b)) (fun w => (dats p c).arrAt w (cfgs p).N)
      (fun w => (exitVal_arr (dats p c) kit.win.arr_inj (V c) w).symm)
      (fun b hb => exitVal_rest (dats p c) (V c) b hb)
    unfold plainRest
    iintro ⟨Ha, HO, HY, HZ⟩
    imodintro
    isplitl [Ha HZ]
    · iapply hjoin
      isplitl [Ha] <;> iassumption
    isplitl [HO]
    · unfold Dat.owesAt owesWithin
      rw [howed c]
      icases HO with ⟨%W, -, HO⟩; iexists W; iexact HO
    iexact HY

end PlainRegion

end Pipeline

end Idealize.ShloMosaic

end
-- ==== Proof.LibRegionKeep.lean ====
/-
  GENERAL LEMMA (the pipeline library and the region-as-a-segment file only; no program is imported).

  A kernel region leaves every buffer that is not the array of one of its OUTPUT windows as it found it: if the buffer is
  no window's array the exit contents are the entry contents by definition, and if it is an input window's array, no
  write-back ever touches it, so what the proof data compute after the last grid point is what they were given.
-/
import proofs.«129173_j30640296690052_1_alg».proof.Proof.LibPlainRegion

noncomputable section

namespace Idealize.ShloMosaic

open Idealize.SL
open TcCoe

variable {nD : Nat} {τ : Topo} {sig : RefSig} {Val : EltTy → Type}

namespace Pipeline

variable {Λ₀ : SL.Sem.Labels} [∀ e, Nonempty (Val e)]

/-- A buffer that is no output window's array holds, when the region is left, what it held when it was entered. -/
theorem exitVal_keep {cfg : Cfg sig Λ₀} {c : Dev nD} (dat : Dat τ Val Unit ℕ (UR sig nD τ) ℕ cfg c)
    (hinj : Function.Injective (arrRef cfg.spec)) (V : Valuation τ sig Val)
    (hA : ∀ w, dat.A w = V (Proc.devRef .tc (arrRef cfg.spec w))) (b : Ref sig .tc)
    (hb : ∀ w, (cfg.win w).isOut = true → arrRef cfg.spec w ≠ b) :
    exitVal cfg dat V (Proc.devRef .tc b) = V (Proc.devRef .tc b) := by
  by_cases h : ∃ w, arrRef cfg.spec w = b
  · obtain ⟨w, rfl⟩ := h
    have hin : (cfg.win w).isOut = false := by
      cases hw : (cfg.win w).isOut
      · rfl
      · exact absurd rfl (hb w hw)
    rw [exitVal_arr dat hinj V w, dat.arrAt_in w hin, hA]
  · exact exitVal_rest dat V b fun hm => by
      obtain ⟨w, -, hw⟩ := Finset.mem_image.mp hm
      exact h ⟨w, hw⟩

end Pipeline

end Idealize.ShloMosaic

end
-- ==== Proof.LibSharedRegion.lean ====
/-
  GENERAL LEMMAS (the pipeline library and the region-as-a-segment file only; no program is imported).

  A kernel region of a program of several regions whose windows may SHARE an array — one array handed to the
  kernel through several input windows, its full share dealt among them — as a segment of the main program.
  The region is entered from every unscoped buffer of the core held at a valuation `V c` and leaves every
  unscoped buffer held at a valuation `V' c` of the certificate's choosing, given: how the distinct buffers
  behind the windows' arrays, each whole at the full share at `V c`, make the proof data's arrays at entry;
  how the proof data's arrays after the last grid point make those buffers whole again at `V' c`; and that
  `V' c` is `V c` at every buffer that is no window's array.
-/
import proofs.«129173_j30640296690052_1_alg».proof.Proof.LibPlainRegion

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedRegion

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)
  (L : GSem nD τ sig → Finset Unit) (lv : GSem nD τ sig → Unit → ℕ)

set_option backward.isDefEq.respectTransparency.types false in
/-- THE REGION AS A SEGMENT, the windows' arrays distinct or not. -/
def sharedRegion (hw : WinFacts₀ (cfgs p).spec)
    (hpos : ∀ w : Fin (cfgs p).W, 0 < ((cfgs p).spec w).block.numel)
    (hstage : ∀ (w : Fin (cfgs p).W) (s : Fin ((cfgs p).spec w).nbuf), (((cfgs p).spec w).stage s).IsWhole)
    (hbody : ∀ c, BodyObligationLoose (dats p c) defs₀ 𝒱₀ () Set.univ)
    (howed : ∀ c t, (dats p c).owed t = 0)
    (hrec : ∀ c t, (dats p c).recorded t = Set.univ)
    (V V' : Dev nD → Valuation τ sig Val)
    (hsplit : ∀ c, (arrBufs (cfgs p).spec c (fun b => V c (Proc.devRef .tc b)) : sProp 𝕄)
      ⊢ (dats p c).arrays ((dats p c).arrAt · 0))
    (hjoin : ∀ c, (dats p c).arrays ((dats p c).arrAt · (cfgs p).N)
      ⊢ (arrBufs (cfgs p).spec c (fun b => V' c (Proc.devRef .tc b)) : sProp 𝕄))
    (hrest : ∀ c (b : Ref sig .tc), b ∉ Finset.univ.image (arrRef (cfgs p).spec) →
      V' c (Proc.devRef .tc b) = V c (Proc.devRef .tc b))
    (hin : ∀ c, ΦA (cfgs p).spec c ⊢ (dats p c).Φ 0)
    (hout : ∀ c, (dats p c).Φ (Fin.last (cfgs p).N) ⊢ ΦA (cfgs p).spec c) :
    RegionSeg (fun q => (cfgs q).toPCfg (Val := Val)) (fun q => (cfgs q).toPCfg_adm) dats () defs₀ 𝒱₀ L lv p where
  win := hw
  block_pos := hpos
  stage_whole := hstage
  K := PEmpty
  osem := fun k => k.elim
  ho := OwnSemFacts.none _
  hbody := hbody
  hwaits := hwaits_of_owed_zero _ _ _ _ L lv p howed
  pre c := iprop(StableHlo.held (c.tc : Thread nD τ) (ucRefs τ sig) (V c) ∗ plainRest c)
  post c := iprop(StableHlo.held (c.tc : Thread nD τ) (ucRefs τ sig) (V' c) ∗ plainRest c)
  X c := iprop(∃ r, prngReg c r)
  Y c := iprop(∃ r, prngReg c r)
  Z c := unscopedRest (cfgs p).spec c (fun b => V c (Proc.devRef .tc b))
  hentry c := by
    rw [← unscopedBufs_held c (V c), unscopedBufs_split₀ cfgs p hw.arr_unscoped c (fun b => V c (Proc.devRef .tc b))]
    unfold plainRest
    iintro ⟨⟨⟨Ha, Hr⟩, HR⟩, -, -⟩
    icases HR with ⟨HO, Hp⟩
    ihave Ha := (hsplit c) $$ Ha
    imodintro
    isplitl [Ha]; · iexact Ha
    isplitr
    · unfold prefHeld; rw [show (Finset.univ : Finset (Fin 0)) = ∅ from rfl, BI.bigSep_empty]; iempintro
    isplitl [HO]
    · unfold Dat.owesAt owesWithin
      rw [howed c]
      icases HO with ⟨%W, HO⟩; iexists W; isplitr
      · ipureintro; unfold Dat.bound; rw [hrec c]; exact fun _ _ => Or.inl trivial
      iexact HO
    isplitl [Hp]; · iexact Hp
    iexact Hr
  hin c := by
    refine Entails.trans ?_ (hin c)
    unfold ΦA
    iintro ⟨Hp, -, Hr⟩
    isplitl [Hr] <;> iassumption
  hout c := by
    refine (hout c).trans ?_
    rw [ownSems0_none]; unfold ΦA
    iintro ⟨Hr, Hp⟩
    isplitl [Hp]; · iexact Hp
    isplitr; · iempintro
    iexact Hr
  hexit c := by
    rw [← unscopedBufs_held c (V' c), unscopedBufs_split₀ cfgs p hw.arr_unscoped c (fun b => V' c (Proc.devRef .tc b))]
    have hZ : (unscopedRest (cfgs p).spec c (fun b => V' c (Proc.devRef .tc b)) : sProp 𝕄)
        = unscopedRest (cfgs p).spec c (fun b => V c (Proc.devRef .tc b)) := by
      unfold unscopedRest
      exact bigSep_congr fun b hb => by dsimp only; rw [hrest c b (Finset.mem_sdiff.mp hb).2]
    rw [hZ]
    unfold plainRest
    iintro ⟨Ha, HO, HY, HZ⟩
    ihave Ha := (hjoin c) $$ Ha
    imodintro
    isplitl [Ha HZ]
    · isplitl [Ha] <;> iassumption
    isplitl [HO]
    · unfold Dat.owesAt owesWithin
      rw [howed c]
      icases HO with ⟨%W, -, HO⟩; iexists W; iexact HO
    iexact HY

end SharedRegion

end Pipeline

end Idealize.ShloMosaic

end
-- ==== Proof.K.Run.lean ====
/-
  The three kernel regions and the two host stretches between them as one run.

  Between two items of the main program a core holds every unscoped buffer whole at a valuation: the launch
  contents, then what the degree region leaves (its output array at what its write-backs fold to, everything
  else as it was), then the power stretch's results, the support region's, the two broadcasts', the last
  region's. The last region reads one array (the support) through two windows; the array's full share is dealt
  in halves between them at entry and rejoined at exit. Every weakly fair execution terminates, the arguments
  end as launched, and the result array ends at what the last region's write-backs leave in it.
-/
import proofs.«129173_j30640296690052_1_alg».proof.Proof.K.R0
import proofs.«129173_j30640296690052_1_alg».proof.Proof.K.R1
import proofs.«129173_j30640296690052_1_alg».proof.Proof.K.R2
import proofs.«129173_j30640296690052_1_alg».proof.Proof.Gen.Kernel.Regions
import proofs.«129173_j30640296690052_1_alg».proof.Proof.LibPlainRegion
import proofs.«129173_j30640296690052_1_alg».proof.Proof.LibRegionKeep
import proofs.«129173_j30640296690052_1_alg».proof.Proof.LibSharedRegion
import Idealize.ShloMosaic.Lib.Pipeline.Frame
import Idealize.ShloMosaic.Lib.Pipeline.FrameBody
import Idealize.ShloMosaic.Lib.Pipeline.Regions
import Idealize.ShloMosaic.Lib.Pipeline.Kit
import Idealize.ShloMosaic.Lib.StableHlo.Run

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data owe nothing and hold every array at the share named -/

theorem dat0_q (V : Dev nD → Valuation τ sig (Elt F)) (c : Dev nD) (w : Fin cfg0.W) : (dat0 V c).q w = fullShare := rfl
theorem dat0_owed (V : Dev nD → Valuation τ sig (Elt F)) (c : Dev nD) (t) : (dat0 V c).owed t = 0 := rfl
theorem dat0_rec (V : Dev nD → Valuation τ sig (Elt F)) (c : Dev nD) (t) : (dat0 V c).recorded t = Set.univ := rfl
theorem dat1_q (V : Dev nD → Valuation τ sig (Elt F)) (c : Dev nD) (w : Fin cfg1.W) : (dat1 V c).q w = fullShare := rfl
theorem dat1_owed (V : Dev nD → Valuation τ sig (Elt F)) (c : Dev nD) (t) : (dat1 V c).owed t = 0 := rfl
theorem dat1_rec (V : Dev nD → Valuation τ sig (Elt F)) (c : Dev nD) (t) : (dat1 V c).recorded t = Set.univ := rfl
theorem dat2_q (q : Fin cfg2.W → PosShare TreeShare) (V : Dev nD → Valuation τ sig (Elt F)) (c : Dev nD) (w : Fin cfg2.W) : (dat2 q V c).q w = q w := rfl
theorem dat2_owed (q : Fin cfg2.W → PosShare TreeShare) (V : Dev nD → Valuation τ sig (Elt F)) (c : Dev nD) (t) : (dat2 q V c).owed t = 0 := rfl
theorem dat2_rec (q : Fin cfg2.W → PosShare TreeShare) (V : Dev nD → Valuation τ sig (Elt F)) (c : Dev nD) (t) : (dat2 q V c).recorded t = Set.univ := rfl

variable (m : (ℓ : Loc nD τ sig) → Buf (Elt F) ℓ)

/-- How the full share of the array read through two windows is dealt: the left half to one, the right half to the other. -/
abbrev q2 : Fin cfg2.W → PosShare TreeShare := fun | 1 => fullShare.left | 2 => fullShare.right | _ => fullShare

/-- The unscoped buffers at launch; -/
def W0 (c : Dev nD) : Valuation τ sig (Elt F) := fun b => m (c, b)
/-- after the degree region; -/
def W1 (c : Dev nD) : Valuation τ sig (Elt F) := Pipeline.exitVal cfg0 (dat0 (W0 m) c) (W0 m c)
/-- after the power; -/
def W2 (c : Dev nD) : Valuation τ sig (Elt F) := StableHlo.after hostOps1 (W1 m c)
/-- after the support region; -/
def W3 (c : Dev nD) : Valuation τ sig (Elt F) := Pipeline.exitVal cfg1 (dat1 (W2 m) c) (W2 m c)
/-- after the two broadcasts; -/
def W4 (c : Dev nD) : Valuation τ sig (Elt F) := StableHlo.after hostOps2 (W3 m c)
/-- after the last region, which writes the result array only. -/
def W5 (c : Dev nD) : Valuation τ sig (Elt F) :=
  Function.update (W4 m c) (Proc.devRef .tc main_v6) ((dat2 q2 (W4 m) c).arrAt 6 cfg2.N)

abbrev adm : (p : Fin 3) → (pcfgs (F := F) p).Adm := fun p => (cfgs p).toPCfg_adm

def pdats : (p : Fin 3) → (c : Dev nD) → Dat τ (Elt F) Unit ℕ (UR sig nD τ) ℕ (cfgs p) c
  | ⟨0, _⟩ => fun c => dat0 (W0 m) c
  | ⟨1, _⟩ => fun c => dat1 (W2 m) c
  | ⟨2, _⟩ => fun c => dat2 q2 (W4 m) c
  | ⟨n + 3, h⟩ => absurd h (by omega)

abbrev L : GSem nD τ sig → Finset Unit := fun _ => ∅
abbrev lv : GSem nD τ sig → Unit → ℕ := fun _ _ => 0

set_option backward.isDefEq.respectTransparency.types false in
def reg0 : Pipeline.RegionSeg (pcfgs (F := F)) adm (pdats m) () defs₀ Variants.none L lv 0 :=
  Pipeline.plainRegion cfgs (pdats m) 0 defs₀ Variants.none L lv launch0
    (fun c => (body0 (W0 m) c).loose) (fun c t => dat0_owed (W0 m) c t) (fun c t => dat0_rec (W0 m) c t) (fun c w => dat0_q (W0 m) c w)
    (W0 m) (fun c w => dat0_A (W0 m) c w) (hin0 (W0 m)) (hout0 (W0 m))

set_option backward.isDefEq.respectTransparency.types false in
def reg1 : Pipeline.RegionSeg (pcfgs (F := F)) adm (pdats m) () defs₀ Variants.none L lv 1 :=
  Pipeline.plainRegion cfgs (pdats m) 1 defs₀ Variants.none L lv launch1
    (fun c => (body1 (W2 m) c).loose) (fun c t => dat1_owed (W2 m) c t) (fun c t => dat1_rec (W2 m) c t) (fun c w => dat1_q (W2 m) c w)
    (W2 m) (fun c w => dat1_A (W2 m) c w) (hin1 (W2 m)) (hout1 (W2 m))

/-! ## The last region: two windows on one array -/

theorem share2_0 (V : Dev nD → Valuation τ sig (Elt F)) (c : Dev nD) : (dat2 q2 V c).share 0 = fullShare := by
  unfold Dat.share; rw [dat2_q]; rfl
theorem share2_1 (V : Dev nD → Valuation τ sig (Elt F)) (c : Dev nD) : (dat2 q2 V c).share 1 = fullShare.left := by
  unfold Dat.share; rw [dat2_q]; rfl
theorem share2_2 (V : Dev nD → Valuation τ sig (Elt F)) (c : Dev nD) : (dat2 q2 V c).share 2 = fullShare.right := by
  unfold Dat.share; rw [dat2_q]; rfl
theorem share2_3 (V : Dev nD → Valuation τ sig (Elt F)) (c : Dev nD) : (dat2 q2 V c).share 3 = fullShare := by
  unfold Dat.share; rw [dat2_q]; rfl
theorem share2_4 (V : Dev nD → Valuation τ sig (Elt F)) (c : Dev nD) : (dat2 q2 V c).share 4 = fullShare := by
  unfold Dat.share; rw [dat2_q]; rfl
theorem share2_5 (V : Dev nD → Valuation τ sig (Elt F)) (c : Dev nD) : (dat2 q2 V c).share 5 = fullShare := by
  unfold Dat.share; rw [dat2_q]; rfl
theorem share2_6 (V : Dev nD → Valuation τ sig (Elt F)) (c : Dev nD) : (dat2 q2 V c).share 6 = fullShare := by
  unfold Dat.share; rfl

/-- The last region's arrays, window by window: the array read through windows 1 and 2 at the two halves of its share. -/
theorem arrays2_eq (V : Dev nD → Valuation τ sig (Elt F)) (c : Dev nD)
    (G : (w : Fin cfg2.W) → Buf (Elt F) ((cfg2.win w).arr.view.loc (c.tc : Thread nD τ))) :
    ((dat2 q2 V c).arrays G : sProp 𝕄)
      = iprop((((c.tc : Thread nD τ).loc main_arg1) ↦{fullShare} G 0)
          ∗ (((c.tc : Thread nD τ).loc main_v3) ↦{fullShare.left} G 1)
          ∗ (((c.tc : Thread nD τ).loc main_v3) ↦{fullShare.right} G 2)
          ∗ (((c.tc : Thread nD τ).loc main_v4) ↦{fullShare} G 3)
          ∗ (((c.tc : Thread nD τ).loc main_v5) ↦{fullShare} G 4)
          ∗ (((c.tc : Thread nD τ).loc main_arg3) ↦{fullShare} G 5)
          ∗ (((c.tc : Thread nD τ).loc main_v6) ↦{fullShare} G 6)) := by
  unfold Dat.arrays
  rw [bigSep_W2, (arr_whole2 0).set_eq_univ, (arr_whole2 1).set_eq_univ, (arr_whole2 3).set_eq_univ,
    (arr_whole2 4).set_eq_univ, (arr_whole2 5).set_eq_univ, (arr_whole2 6).set_eq_univ,
    share2_0, share2_1, share2_2, share2_3, share2_4, share2_5, share2_6]

/-- The distinct buffers behind the last region's arrays, one by one. -/
theorem arrBufs2_eq (c : Dev nD) (V : (b : Ref sig .tc) → Buf (Elt F) ((c.tc : Thread nD τ).loc b)) :
    (Pipeline.arrBufs (Ix := Unit) (Name := ℕ) (U := UR sig nD τ) (Lvl := ℕ) spec2 c V : sProp 𝕄)
      = iprop((((c.tc : Thread nD τ).loc main_arg1) ↦{fullShare} V main_arg1)
          ∗ (((c.tc : Thread nD τ).loc main_v3) ↦{fullShare} V main_v3)
          ∗ (((c.tc : Thread nD τ).loc main_v4) ↦{fullShare} V main_v4)
          ∗ (((c.tc : Thread nD τ).loc main_v5) ↦{fullShare} V main_v5)
          ∗ (((c.tc : Thread nD τ).loc main_arg3) ↦{fullShare} V main_arg3)
          ∗ (((c.tc : Thread nD τ).loc main_v6) ↦{fullShare} V main_v6)) := by
  unfold Pipeline.arrBufs
  exact bigSep_eq_bigSepL_of_eq [main_arg1, main_v3, main_v4, main_v5, main_arg3, main_v6] (by decide) (by decide) _

/-- What the last region finds in its arrays. -/
theorem arrAt2_zero (c : Dev nD) (w : Fin cfg2.W) :
    (dat2 q2 (W4 m) c).arrAt w 0 = W4 m c (Proc.devRef .tc (Pipeline.arrRef spec2 w)) := dat2_A q2 (W4 m) c w

/-- An input window's array is never written. -/
theorem arrAt2_in (c : Dev nD) (w : Fin cfg2.W) (hw : (cfg2.win w).isOut = false) :
    (dat2 q2 (W4 m) c).arrAt w cfg2.N = W4 m c (Proc.devRef .tc (Pipeline.arrRef spec2 w)) :=
  ((dat2 q2 (W4 m) c).arrAt_in w hw _).trans (dat2_A q2 (W4 m) c w)

theorem W5_v6 (c : Dev nD) : W5 m c (Proc.devRef .tc main_v6) = (dat2 q2 (W4 m) c).arrAt 6 cfg2.N := by
  unfold W5; exact Function.update_self ..

theorem W5_of_ne (c : Dev nD) (b : Ref sig .tc) (hb : b ≠ main_v6) : W5 m c (Proc.devRef .tc b) = W4 m c (Proc.devRef .tc b) := by
  unfold W5
  exact Function.update_of_ne (StableHlo.devRef_ne_of_ne hb : (Proc.devRef .tc b : DevRef τ sig) ≠ Proc.devRef .tc main_v6) _ _

set_option backward.isDefEq.respectTransparency.types false in
def reg2 : Pipeline.RegionSeg (pcfgs (F := F)) adm (pdats m) () defs₀ Variants.none L lv 2 :=
  Pipeline.sharedRegion cfgs (pdats m) 2 defs₀ Variants.none L lv winFacts₀2 block_pos2 stage_whole2
    (fun c => (body2 q2 (W4 m) c).loose) (fun c t => dat2_owed q2 (W4 m) c t) (fun c t => dat2_rec q2 (W4 m) c t)
    (W4 m) (W5 m)
    (fun c => by
      show (Pipeline.arrBufs spec2 c (fun b => W4 m c (Proc.devRef .tc b)) : sProp 𝕄) ⊢ (dat2 q2 (W4 m) c).arrays ((dat2 q2 (W4 m) c).arrAt · 0)
      rw [arrBufs2_eq, arrays2_eq, arrAt2_zero, arrAt2_zero, arrAt2_zero, arrAt2_zero, arrAt2_zero, arrAt2_zero, arrAt2_zero]
      iintro ⟨H1, H3, H4, H5, Hb, H6⟩
      ihave H3 := (pointsTo_share (PosShare.mem_left_op_right fullShare)).1 $$ H3
      icases H3 with ⟨H3l, H3r⟩
      isplitl [H1]; · iexact H1
      isplitl [H3l]; · iexact H3l
      isplitl [H3r]; · iexact H3r
      isplitl [H4]; · iexact H4
      isplitl [H5]; · iexact H5
      isplitl [Hb]; · iexact Hb
      iexact H6)
    (fun c => by
      show (dat2 q2 (W4 m) c).arrays ((dat2 q2 (W4 m) c).arrAt · cfg2.N) ⊢ (Pipeline.arrBufs spec2 c (fun b => W5 m c (Proc.devRef .tc b)) : sProp 𝕄)
      rw [arrBufs2_eq, arrays2_eq, arrAt2_in m c 0 rfl, arrAt2_in m c 1 rfl, arrAt2_in m c 2 rfl, arrAt2_in m c 3 rfl, arrAt2_in m c 4 rfl, arrAt2_in m c 5 rfl,
        W5_v6, W5_of_ne m c main_arg1 (by decide), W5_of_ne m c main_v3 (by decide), W5_of_ne m c main_v4 (by decide), W5_of_ne m c main_v5 (by decide), W5_of_ne m c main_arg3 (by decide)]
      iintro ⟨H1, H3l, H3r, H4, H5, Hb, H6⟩
      ihave H3 := (pointsTo_share (PosShare.mem_left_op_right fullShare)).2 $$ [H3l H3r]
      · isplitl [H3l] <;> iassumption
      isplitl [H1]; · iexact H1
      isplitl [H3]; · iexact H3
      isplitl [H4]; · iexact H4
      isplitl [H5]; · iexact H5
      isplitl [Hb]; · iexact Hb
      iexact H6)
    (fun c b hb => W5_of_ne m c b (fun h => hb (h ▸ Finset.mem_image.mpr ⟨6, Finset.mem_univ _, rfl⟩)))
    (hin2 q2 (W4 m)) (hout2 q2 (W4 m))

/-! ## What each stretch leaves unchanged -/

theorem W1_keep (c : Dev nD) (b : Ref sig .tc) (hb : ∀ w, (cfg0.win w).isOut = true → Pipeline.arrRef spec0 w ≠ b) :
    W1 m c (Proc.devRef .tc b) = W0 m c (Proc.devRef .tc b) :=
  Pipeline.exitVal_keep (dat0 (W0 m) c) launch0.win.arr_inj (W0 m c) (fun w => dat0_A (W0 m) c w) b hb
theorem W1_v0 (c : Dev nD) : W1 m c (Proc.devRef .tc main_v0) = (dat0 (W0 m) c).arrAt 1 cfg0.N :=
  Pipeline.exitVal_arr (dat0 (W0 m) c) launch0.win.arr_inj (W0 m c) 1
theorem W2_keep (c : Dev nD) (b : Ref sig .tc) (hb : b ∉ hostOps1_W) : W2 m c (Proc.devRef .tc b) = W1 m c (Proc.devRef .tc b) :=
  StableHlo.after_of_writes_sub hostOps1 _ hostOps1_writes hb
theorem W3_keep (c : Dev nD) (b : Ref sig .tc) (hb : ∀ w, (cfg1.win w).isOut = true → Pipeline.arrRef spec1 w ≠ b) :
    W3 m c (Proc.devRef .tc b) = W2 m c (Proc.devRef .tc b) :=
  Pipeline.exitVal_keep (dat1 (W2 m) c) launch1.win.arr_inj (W2 m c) (fun w => dat1_A (W2 m) c w) b hb
theorem W3_v3 (c : Dev nD) : W3 m c (Proc.devRef .tc main_v3) = (dat1 (W2 m) c).arrAt 2 cfg1.N :=
  Pipeline.exitVal_arr (dat1 (W2 m) c) launch1.win.arr_inj (W2 m c) 2
theorem W4_keep (c : Dev nD) (b : Ref sig .tc) (hb : b ∉ hostOps2_W) : W4 m c (Proc.devRef .tc b) = W3 m c (Proc.devRef .tc b) :=
  StableHlo.after_of_writes_sub hostOps2 _ hostOps2_writes hb

/-- No stretch writes an argument. -/
theorem W4_arg (c : Dev nD) (b : Ref sig .tc) (h1 : ∀ w, (cfg0.win w).isOut = true → Pipeline.arrRef spec0 w ≠ b) (h2 : b ∉ hostOps1_W)
    (h3 : ∀ w, (cfg1.win w).isOut = true → Pipeline.arrRef spec1 w ≠ b) (h4 : b ∉ hostOps2_W) :
    W4 m c (Proc.devRef .tc b) = m ((c.tc : Thread nD τ).loc b) :=
  (W4_keep m c b h4).trans ((W3_keep m c b h3).trans ((W2_keep m c b h2).trans ((W1_keep m c b h1).trans rfl)))
theorem W4_arg0 (c : Dev nD) : W4 m c (Proc.devRef .tc main_arg0) = m ((c.tc : Thread nD τ).loc main_arg0) := W4_arg m c main_arg0 (by decide) (by decide) (by decide) (by decide)
theorem W4_arg1 (c : Dev nD) : W4 m c (Proc.devRef .tc main_arg1) = m ((c.tc : Thread nD τ).loc main_arg1) := W4_arg m c main_arg1 (by decide) (by decide) (by decide) (by decide)
theorem W4_arg2 (c : Dev nD) : W4 m c (Proc.devRef .tc main_arg2) = m ((c.tc : Thread nD τ).loc main_arg2) := W4_arg m c main_arg2 (by decide) (by decide) (by decide) (by decide)
theorem W4_arg3 (c : Dev nD) : W4 m c (Proc.devRef .tc main_arg3) = m ((c.tc : Thread nD τ).loc main_arg3) := W4_arg m c main_arg3 (by decide) (by decide) (by decide) (by decide)

/-! ## The run -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.plainRest

abbrev segs : List (Pipeline.Seg (pcfgs (F := F)) adm (pdats m) () defs₀ Variants.none L lv) :=
  [ .region (reg0 m),
    .host (hseg hostOps1 hostOps1_sub hostOps1_fresh (W1 m)),
    .region (reg1 m),
    .host (hseg hostOps2 hostOps2_sub hostOps2_fresh (W3 m)),
    .region (reg2 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates; the result array ends at what the last region's
    write-backs leave in it, and every argument as launched. -/
theorem run_all (ρ : Dev nD → PrngReg) :
    θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.plainRest c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c.tc : Thread nD τ) (Pipeline.ucRefs τ sig) (W5 m c) ∗ Pipeline.plainRest c) ⊢ _
      unfold Pipeline.plainRest
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.plainRest
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v6 (by decide)),
       (h c _ (mem_uc main_arg0 (by decide))).trans ((W5_of_ne m c main_arg0 (by decide)).trans (W4_arg0 m c)),
       (h c _ (mem_uc main_arg1 (by decide))).trans ((W5_of_ne m c main_arg1 (by decide)).trans (W4_arg1 m c)),
       (h c _ (mem_uc main_arg2 (by decide))).trans ((W5_of_ne m c main_arg2 (by decide)).trans (W4_arg2 m c)),
       (h c _ (mem_uc main_arg3 (by decide))).trans ((W5_of_ne m c main_arg3 (by decide)).trans (W4_arg3 m c))⟩)

end Cert.Kernel.Hand

end
-- ==== Proof.KI.R0Base.lean ====
/- The degree kernel (the first pallas_call): what its three control cases share.
   The kernel walks a 12 x 6 grid; point t has row tile t / 6 and column tile t % 6. Its output block
   (1024 row sums) is accumulated over the six column tiles of one row tile: zeroed at column tile 0,
   increased by the tile's row sums at every tile, and increased by one at column tile 5. This module
   fixes the input block at a point, the two branch conditions in closed form over the grid, and the
   staging memrefs the body is called with. -/
import proofs.«129173_j30640296690052_1_alg».proof.Proof.Gen.KernelIdeal.Launch
import proofs.«129173_j30640296690052_1_alg».proof.Proof.Gen.KernelIdeal.Skeleton
import proofs.«129173_j30640296690052_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The adjacency window's staging buffer holds its block at every point, for any proof data whose array is
    the region-entry contents and whose body leaves the block in place: the window is an input, uncut and
    never idle. -/
theorem before0_0_of {c : Dev nD} (dat : Dat τ (Elt F) Unit ℕ (UR sig nD τ) ℕ cfg0 c)
    (hA : dat.A 0 = V c (Proc.devRef .tc (Pipeline.arrRef spec0 0)))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional of the body: the column tile is the first one. -/
abbrev cond0_0 (i : grid0.Coords) : Prop := (Scalar.cmpi .ne (Scalar.extui (Scalar.cmpi .eq (BitVec.ofNat 32 (i 1).val) 0#32)) 0#32) = 1#1
/-- It holds exactly at the points whose column tile is 0. -/
theorem hcond0_0 : ∀ t : Fin cfg0.N, cond0_0 (grid0.coords t) ↔ t.val % 6 = 0 :=
  (by decide +kernel : ∀ t : Fin grid0.N, cond0_0 (grid0.coords t) ↔ t.val % 6 = 0)

/-- The second conditional of the body: the column tile is the last one. -/
abbrev cond0_1 (i : grid0.Coords) : Prop := (Scalar.cmpi .ne (Scalar.extui (Scalar.cmpi .eq (BitVec.ofNat 32 (i 1).val) 5#32)) 0#32) = 1#1
/-- It holds exactly at the points whose column tile is 5. -/
theorem hcond0_1 : ∀ t : Fin cfg0.N, cond0_1 (grid0.coords t) ↔ t.val % 6 = 5 :=
  (by decide +kernel : ∀ t : Fin grid0.N, cond0_1 (grid0.coords t) ↔ t.val % 6 = 5)

/-! ## The staging memrefs -/

/-- One staging buffer of the output window, through which its contents are stated (the choice does not matter). -/
abbrev VO0_1 : View sig .tc .vmem S1024 .f32 := (Memref.whole cc0_stg1_0 : Memref sig .tc .vmem S1024 .f32).view
/-- Each window's current staging memref at point `t`, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024 .f32 := win0_1.stage (cfg0.slots t 1)
abbrev hs0_1 (t : Fin cfg0.N) : (ms0_1 t).IsWhole := hstage0_1 ((cfg0.slots t 1).cast nbuf0_1)

end Cert.KernelIdeal.Hand

end
-- ==== Proof.KI.R0RunA.lean ====
/- The degree kernel's body run in one of its three control cases: the first column tile (the block is zeroed, then the tile's row sums are added).
   The run is found by symbolic execution of the body over its skeleton; what the output's staging
   buffer ends with is the list of stored pieces, the witness of the subtype. -/
import proofs.«129173_j30640296690052_1_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of the first column tile: on whole staging memrefs, the adjacency block at `x0` and the
    output's buffer at anything, the body runs to the continuation holding the input as it was and the output's
    buffer with the pieces `L1` written. -/
noncomputable def kernelRun0_A (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) :
    { L1 : List (View.Piece (Elt F) S1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KI.R0RunB.lean ====
/- The degree kernel's body run in one of its three control cases: a middle column tile (the tile's row sums are added to what the point before left).
   The run is found by symbolic execution of the body over its skeleton; what the output's staging
   buffer ends with is the list of stored pieces, the witness of the subtype. -/
import proofs.«129173_j30640296690052_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of a middle column tile: on whole staging memrefs, the adjacency block at `x0` and the output's
    buffer at its running contents `xo1`, the body runs to the continuation holding the input as it was and the
    output's buffer with the pieces `L1` written. -/
noncomputable def kernelRun0_B (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) :
    { L1 : List (View.Piece (Elt F) S1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KI.R0RunC.lean ====
/- The degree kernel's body run in one of its three control cases: the last column tile (the tile's row sums are added to what the point before left, then one).
   The run is found by symbolic execution of the body over its skeleton; what the output's staging
   buffer ends with is the list of stored pieces, the witness of the subtype. -/
import proofs.«129173_j30640296690052_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point of the last column tile: on whole staging memrefs, the adjacency block at `x0` and the output's
    buffer at its running contents `xo1`, the body runs to the continuation holding the input as it was and the
    output's buffer with the pieces `L1` written. -/
noncomputable def kernelRun0_C (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) :
    { L1 : List (View.Piece (Elt F) S1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__deg_kernel i arg2 harg2 arg3 harg3) K } := by
  refine ⟨?_, fun E K => ?run⟩
  case run =>
    simp only [cc0__deg_kernel_eq_skeleton]; unfold cc0__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    iexists _; iexact H1

end Cert.KernelIdeal.Hand

end
-- ==== Proof.KI.R0.lean ====
/- The degree kernel (the first pallas_call) as one region: its proof data, its body obligation, and the
   passage of the region invariant in and out.
   Point t of the 12 x 6 grid works on row tile t / 6 and column tile t % 6. The output block of a row tile
   stays in its staging buffer over the six column tiles and is written back after the last. What that buffer
   holds after point t is therefore defined by recursion on t: at column tile 0 it is what the body leaves
   from the input block alone (it zeroes the block first), at a later column tile it is what the body leaves
   from the input block and the contents left at point t - 1. -/
import proofs.«129173_j30640296690052_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## What each case leaves in the output's staging buffer -/

/-- The pieces stored at a first column tile tile the block, so they cover it. -/
theorem cover0_A_1 (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) (y : S1024.Idx) :
    ∃ pc ∈ (kernelRun0_A c i arg2 harg2 arg3 harg3 hc0 hc1 x0).1, y ∈ pc.1.set :=
  View.cover_of_tiledL (kernelRun0_A c i arg2 harg2 arg3 harg3 hc0 hc1 x0).1 S1024.size (by sl_kernel_rfl) y

/-- What a first column tile leaves in the output's staging buffer: its pieces read back. -/
def out0_A_1 (c : Dev nD) (i : grid0.Coords) (arg2 : Memref sig .tc .vmem S1024x2048 .f32) (harg2 : arg2.IsWhole) (arg3 : Memref sig .tc .vmem S1024 .f32) (harg3 : arg3.IsWhole) (hc0 : cond0_0 i) (hc1 : ¬cond0_1 i)
    (x0 : Vec F S1024x2048 .f32) : Vec F S1024 .f32 :=
  VO0_1.read (Elt F) (VO0_1.writes (Elt F) VO0_1.junk (kernelRun0_A c i arg2 harg2 arg3 harg3 hc0 hc1 x0).1)

/-- The piece stored at a middle column tile is the whole block. -/
theorem cover0_B_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) (y : S1024.Idx) :
    ∃ pc ∈ (kernelRun0_B c i arg2 harg2 arg3 harg3 hc0 hc1 x0 xo1).1, y ∈ pc.1.set :=
  View.cover_of_tiledL (kernelRun0_B c i arg2 harg2 arg3 harg3 hc0 hc1 x0 xo1).1 S1024.size (by sl_kernel_rfl) y

/-- What a middle column tile leaves in the output's staging buffer: its pieces read back. -/
def out0_B_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : ¬cond0_1 i)
    (x0 : Vec F S1024x2048 .f32) (xo1 : Vec F S1024 .f32) : Vec F S1024 .f32 :=
  VO0_1.read (Elt F) (VO0_1.writes (Elt F) VO0_1.junk (kernelRun0_B c i arg2 harg2 arg3 harg3 hc0 hc1 x0 xo1).1)

/-- The pieces stored at the last column tile tile the block, so they cover it. -/
theorem cover0_C_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) (y : S1024.Idx) :
    ∃ pc ∈ (kernelRun0_C c i arg2 harg2 arg3 harg3 hc0 hc1 x0 xo1).1, y ∈ pc.1.set :=
  View.cover_of_tiledL (kernelRun0_C c i arg2 harg2 arg3 harg3 hc0 hc1 x0 xo1).1 S1024.size (by sl_kernel_rfl) y

/-- What the last column tile leaves in the output's staging buffer: its pieces read back. -/
def out0_C_1 (c : Dev nD) (i : grid0.Coords) (arg2 : Memref sig .tc .vmem S1024x2048 .f32) (harg2 : arg2.IsWhole) (arg3 : Memref sig .tc .vmem S1024 .f32) (harg3 : arg3.IsWhole) (hc0 : ¬cond0_0 i) (hc1 : cond0_1 i)
    (x0 : Vec F S1024x2048 .f32) (xo1 : Vec F S1024 .f32) : Vec F S1024 .f32 :=
  VO0_1.read (Elt F) (VO0_1.writes (Elt F) VO0_1.junk (kernelRun0_C c i arg2 harg2 arg3 harg3 hc0 hc1 x0 xo1).1)

/-! ## What the output's staging buffer holds after each point -/

/-- A point of column tile 0 is not of column tile 5. -/
theorem not_cond1_of_mod (t : Fin cfg0.N) (h0 : t.val % 6 = 0) : ¬cond0_1 (grid0.coords t) :=
  fun h => by have h5 := (hcond0_1 t).mp h; omega

/-- THE ACCUMULATION. What the output's staging buffer holds after the body at position `n`: the case the column
    tile selects, run at the point's memrefs and input block; at a column tile after the first, over what the body
    left at position `n - 1` (the buffer is not written back in between). -/
def outsAt0 (c : Dev nD) : (n : ℕ) → n < cfg0.N → Vec F S1024 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (not_cond1_of_mod ⟨0, hn⟩ (Nat.zero_mod _)) (iblk0 V c 0 ⟨0, hn⟩)
  | n + 1, hn =>
    if h0 : (n + 1) % 6 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (not_cond1_of_mod ⟨n + 1, hn⟩ h0) (iblk0 V c 0 ⟨n + 1, hn⟩)
    else
      if h1 : (n + 1) % 6 = 5 then
        out0_C_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) ((hcond0_1 ⟨n + 1, hn⟩).mpr h1) (iblk0 V c 0 ⟨n + 1, hn⟩) (outsAt0 c n (Nat.lt_of_succ_lt hn))
      else
        out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn))

/-- `outsAt0` at a point of column tile 0. -/
theorem outsAt0_A (c : Dev nD) (t : Fin cfg0.N) (h0 : t.val % 6 = 0) :
    outsAt0 V c t.val t.isLt = out0_A_1 c (grid0.coords t) (ms0_0 t) (hs0_0 t) (ms0_1 t) (hs0_1 t) ((hcond0_0 t).mpr h0) (not_cond1_of_mod t h0) (iblk0 V c 0 t) := by
  obtain ⟨n, hn⟩ := t
  cases n with
  | zero => exact rfl
  | succ n => exact (dif_pos h0).trans rfl

/-- `outsAt0` at a point of a middle column tile: over what the point before left. -/
theorem outsAt0_B (c : Dev nD) (t : Fin cfg0.N) (h0 : ¬t.val % 6 = 0) (h1 : ¬t.val % 6 = 5) :
    outsAt0 V c t.val t.isLt = out0_B_1 c (grid0.coords t) (ms0_0 t) (hs0_0 t) (ms0_1 t) (hs0_1 t) (fun h => h0 ((hcond0_0 t).mp h)) (fun h => h1 ((hcond0_1 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last column tile: over what the point before left. -/
theorem outsAt0_C (c : Dev nD) (t : Fin cfg0.N) (h0 : ¬t.val % 6 = 0) (h1 : t.val % 6 = 5) :
    outsAt0 V c t.val t.isLt = out0_C_1 c (grid0.coords t) (ms0_0 t) (hs0_0 t) (ms0_1 t) (hs0_1 t) (fun h => h0 ((hcond0_0 t).mp h)) ((hcond0_1 t).mpr h1) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's proof data -/

/-- The proof data of the degree kernel's pipeline on core `c`: the arrays as the region finds them; after the
    body at point `t` the adjacency buffer at its block and the output's at `outsAt0`; the invariant the scoped
    rest and the generator register, untouched; nothing owed; full shares. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => outsAt0 V c t.val t.isLt
  Φ _ := Pipeline.ΦA spec0 c
  q _ := fullShare
  owed _ := 0

/-- The proof data's arrays are the region-entry contents. -/
theorem dat0_A (c : Dev nD) (w : Fin cfg0.W) : (dat0 V c).A w = V c (Proc.devRef .tc (Pipeline.arrRef spec0 w)) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = outsAt0 V c t.val t.isLt := by dsimp only [dat0]

/-- The adjacency window's staging buffer holds its block at every point. -/
theorem before0_0 (c : Dev nD) (t : Fin cfg0.N) (d) : (dat0 V c).before 0 t d = iblk0 V c 0 t :=
  before0_0_of V (dat0 V c) (dat0_A V c 0) (after0_0 V c) t d

/-- At a column tile after the first the output's staging buffer holds what the body left at the point before:
    the point is not the first of the grid, and the buffer is written back only after a last column tile. -/
theorem before0_1_kept (c : Dev nD) (t : Fin cfg0.N) (h0 : ¬t.val % 6 = 0) (d) :
    (dat0 V c).before 1 t d = outsAt0 V c (t.val - 1) (Nat.lt_of_le_of_lt (Nat.sub_le _ _) t.isLt) := by
  have hN : t.val < 72 := lt_of_lt_of_eq t.isLt (show cfg0.N = 72 from N_0)
  rw [Dat.before_out_kept _ 1 rfl t (by omega) (Bool.eq_false_iff.mpr fun h => by have := (flush0_1 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 800000 in
/-- The body at any point: the adjacency memref holds its block; the column tile says which case the point is in; at
    a column tile after the first the output's memref holds what the point before left; so that case's run applies.
    The invariant passes through unread and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  by_cases h0 : t.val % 6 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (not_cond1_of_mod t h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _ _)
  · by_cases h1 : t.val % 6 = 5
    · rw [outsAt0_C V c t h0 h1]
      simp only [before0_1_kept V c t h0]
      unfold out0_C_1
      iintro ⟨HΦ, Ho, ⟨%d0, H0⟩, ⟨%d1, H1⟩⟩
      iapply ((kernelRun0_C c (grid0.coords t) _ _ _ _ (fun h => h0 ((hcond0_0 t).mp h)) ((hcond0_1 t).mpr h1) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_C_1 c _ _ _ _ _ _ _ _ _)
    · rw [outsAt0_B V c t h0 h1]
      simp only [before0_1_kept V c t h0]
      unfold out0_B_1
      iintro ⟨HΦ, Ho, ⟨%d0, H0⟩, ⟨%d1, H1⟩⟩
      iapply ((kernelRun0_B c (grid0.coords t) _ _ _ _ (fun h => h0 ((hcond0_0 t).mp h)) (fun h => h1 ((hcond0_1 t).mp h)) (iblk0 V c 0 t) _).2 Set.univ _)
      isplitl [H0]; · iexact H0
      isplitl [H1]; · iexact H1
      iintro ⟨H0, ⟨%e1, H1⟩⟩
      isplitl [HΦ]; · iexact HΦ
      isplitl [Ho]; · iexact Ho
      isplitl [H0]; · iexact H0
      unfold owns; iexists _; isplitr
      swap; · iexact H1
      ipureintro; exact View.read_writes_of_cover _ _ _ _ _ (cover0_B_1 c _ _ _ _ _ _ _ _ _)

/-- The library's body obligation, at every point. -/
theorem body0 (c : Dev nD) : BodyObligation (dat0 (F := F) V c) (defs₀ (F := F)) Variants.none () Set.univ := fun t => by
  rw [bigSep_W0, bigSep_W0]
  exact sound_body0 V c t

/-! ## The invariant in and out -/

/-- The region's invariant before the first point is the class's. -/
theorem hin0 (c : Dev nD) : Pipeline.ΦA spec0 c ⊢ (dat0 V c).Φ 0 := by
  dsimp only [dat0]; exact .rfl

/-- And after the last point. -/
theorem hout0 (c : Dev nD) : (dat0 V c).Φ (Fin.last cfg0.N) ⊢ Pipeline.ΦA spec0 c := by
  dsimp only [dat0]; exact .rfl

end Cert.KernelIdeal.Hand

end
-- ==== Proof.KI.R1.lean ====
import proofs.«129173_j30640296690052_1_alg».proof.Proof.Gen.KernelIdeal.Launch
import proofs.«129173_j30640296690052_1_alg».proof.Proof.Gen.KernelIdeal.Skeleton
import proofs.«129173_j30640296690052_1_alg».proof.Proof.Gen.KernelIdeal.Points
import Idealize.ShloMosaic.Lib.Pipeline.FrameBody
import Idealize.ShloMosaic.Lib.Tactic

/-!
# The support kernel (custom_call 1): proof data and body obligation

The second pallas_call computes `support = x · W` one row tile at a time: grid point `t` (of 6) loads
the 2048×256 block `t` of `x` and the whole 256×128 matrix `W`, multiplies them into a zero accumulator
and stores the product, narrowed to bf16, into the 2048×128 block `t` of the result. The body keeps nothing
from point to point, so what it leaves in the output window's buffer is a function of the two input blocks
alone, and each input buffer holds its block of the array as the region found it.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's unscoped buffers when the region is entered
variable (V : Dev nD → Valuation τ sig (Elt F))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The buffer of the `x` window holds the block of `x` at every point, for any proof data over the region's
    arrays whose body leaves the block in place. -/
theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of the `W` window holds all of `W` at every point: it is fetched once, at the first point, and its
    block index never moves. -/
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x256 := Rect.unit (s := S2048x256) ![0, 0] S2048x256.size inb_S2048x256_S2048x256_0_0
abbrev r1_1 : Rect S256x128 := Rect.unit (s := S256x128) ![0, 0] S256x128.size inb_S256x128_S256x128_0_0
abbrev r1_2 : Rect S2048x128 := Rect.unit (s := S2048x128) ![0, 0] S2048x128.size inb_S2048x128_S2048x128_0_0

/-! ## What the body leaves in the output window's buffer -/

/-- The output buffer after the body, from the two input blocks: its one store, of the narrowed product. -/
def out1_2 (x0 : Vec F S2048x256 .f32) (x1 : Vec F S256x128 .f32) : Vec F S2048x128 .bf16 :=
  View.canon [⟨r1_2, k1_pay1 (View.ld x0 r1_0) (View.ld x1 r1_1)⟩]

/-- The one store covers the buffer. -/
theorem cover1_2 (p0 : Vec F S2048x128 .bf16) (y : S2048x128.Idx) :
    ∃ pc ∈ ([⟨r1_2, p0⟩] : List (View.Piece (Elt F) S2048x128 .bf16)), y ∈ pc.1.set :=
  View.cover_of_tiled [⟨r1_2, p0⟩] S2048x128.size (by rfl) y

/-! ## The body's triple -/

set_option maxHeartbeats 1000000 in
/-- The body on whole staging memrefs, the inputs' holding `x0` and `x1` and the output's anything, runs to the
    continuation holding the inputs' as they were and the output's at `out1_2 x0 x1`. -/
theorem sound_kernel1 (c : Dev nD) (E : Set ℕ) (i : grid1.Coords) (arg1 : Memref sig .tc .vmem S2048x256 .f32) (harg1 : arg1.IsWhole) (arg2 : Memref sig .tc .vmem S256x128 .f32) (harg2 : arg2.IsWhole) (arg3 : Memref sig .tc .vmem S2048x128 .bf16) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__support_kernel i arg1 harg1 arg2 harg2 arg3 harg3) K := by
  simp only [cc1__support_kernel_eq_skeleton]; unfold cc1__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of the support kernel's pipeline on core `c`: the arrays as the region finds them; after the
    body at point `t` each input's buffer at its block and the output's at `out1_2` of the two blocks; the scoped
    rest and the generator register untouched; nothing owed; full shares. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem dat1_A (c : Dev nD) (w : Fin cfg1.W) : (dat1 V c).A w = V c (Proc.devRef .tc (Pipeline.arrRef spec1 w)) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (dat1_A V c 0) (after1_0 V c) t d
theorem before1_1 (c : Dev nD) (t : Fin cfg1.N) (d) : (dat1 V c).before 1 t d = iblk1 V c 1 t :=
  before1_1_of V (dat1 V c) (dat1_A V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body1 (c : Dev nD) : BodyObligation (dat1 (F := F) V c) (defs₀ (F := F)) Variants.none () Set.univ := fun t => by
  rw [bigSep_W1, bigSep_W1]
  exact sound_body1 V c t

/-! ## The invariant at the region's two ends -/

/-- Entering the region: the invariant before the first point is the scoped rest and the generator register. -/
theorem hin1 (c : Dev nD) : (Pipeline.ΦA spec1 c : sProp 𝕄) ⊢ (dat1 V c).Φ 0 := .rfl

/-- Leaving it: the invariant after the last point is the same. -/
theorem hout1 (c : Dev nD) : (dat1 V c).Φ (Fin.last cfg1.N) ⊢ (Pipeline.ΦA spec1 c : sProp 𝕄) := .rfl

end Cert.KernelIdeal.Hand

end
-- ==== Proof.KI.R2Runs.lean ====
import proofs.«129173_j30640296690052_1_alg».proof.Proof.Gen.KernelIdeal.Launch
import proofs.«129173_j30640296690052_1_alg».proof.Proof.Gen.KernelIdeal.Skeleton
import proofs.«129173_j30640296690052_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! # The third kernel (scale, multiply, accumulate, add bias): what its three control cases share

The grid is 12 × 12: point `t` has row tile `t / 12` and column tile `j = t % 12`. The body zeroes its
accumulator when `j = 0`, adds one tile's product at every point, and writes the output block when `j = 11`. -/

/-- An array of the core as the region finds it, read at a TensorCore reference. -/
abbrev VA (c : Dev nD) (b : Ref sig .tc) : Buf (Elt F) ((c : Thread nD τ).loc b) := V c (Proc.devRef .tc b)

/-! ## The branch conditions, in closed form over the grid -/

/-- The first conditional's test: the column tile is the first. -/
abbrev cond2_0 (i : grid2.Coords) : Prop := (Scalar.cmpi .ne (Scalar.extui (Scalar.cmpi .eq (BitVec.ofNat 32 (i 1).val) 0#32)) 0#32) = 1#1
/-- It holds exactly at the points with `t % 12 = 0`. -/
theorem hcond2_0 : ∀ t : Fin cfg2.N, cond2_0 (grid2.coords t) ↔ t.val % 12 = 0 :=
  (by decide +kernel : ∀ t : Fin grid2.N, cond2_0 (grid2.coords t) ↔ t.val % 12 = 0)

/-- The second conditional's test: the column tile is the last. -/
abbrev cond2_1 (i : grid2.Coords) : Prop := k2_cond2 i = 1#1
/-- It holds exactly at the points with `t % 12 = 11`. -/
theorem hcond2_1 : ∀ t : Fin cfg2.N, cond2_1 (grid2.coords t) ↔ t.val % 12 = 11 :=
  (by decide +kernel : ∀ t : Fin grid2.N, cond2_1 (grid2.coords t) ↔ t.val % 12 = 11)

/-! ## Where the output window is idle -/

/-- With the first column tile (and not the last) the output block is not stored: the window is idle, -/
theorem idleAt2_6_A : ∀ t : Fin cfg2.N, cond2_0 (grid2.coords t) → ¬cond2_1 (grid2.coords t) → cfg2.idle 6 (grid2.coords t) = true := by decide +kernel
/-- and not written back. -/
theorem noFlush2_6_A : ∀ t : Fin cfg2.N, cond2_0 (grid2.coords t) → ¬cond2_1 (grid2.coords t) → (cfg2.win 6).flush t = false := by decide +kernel
/-- At a middle column tile likewise idle, -/
theorem idleAt2_6_B : ∀ t : Fin cfg2.N, ¬cond2_0 (grid2.coords t) → ¬cond2_1 (grid2.coords t) → cfg2.idle 6 (grid2.coords t) = true := by decide +kernel
/-- and not written back. -/
theorem noFlush2_6_B : ∀ t : Fin cfg2.N, ¬cond2_0 (grid2.coords t) → ¬cond2_1 (grid2.coords t) → (cfg2.win 6).flush t = false := by decide +kernel
/-- At the last column tile the output block is stored: the window is live. -/
theorem liveAt2_6_C : ∀ t : Fin cfg2.N, ¬cond2_0 (grid2.coords t) → cond2_1 (grid2.coords t) → cfg2.idle 6 (grid2.coords t) = false := by decide +kernel

/-! ## The staging memrefs and the accumulator -/

/-- Window 0's current staging memref at point `t`, and its wholeness. -/
abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
/-- Window 1's current staging memref at point `t`, and its wholeness. -/
abbrev ms2_1 (t : Fin cfg2.N) : Memref sig .tc .vmem S1024x128 .bf16 := win2_1.stage (cfg2.slots t 1)
abbrev hs2_1 (t : Fin cfg2.N) : (ms2_1 t).IsWhole := hstage2_1 ((cfg2.slots t 1).cast nbuf2_1)
/-- Window 2's current staging memref at point `t`, and its wholeness. -/
abbrev ms2_2 (t : Fin cfg2.N) : Memref sig .tc .vmem S1024x128 .bf16 := win2_2.stage (cfg2.slots t 2)
abbrev hs2_2 (t : Fin cfg2.N) : (ms2_2 t).IsWhole := hstage2_2 ((cfg2.slots t 2).cast nbuf2_2)
/-- Window 3's current staging memref at point `t`, and its wholeness. -/
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
/-- Window 4's current staging memref at point `t`, and its wholeness. -/
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
/-- Window 5's current staging memref at point `t`, and its wholeness. -/
abbrev ms2_5 (t : Fin cfg2.N) : Memref sig .tc .vmem S128 .f32 := win2_5.stage (cfg2.slots t 5)
abbrev hs2_5 (t : Fin cfg2.N) : (ms2_5 t).IsWhole := hstage2_5 ((cfg2.slots t 5).cast nbuf2_5)
/-- Window 6's current staging memref at point `t`, and its wholeness. -/
abbrev ms2_6 (t : Fin cfg2.N) : Memref sig .tc .vmem S1024x128 .f32 := win2_6.stage (cfg2.slots t 6)
abbrev hs2_6 (t : Fin cfg2.N) : (ms2_6 t).IsWhole := hstage2_6 ((cfg2.slots t 6).cast nbuf2_6)
/-- The accumulator: a whole scoped buffer of the kernel's own, carried from point to point. -/
abbrev scM2_0 : Memref sig .tc .vmem S1024x128 .f32 := Memref.whole cc2_scratch0
/-- The accumulator as a view: its contents are stated through it. -/
abbrev VS2_0 : View sig .tc .vmem S1024x128 .f32 := (scM2_0).view
/-- One staging buffer of the output window, through which its contents are stated. -/
abbrev VO2_6 : View sig .tc .vmem S1024x128 .f32 := (Memref.whole cc2_stg6_0 : Memref sig .tc .vmem S1024x128 .f32).view

/-- The core's scoped buffers other than this kernel's staging buffers, each at some contents, the accumulator
    last and at `P`. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P)

/-- The region invariant of the class with the accumulator as an owned memref. -/
theorem PhiA2_eq (c : Dev nD) :
    (Pipeline.ΦA spec2 c : sProp 𝕄)
      = iprop(restWith (F := F) c iprop(∃ d, owns (c : Thread nD τ) scM2_0 fullShare d) ∗ (∃ r, prngReg c r)) := by
  unfold Pipeline.ΦA restWith; rw [scopedRest2_eq]; simp only [scM2_0, owns_whole]; try rfl

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (VA V c (Pipeline.arrRef spec2 w))

/-- Input window 0's current staging buffer holds its block at every point, fetched there or not: unfetched,
    the block index has not moved. -/
theorem before2_0_of {c : Dev nD} (dat : Dat τ (Elt F) Unit ℕ (UR sig nD τ) ℕ cfg2 c) (hA : dat.A 0 = VA V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched,
    the block index has not moved. -/
theorem before2_1_of {c : Dev nD} (dat : Dat τ (Elt F) Unit ℕ (UR sig nD τ) ℕ cfg2 c) (hA : dat.A 1 = VA V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched,
    the block index has not moved. -/
theorem before2_2_of {c : Dev nD} (dat : Dat τ (Elt F) Unit ℕ (UR sig nD τ) ℕ cfg2 c) (hA : dat.A 2 = VA V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched,
    the block index has not moved. -/
theorem before2_3_of {c : Dev nD} (dat : Dat τ (Elt F) Unit ℕ (UR sig nD τ) ℕ cfg2 c) (hA : dat.A 3 = VA V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched,
    the block index has not moved. -/
theorem before2_4_of {c : Dev nD} (dat : Dat τ (Elt F) Unit ℕ (UR sig nD τ) ℕ cfg2 c) (hA : dat.A 4 = VA V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched,
    the block index has not moved. -/
theorem before2_5_of {c : Dev nD} (dat : Dat τ (Elt F) Unit ℕ (UR sig nD τ) ℕ cfg2 c) (hA : dat.A 5 = VA V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Hand

end
-- ==== Proof.KI.R2RunA.lean ====
/- The third kernel's body run in one of its three control cases: the first column tile of a row of tiles.
   The accumulator is zeroed, one tile's product is added to it, and the output block is not touched. What the
   accumulator ends with is the list of stored pieces the run finds, the witness of the subtype. -/
import proofs.«129173_j30640296690052_1_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at the first column tile of a row of tiles (first conditional taken, second not): the accumulator is zeroed, then one product added; the output block is left untouched. On whole memrefs — the six inputs owned at their contents `x0 … x5`, the output's buffer at contents `xi6` handed back as found, the accumulator at anything — the body runs to the
    continuation holding the inputs as they were, and the accumulator with the pieces `LS0` written. The
    pieces are found by running the body's skeleton. -/
noncomputable def kernelRun2_A (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨[], ?_, fun xi6 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R2RunB.lean ====
/- The third kernel's body run in one of its three control cases: a middle column tile of a row of tiles.
   One tile's product is added to what the accumulator held, and the output block is not touched. What the
   accumulator ends with is the list of stored pieces the run finds, the witness of the subtype. -/
import proofs.«129173_j30640296690052_1_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at a middle column tile (neither conditional taken): one product is added to the accumulator; the output block is left untouched. On whole memrefs — the six inputs owned at their contents `x0 … x5`, the output's buffer at contents `xi6` handed back as found, the accumulator at the contents `xs0` the point before left — the body runs to the
    continuation holding the inputs as they were, and the accumulator with the pieces `LS0` written. The
    pieces are found by running the body's skeleton. -/
noncomputable def kernelRun2_B (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨[], ?_, fun xi6 E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R2RunC.lean ====
/- The third kernel's body run in one of its three control cases: the last column tile of a row of tiles.
   One tile's product is added to what the accumulator held, and the output block is stored from the finished sum,
   the diagonal term and the bias. What the accumulator and the output's staging buffer end with are the lists of
   stored pieces the run finds, the witnesses of the subtype. -/
import proofs.«129173_j30640296690052_1_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

set_option maxHeartbeats 1000000 in
/-- The body at the last column tile (second conditional taken, first not): one product is added to the accumulator, and the output block is stored from it. On whole memrefs — the six inputs owned at their contents `x0 … x5`, the output's buffer at anything, the accumulator at the contents `xs0` the point before left — the body runs to the
    continuation holding the inputs as they were, the output's buffer with the pieces `L6` written, and the accumulator with the pieces `LS0` written. The
    pieces are found by running the body's skeleton. -/
noncomputable def kernelRun2_C (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gconv_kernel i arg2 harg2 arg3 harg3 arg4 harg4 arg5 harg5 arg6 harg6 arg7 harg7 arg8 harg8 arg9 harg9) K } := by
  refine ⟨?_, ?_, fun E K => ?run⟩
  case run =>
    simp only [cc2__gconv_kernel_eq_skeleton]; unfold cc2__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.R2.lean ====
import proofs.«129173_j30640296690052_1_alg».proof.Proof.KI.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (q : Fin cfg2.W → PosShare TreeShare) (V : Dev nD → Valuation τ sig (Elt F))

/-! # The third kernel: what each case leaves, the accumulation over the grid, the proof data, the body obligation

Within a row of tiles the accumulator after column tile `j` holds the sum of the first `j + 1` products; the
output block is written once, at the last column tile, from the finished sum. -/

/-- The first column tile stores nothing into the output block (the window is idle there and not written back): no
    pieces, a placeholder nothing consults. -/
def out2_A_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) : Vec F S1024x128 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

/-- The accumulator's pieces in this case tile it (whole stores), so they cover it. -/
theorem scover2_A_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (y : S1024x128.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S1024x128.size (by sl_kernel_rfl) y

/-- What this case leaves in the accumulator: its pieces read back. -/
def sout2_A_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) : Vec F S1024x128 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- A middle column tile stores nothing into the output block (the window is idle there and not written back): no
    pieces, a placeholder nothing consults. -/
def out2_B_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

/-- The accumulator's pieces in this case tile it (whole stores), so they cover it. -/
theorem scover2_B_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator: its pieces read back. -/
def sout2_B_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

/-- At the last column tile the output block's pieces tile it (one whole store), so they cover it. -/
theorem cover2_C_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1024x128.size (by sl_kernel_rfl) y

/-- What the last column tile leaves in the output's staging buffer: its pieces read back. -/
def out2_C_6 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

/-- The accumulator's pieces in this case tile it (whole stores), so they cover it. -/
theorem scover2_C_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) (y : S1024x128.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What this case leaves in the accumulator: its pieces read back. -/
def sout2_C_0 (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i)
    (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n`
    (a pair: the output's buffer, then the accumulator): the case the column tile `n % 12` selects, run at the
    point's memrefs and input blocks, the accumulator entering a point that is not first in its row of tiles at
    what the point before left. No point is both first and last in its row. -/
def outsAt2 (c : Dev nD) : (n : ℕ) → n < cfg2.N → Vec F S1024x128 .f32 × Vec F S1024x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 12 = 0 then
      if h1 : (n + 1) % 12 = 11 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 12 = 11 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

/-- `outsAt2` at a first column tile: that case's contents. -/
theorem outsAt2_A (c : Dev nD) (t : Fin cfg2.N) (h0 : t.val % 12 = 0) (h1 : ¬t.val % 12 = 11) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a middle column tile: that case's contents, over what the point before left. -/
theorem outsAt2_B (c : Dev nD) (t : Fin cfg2.N) (h0 : ¬t.val % 12 = 0) (h1 : ¬t.val % 12 = 11) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last column tile: that case's contents, over what the point before left. -/
theorem outsAt2_C (c : Dev nD) (t : Fin cfg2.N) (h0 : ¬t.val % 12 = 0) (h1 : t.val % 12 = 11) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the class's invariant (every scoped buffer at anything); afterwards the same with the
    accumulator at what the point before left in it, and the generator register at some state. -/
def PhiS2 (c : Dev nD) : (n : ℕ) → n ≤ cfg2.N → sProp 𝕄
  | 0, _ => Pipeline.ΦA spec2 c
  | n + 1, hn => iprop(restWith (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(restWith (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(restWith (F := F) c (owns (c : Thread nD τ) scM2_0 fullShare ((outsAt2 V c (n - 1) (by omega)).2)) ∗ (∃ r, prngReg c r)) := by
  cases n with
  | zero => exact absurd rfl hz
  | succ n => rfl

/-! ## The proof data -/

/-- The proof data of the third kernel's pipeline on core `c`: the arrays as the region finds them; after the body
    at point `t` each input's buffer at its block and the output's at `outsAt2`'s first component; the invariant
    `PhiS2`; nothing owed; the arrays' shares `q` as given (two windows read one array, so its share is dealt
    between them by whoever launches the region; the body never touches the arrays). -/
def dat2 (c : Dev nD) : Dat τ (Elt F) Unit ℕ (UR sig nD τ) ℕ cfg2 c where
  A w := VA V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q := q
  owed _ := 0

/-- The proof data's arrays are the region-entry contents (the definition projected, nothing evaluated). -/
theorem dat2_A (c : Dev nD) (w : Fin cfg2.W) : (dat2 q V c).A w = V c (Proc.devRef .tc (Pipeline.arrRef spec2 w)) := by
  dsimp only [dat2]

theorem dat2_A' (c : Dev nD) (w : Fin cfg2.W) : (dat2 q V c).A w = VA V c (Pipeline.arrRef spec2 w) := by
  dsimp only [dat2]

/-- The invariant at a point's start, restated at the point's position. -/
theorem PhiS2_castSucc (c : Dev nD) (t : Fin cfg2.N) :
    (dat2 q V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 q V c).after 0 t = iblk2 V c 0 t := by dsimp only [dat2]
theorem after2_1 (c : Dev nD) (t : Fin cfg2.N) : (dat2 q V c).after 1 t = iblk2 V c 1 t := by dsimp only [dat2]
theorem after2_2 (c : Dev nD) (t : Fin cfg2.N) : (dat2 q V c).after 2 t = iblk2 V c 2 t := by dsimp only [dat2]
theorem after2_3 (c : Dev nD) (t : Fin cfg2.N) : (dat2 q V c).after 3 t = iblk2 V c 3 t := by dsimp only [dat2]
theorem after2_4 (c : Dev nD) (t : Fin cfg2.N) : (dat2 q V c).after 4 t = iblk2 V c 4 t := by dsimp only [dat2]
theorem after2_5 (c : Dev nD) (t : Fin cfg2.N) : (dat2 q V c).after 5 t = iblk2 V c 5 t := by dsimp only [dat2]
theorem after2_6 (c : Dev nD) (t : Fin cfg2.N) : (dat2 q V c).after 6 t = (outsAt2 V c t.val t.isLt).1 := by dsimp only [dat2]

/-- Each input's current staging buffer holds its block at every point, fetched there or not. -/
theorem before2_0 (c : Dev nD) (t : Fin cfg2.N) (d) : (dat2 q V c).before 0 t d = iblk2 V c 0 t :=
  before2_0_of V (dat2 q V c) (dat2_A' q V c 0) (after2_0 q V c) t d
theorem before2_1 (c : Dev nD) (t : Fin cfg2.N) (d) : (dat2 q V c).before 1 t d = iblk2 V c 1 t :=
  before2_1_of V (dat2 q V c) (dat2_A' q V c 1) (after2_1 q V c) t d
theorem before2_2 (c : Dev nD) (t : Fin cfg2.N) (d) : (dat2 q V c).before 2 t d = iblk2 V c 2 t :=
  before2_2_of V (dat2 q V c) (dat2_A' q V c 2) (after2_2 q V c) t d
theorem before2_3 (c : Dev nD) (t : Fin cfg2.N) (d) : (dat2 q V c).before 3 t d = iblk2 V c 3 t :=
  before2_3_of V (dat2 q V c) (dat2_A' q V c 3) (after2_3 q V c) t d
theorem before2_4 (c : Dev nD) (t : Fin cfg2.N) (d) : (dat2 q V c).before 4 t d = iblk2 V c 4 t :=
  before2_4_of V (dat2 q V c) (dat2_A' q V c 4) (after2_4 q V c) t d
theorem before2_5 (c : Dev nD) (t : Fin cfg2.N) (d) : (dat2 q V c).before 5 t d = iblk2 V c 5 t :=
  before2_5_of V (dat2 q V c) (dat2_A' q V c 5) (after2_5 q V c) t d

/-- No input window is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl

/-! ## The body obligation, at a generic point -/

/-- What the body is called with at point `t`, the windows one by one, -/
def bodyPre2 (c : Dev nD) (t : Fin cfg2.N) : sProp 𝕄 :=
  iprop((dat2 q V c).Φ t.castSucc ∗ (dat2 q V c).owesAt () t.castSucc
    ∗ (∃ d, owns (c : Thread nD τ) (ms2_0 t) fullShare ((dat2 q V c).before 0 t d))
    ∗ (∃ d, owns (c : Thread nD τ) (ms2_1 t) fullShare ((dat2 q V c).before 1 t d))
    ∗ (∃ d, owns (c : Thread nD τ) (ms2_2 t) fullShare ((dat2 q V c).before 2 t d))
    ∗ (∃ d, owns (c : Thread nD τ) (ms2_3 t) fullShare ((dat2 q V c).before 3 t d))
    ∗ (∃ d, owns (c : Thread nD τ) (ms2_4 t) fullShare ((dat2 q V c).before 4 t d))
    ∗ (∃ d, owns (c : Thread nD τ) (ms2_5 t) fullShare ((dat2 q V c).before 5 t d))
    ∗ (∃ d, owns (c : Thread nD τ) (ms2_6 t) fullShare ((dat2 q V c).before 6 t d)))

/-- and what it returns. -/
def bodyPost2 (c : Dev nD) (t : Fin cfg2.N) : sProp 𝕄 :=
  iprop((dat2 q V c).Φ t.succ ∗ (dat2 q V c).owesAt () t.succ
    ∗ (dat2 q V c).leavesExact 0 t
    ∗ (dat2 q V c).leavesExact 1 t
    ∗ (dat2 q V c).leavesExact 2 t
    ∗ (dat2 q V c).leavesExact 3 t
    ∗ (dat2 q V c).leavesExact 4 t
    ∗ (dat2 q V c).leavesExact 5 t
    ∗ (dat2 q V c).leavesExact 6 t)

set_option maxHeartbeats 4800000 in
/-- The body at any point. The inputs' memrefs hold their blocks; the column tile `t % 12` says which case the
    point is in; at a first column tile the accumulator may hold anything (it is zeroed), elsewhere it holds what
    the point before left; the run of the case applies and the accumulator comes back at this point's contents;
    where the output block is not stored its buffer is handed back as found. -/
theorem sound_body2 (c : Dev nD) (t : Fin cfg2.N) :
    bodyPre2 q V c t ⊢ wp frame (wpE (defs₀ (F := F)) Variants.none c none) Set.univ (bodyAt2 t) (fun _ => bodyPost2 q V c t) := by
  unfold bodyPre2 bodyPost2 bodyAt2
  simp only [before2_0, before2_1, before2_2, before2_3, before2_4, before2_5]
  rw [show (dat2 q V c).owesAt () t.succ = (dat2 q V c).owesAt () t.castSucc from rfl]
  rw [show (dat2 q V c).Φ t.succ = PhiS2 V c (t.val + 1) t.isLt from rfl, PhiS2_succ]
  have hN : t.val < 144 := lt_of_lt_of_eq t.isLt (show cfg2.N = 144 from N_2)
  rw [show (dat2 q V c).leavesExact 0 t = owns (c : Thread nD τ) (ms2_0 t) fullShare ((dat2 q V c).after 0 t) from by
    unfold Dat.leavesExact; rw [liveAt2_0 t], after2_0]
  rw [show (dat2 q V c).leavesExact 1 t = owns (c : Thread nD τ) (ms2_1 t) fullShare ((dat2 q V c).after 1 t) from by
    unfold Dat.leavesExact; rw [liveAt2_1 t], after2_1]
  rw [show (dat2 q V c).leavesExact 2 t = owns (c : Thread nD τ) (ms2_2 t) fullShare ((dat2 q V c).after 2 t) from by
    unfold Dat.leavesExact; rw [liveAt2_2 t], after2_2]
  rw [show (dat2 q V c).leavesExact 3 t = owns (c : Thread nD τ) (ms2_3 t) fullShare ((dat2 q V c).after 3 t) from by
    unfold Dat.leavesExact; rw [liveAt2_3 t], after2_3]
  rw [show (dat2 q V c).leavesExact 4 t = owns (c : Thread nD τ) (ms2_4 t) fullShare ((dat2 q V c).after 4 t) from by
    unfold Dat.leavesExact; rw [liveAt2_4 t], after2_4]
  rw [show (dat2 q V c).leavesExact 5 t = owns (c : Thread nD τ) (ms2_5 t) fullShare ((dat2 q V c).after 5 t) from by
    unfold Dat.leavesExact; rw [liveAt2_5 t], after2_5]
  by_cases h0 : t.val % 12 = 0
  · by_cases h1 : t.val % 12 = 11
    · exfalso; omega
    · rw [Dat.leavesExact_idle (dat2 q V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc q V c t, PhiS2_zero V c _ _ hz, PhiA2_eq]
        unfold restWith
        iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [R1 R2 R3 R4 R5 R6 R7 R8 R9 HS0 Hg]
        · isplitl [R1 R2 R3 R4 R5 R6 R7 R8 R9 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc q V c t, PhiS2_pos V c _ _ hz]
        unfold restWith
        iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [R1 R2 R3 R4 R5 R6 R7 R8 R9 HS0 Hg]
        · isplitl [R1 R2 R3 R4 R5 R6 R7 R8 R9 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            unfold owns; iexists _; isplitr
            swap; · iexact HS0
            ipureintro; exact View.read_writes_of_cover _ _ _ _ _ (scover2_A_0 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 12 = 11
    · rw [show (dat2 q V c).leavesExact 6 t = owns (c : Thread nD τ) (ms2_6 t) fullShare ((dat2 q V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc q V c t, PhiS2_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover2_C_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 q V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc q V c t, PhiS2_pos V c _ _ hz]
      unfold restWith
      iintro ⟨⟨⟨R1, R2, R3, R4, R5, R6, R7, R8, R9, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [R1 R2 R3 R4 R5 R6 R7 R8 R9 HS0 Hg]
      · isplitl [R1 R2 R3 R4 R5 R6 R7 R8 R9 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          unfold owns; iexists _; isplitr
          swap; · iexact HS0
          ipureintro; exact View.read_writes_of_cover _ _ _ _ _ (scover2_B_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the third kernel's pipeline, at every point. -/
theorem body2 (c : Dev nD) : BodyObligation (dat2 (F := F) q V c) (defs₀ (F := F)) Variants.none () Set.univ := fun t => by
  rw [bigSep_W2, bigSep_W2]
  exact sound_body2 q V c t

/-- What the launch hands the region is the invariant before the first point. -/
theorem hin2 (c : Dev nD) : Pipeline.ΦA spec2 c ⊢ (dat2 q V c).Φ 0 := by
  rw [show (dat2 q V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 q V c).Φ t ⊢ Pipeline.ΦA spec2 c := by
  rw [show (dat2 q V c).Φ t = PhiS2 V c t.val (Nat.le_of_lt_succ t.isLt) from rfl, PhiS2_pos V c _ _ ht, PhiA2_eq]
  unfold restWith
  iintro ⟨⟨R1, R2, R3, R4, R5, R6, R7, R8, R9, HS0⟩, Hg⟩
  isplitl [R1 R2 R3 R4 R5 R6 R7 R8 R9 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexists _; iexact HS0
  iexact Hg

/-- The same after the last point. -/
theorem hout2 (c : Dev nD) : (dat2 q V c).Φ (Fin.last cfg2.N) ⊢ Pipeline.ΦA spec2 c :=
  Phi_out2 q V c _ (by rw [Fin.val_last]; have : cfg2.N = 144 := N_2; omega)

end Cert.KernelIdeal.Hand

end
-- ==== Proof.KI.Run.lean ====
/-
  The three kernel regions and the two host stretches between them as one run.

  Between two items of the main program a core holds every unscoped buffer whole at a valuation: the launch
  contents, then what the degree region leaves (its output array at what its write-backs fold to, everything
  else as it was), then the power stretch's results, the support region's, the two broadcasts', the last
  region's. The last region reads one array (the support) through two windows; the array's full share is dealt
  in halves between them at entry and rejoined at exit. Every weakly fair execution terminates, the arguments
  end as launched, and the result array ends at what the last region's write-backs leave in it.
-/
import proofs.«129173_j30640296690052_1_alg».proof.Proof.KI.R0
import proofs.«129173_j30640296690052_1_alg».proof.Proof.KI.R1
import proofs.«129173_j30640296690052_1_alg».proof.Proof.KI.R2
import proofs.«129173_j30640296690052_1_alg».proof.Proof.Gen.KernelIdeal.Regions
import proofs.«129173_j30640296690052_1_alg».proof.Proof.LibPlainRegion
import proofs.«129173_j30640296690052_1_alg».proof.Proof.LibRegionKeep
import proofs.«129173_j30640296690052_1_alg».proof.Proof.LibSharedRegion
import Idealize.ShloMosaic.Lib.Pipeline.Frame
import Idealize.ShloMosaic.Lib.Pipeline.FrameBody
import Idealize.ShloMosaic.Lib.Pipeline.Regions
import Idealize.ShloMosaic.Lib.Pipeline.Kit
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data owe nothing and hold every array at the share named -/

theorem dat0_q (V : Dev nD → Valuation τ sig (Elt F)) (c : Dev nD) (w : Fin cfg0.W) : (dat0 V c).q w = fullShare := rfl
theorem dat0_owed (V : Dev nD → Valuation τ sig (Elt F)) (c : Dev nD) (t) : (dat0 V c).owed t = 0 := rfl
theorem dat0_rec (V : Dev nD → Valuation τ sig (Elt F)) (c : Dev nD) (t) : (dat0 V c).recorded t = Set.univ := rfl
theorem dat1_q (V : Dev nD → Valuation τ sig (Elt F)) (c : Dev nD) (w : Fin cfg1.W) : (dat1 V c).q w = fullShare := rfl
theorem dat1_owed (V : Dev nD → Valuation τ sig (Elt F)) (c : Dev nD) (t) : (dat1 V c).owed t = 0 := rfl
theorem dat1_rec (V : Dev nD → Valuation τ sig (Elt F)) (c : Dev nD) (t) : (dat1 V c).recorded t = Set.univ := rfl
theorem dat2_q (q : Fin cfg2.W → PosShare TreeShare) (V : Dev nD → Valuation τ sig (Elt F)) (c : Dev nD) (w : Fin cfg2.W) : (dat2 q V c).q w = q w := rfl
theorem dat2_owed (q : Fin cfg2.W → PosShare TreeShare) (V : Dev nD → Valuation τ sig (Elt F)) (c : Dev nD) (t) : (dat2 q V c).owed t = 0 := rfl
theorem dat2_rec (q : Fin cfg2.W → PosShare TreeShare) (V : Dev nD → Valuation τ sig (Elt F)) (c : Dev nD) (t) : (dat2 q V c).recorded t = Set.univ := rfl

variable (m : (ℓ : Loc nD τ sig) → Buf (Elt F) ℓ)

/-- How the full share of the array read through two windows is dealt: the left half to one, the right half to the other. -/
abbrev q2 : Fin cfg2.W → PosShare TreeShare := fun | 1 => fullShare.left | 2 => fullShare.right | _ => fullShare

/-- The unscoped buffers at launch; -/
def W0 (c : Dev nD) : Valuation τ sig (Elt F) := fun b => m (c, b)
/-- after the degree region; -/
def W1 (c : Dev nD) : Valuation τ sig (Elt F) := Pipeline.exitVal cfg0 (dat0 (W0 m) c) (W0 m c)
/-- after the power; -/
def W2 (c : Dev nD) : Valuation τ sig (Elt F) := StableHlo.after hostOps1 (W1 m c)
/-- after the support region; -/
def W3 (c : Dev nD) : Valuation τ sig (Elt F) := Pipeline.exitVal cfg1 (dat1 (W2 m) c) (W2 m c)
/-- after the two broadcasts; -/
def W4 (c : Dev nD) : Valuation τ sig (Elt F) := StableHlo.after hostOps2 (W3 m c)
/-- after the last region, which writes the result array only. -/
def W5 (c : Dev nD) : Valuation τ sig (Elt F) :=
  Function.update (W4 m c) (Proc.devRef .tc main_v6) ((dat2 q2 (W4 m) c).arrAt 6 cfg2.N)

abbrev adm : (p : Fin 3) → (pcfgs (F := F) p).Adm := fun p => (cfgs p).toPCfg_adm

def pdats : (p : Fin 3) → (c : Dev nD) → Dat τ (Elt F) Unit ℕ (UR sig nD τ) ℕ (cfgs p) c
  | ⟨0, _⟩ => fun c => dat0 (W0 m) c
  | ⟨1, _⟩ => fun c => dat1 (W2 m) c
  | ⟨2, _⟩ => fun c => dat2 q2 (W4 m) c
  | ⟨n + 3, h⟩ => absurd h (by omega)

abbrev L : GSem nD τ sig → Finset Unit := fun _ => ∅
abbrev lv : GSem nD τ sig → Unit → ℕ := fun _ _ => 0

set_option backward.isDefEq.respectTransparency.types false in
def reg0 : Pipeline.RegionSeg (pcfgs (F := F)) adm (pdats m) () defs₀ Variants.none L lv 0 :=
  Pipeline.plainRegion cfgs (pdats m) 0 defs₀ Variants.none L lv launch0
    (fun c => (body0 (W0 m) c).loose) (fun c t => dat0_owed (W0 m) c t) (fun c t => dat0_rec (W0 m) c t) (fun c w => dat0_q (W0 m) c w)
    (W0 m) (fun c w => dat0_A (W0 m) c w) (hin0 (W0 m)) (hout0 (W0 m))

set_option backward.isDefEq.respectTransparency.types false in
def reg1 : Pipeline.RegionSeg (pcfgs (F := F)) adm (pdats m) () defs₀ Variants.none L lv 1 :=
  Pipeline.plainRegion cfgs (pdats m) 1 defs₀ Variants.none L lv launch1
    (fun c => (body1 (W2 m) c).loose) (fun c t => dat1_owed (W2 m) c t) (fun c t => dat1_rec (W2 m) c t) (fun c w => dat1_q (W2 m) c w)
    (W2 m) (fun c w => dat1_A (W2 m) c w) (hin1 (W2 m)) (hout1 (W2 m))

/-! ## The last region: two windows on one array -/

theorem share2_0 (V : Dev nD → Valuation τ sig (Elt F)) (c : Dev nD) : (dat2 q2 V c).share 0 = fullShare := by
  unfold Dat.share; rw [dat2_q]; rfl
theorem share2_1 (V : Dev nD → Valuation τ sig (Elt F)) (c : Dev nD) : (dat2 q2 V c).share 1 = fullShare.left := by
  unfold Dat.share; rw [dat2_q]; rfl
theorem share2_2 (V : Dev nD → Valuation τ sig (Elt F)) (c : Dev nD) : (dat2 q2 V c).share 2 = fullShare.right := by
  unfold Dat.share; rw [dat2_q]; rfl
theorem share2_3 (V : Dev nD → Valuation τ sig (Elt F)) (c : Dev nD) : (dat2 q2 V c).share 3 = fullShare := by
  unfold Dat.share; rw [dat2_q]; rfl
theorem share2_4 (V : Dev nD → Valuation τ sig (Elt F)) (c : Dev nD) : (dat2 q2 V c).share 4 = fullShare := by
  unfold Dat.share; rw [dat2_q]; rfl
theorem share2_5 (V : Dev nD → Valuation τ sig (Elt F)) (c : Dev nD) : (dat2 q2 V c).share 5 = fullShare := by
  unfold Dat.share; rw [dat2_q]; rfl
theorem share2_6 (V : Dev nD → Valuation τ sig (Elt F)) (c : Dev nD) : (dat2 q2 V c).share 6 = fullShare := by
  unfold Dat.share; rfl

/-- The last region's arrays, window by window: the array read through windows 1 and 2 at the two halves of its share. -/
theorem arrays2_eq (V : Dev nD → Valuation τ sig (Elt F)) (c : Dev nD)
    (G : (w : Fin cfg2.W) → Buf (Elt F) ((cfg2.win w).arr.view.loc (c.tc : Thread nD τ))) :
    ((dat2 q2 V c).arrays G : sProp 𝕄)
      = iprop((((c.tc : Thread nD τ).loc main_arg1) ↦{fullShare} G 0)
          ∗ (((c.tc : Thread nD τ).loc main_v3) ↦{fullShare.left} G 1)
          ∗ (((c.tc : Thread nD τ).loc main_v3) ↦{fullShare.right} G 2)
          ∗ (((c.tc : Thread nD τ).loc main_v4) ↦{fullShare} G 3)
          ∗ (((c.tc : Thread nD τ).loc main_v5) ↦{fullShare} G 4)
          ∗ (((c.tc : Thread nD τ).loc main_arg3) ↦{fullShare} G 5)
          ∗ (((c.tc : Thread nD τ).loc main_v6) ↦{fullShare} G 6)) := by
  unfold Dat.arrays
  rw [bigSep_W2, (arr_whole2 0).set_eq_univ, (arr_whole2 1).set_eq_univ, (arr_whole2 3).set_eq_univ,
    (arr_whole2 4).set_eq_univ, (arr_whole2 5).set_eq_univ, (arr_whole2 6).set_eq_univ,
    share2_0, share2_1, share2_2, share2_3, share2_4, share2_5, share2_6]

/-- The distinct buffers behind the last region's arrays, one by one. -/
theorem arrBufs2_eq (c : Dev nD) (V : (b : Ref sig .tc) → Buf (Elt F) ((c.tc : Thread nD τ).loc b)) :
    (Pipeline.arrBufs (Ix := Unit) (Name := ℕ) (U := UR sig nD τ) (Lvl := ℕ) spec2 c V : sProp 𝕄)
      = iprop((((c.tc : Thread nD τ).loc main_arg1) ↦{fullShare} V main_arg1)
          ∗ (((c.tc : Thread nD τ).loc main_v3) ↦{fullShare} V main_v3)
          ∗ (((c.tc : Thread nD τ).loc main_v4) ↦{fullShare} V main_v4)
          ∗ (((c.tc : Thread nD τ).loc main_v5) ↦{fullShare} V main_v5)
          ∗ (((c.tc : Thread nD τ).loc main_arg3) ↦{fullShare} V main_arg3)
          ∗ (((c.tc : Thread nD τ).loc main_v6) ↦{fullShare} V main_v6)) := by
  unfold Pipeline.arrBufs
  exact bigSep_eq_bigSepL_of_eq [main_arg1, main_v3, main_v4, main_v5, main_arg3, main_v6] (by decide) (by decide) _

/-- What the last region finds in its arrays. -/
theorem arrAt2_zero (c : Dev nD) (w : Fin cfg2.W) :
    (dat2 q2 (W4 m) c).arrAt w 0 = W4 m c (Proc.devRef .tc (Pipeline.arrRef spec2 w)) := dat2_A q2 (W4 m) c w

/-- An input window's array is never written. -/
theorem arrAt2_in (c : Dev nD) (w : Fin cfg2.W) (hw : (cfg2.win w).isOut = false) :
    (dat2 q2 (W4 m) c).arrAt w cfg2.N = W4 m c (Proc.devRef .tc (Pipeline.arrRef spec2 w)) :=
  ((dat2 q2 (W4 m) c).arrAt_in w hw _).trans (dat2_A q2 (W4 m) c w)

theorem W5_v6 (c : Dev nD) : W5 m c (Proc.devRef .tc main_v6) = (dat2 q2 (W4 m) c).arrAt 6 cfg2.N := by
  unfold W5; exact Function.update_self ..

theorem W5_of_ne (c : Dev nD) (b : Ref sig .tc) (hb : b ≠ main_v6) : W5 m c (Proc.devRef .tc b) = W4 m c (Proc.devRef .tc b) := by
  unfold W5
  exact Function.update_of_ne (StableHlo.devRef_ne_of_ne hb : (Proc.devRef .tc b : DevRef τ sig) ≠ Proc.devRef .tc main_v6) _ _

set_option backward.isDefEq.respectTransparency.types false in
def reg2 : Pipeline.RegionSeg (pcfgs (F := F)) adm (pdats m) () defs₀ Variants.none L lv 2 :=
  Pipeline.sharedRegion cfgs (pdats m) 2 defs₀ Variants.none L lv winFacts₀2 block_pos2 stage_whole2
    (fun c => (body2 q2 (W4 m) c).loose) (fun c t => dat2_owed q2 (W4 m) c t) (fun c t => dat2_rec q2 (W4 m) c t)
    (W4 m) (W5 m)
    (fun c => by
      show (Pipeline.arrBufs spec2 c (fun b => W4 m c (Proc.devRef .tc b)) : sProp 𝕄) ⊢ (dat2 q2 (W4 m) c).arrays ((dat2 q2 (W4 m) c).arrAt · 0)
      rw [arrBufs2_eq, arrays2_eq, arrAt2_zero, arrAt2_zero, arrAt2_zero, arrAt2_zero, arrAt2_zero, arrAt2_zero, arrAt2_zero]
      iintro ⟨H1, H3, H4, H5, Hb, H6⟩
      ihave H3 := (pointsTo_share (PosShare.mem_left_op_right fullShare)).1 $$ H3
      icases H3 with ⟨H3l, H3r⟩
      isplitl [H1]; · iexact H1
      isplitl [H3l]; · iexact H3l
      isplitl [H3r]; · iexact H3r
      isplitl [H4]; · iexact H4
      isplitl [H5]; · iexact H5
      isplitl [Hb]; · iexact Hb
      iexact H6)
    (fun c => by
      show (dat2 q2 (W4 m) c).arrays ((dat2 q2 (W4 m) c).arrAt · cfg2.N) ⊢ (Pipeline.arrBufs spec2 c (fun b => W5 m c (Proc.devRef .tc b)) : sProp 𝕄)
      rw [arrBufs2_eq, arrays2_eq, arrAt2_in m c 0 rfl, arrAt2_in m c 1 rfl, arrAt2_in m c 2 rfl, arrAt2_in m c 3 rfl, arrAt2_in m c 4 rfl, arrAt2_in m c 5 rfl,
        W5_v6, W5_of_ne m c main_arg1 (by decide), W5_of_ne m c main_v3 (by decide), W5_of_ne m c main_v4 (by decide), W5_of_ne m c main_v5 (by decide), W5_of_ne m c main_arg3 (by decide)]
      iintro ⟨H1, H3l, H3r, H4, H5, Hb, H6⟩
      ihave H3 := (pointsTo_share (PosShare.mem_left_op_right fullShare)).2 $$ [H3l H3r]
      · isplitl [H3l] <;> iassumption
      isplitl [H1]; · iexact H1
      isplitl [H3]; · iexact H3
      isplitl [H4]; · iexact H4
      isplitl [H5]; · iexact H5
      isplitl [Hb]; · iexact Hb
      iexact H6)
    (fun c b hb => W5_of_ne m c b (fun h => hb (h ▸ Finset.mem_image.mpr ⟨6, Finset.mem_univ _, rfl⟩)))
    (hin2 q2 (W4 m)) (hout2 q2 (W4 m))

/-! ## What each stretch leaves unchanged -/

theorem W1_keep (c : Dev nD) (b : Ref sig .tc) (hb : ∀ w, (cfg0.win w).isOut = true → Pipeline.arrRef spec0 w ≠ b) :
    W1 m c (Proc.devRef .tc b) = W0 m c (Proc.devRef .tc b) :=
  Pipeline.exitVal_keep (dat0 (W0 m) c) launch0.win.arr_inj (W0 m c) (fun w => dat0_A (W0 m) c w) b hb
theorem W1_v0 (c : Dev nD) : W1 m c (Proc.devRef .tc main_v0) = (dat0 (W0 m) c).arrAt 1 cfg0.N :=
  Pipeline.exitVal_arr (dat0 (W0 m) c) launch0.win.arr_inj (W0 m c) 1
theorem W2_keep (c : Dev nD) (b : Ref sig .tc) (hb : b ∉ hostOps1_W) : W2 m c (Proc.devRef .tc b) = W1 m c (Proc.devRef .tc b) :=
  StableHlo.after_of_writes_sub hostOps1 _ hostOps1_writes hb
theorem W3_keep (c : Dev nD) (b : Ref sig .tc) (hb : ∀ w, (cfg1.win w).isOut = true → Pipeline.arrRef spec1 w ≠ b) :
    W3 m c (Proc.devRef .tc b) = W2 m c (Proc.devRef .tc b) :=
  Pipeline.exitVal_keep (dat1 (W2 m) c) launch1.win.arr_inj (W2 m c) (fun w => dat1_A (W2 m) c w) b hb
theorem W3_v3 (c : Dev nD) : W3 m c (Proc.devRef .tc main_v3) = (dat1 (W2 m) c).arrAt 2 cfg1.N :=
  Pipeline.exitVal_arr (dat1 (W2 m) c) launch1.win.arr_inj (W2 m c) 2
theorem W4_keep (c : Dev nD) (b : Ref sig .tc) (hb : b ∉ hostOps2_W) : W4 m c (Proc.devRef .tc b) = W3 m c (Proc.devRef .tc b) :=
  StableHlo.after_of_writes_sub hostOps2 _ hostOps2_writes hb

/-- No stretch writes an argument. -/
theorem W4_arg (c : Dev nD) (b : Ref sig .tc) (h1 : ∀ w, (cfg0.win w).isOut = true → Pipeline.arrRef spec0 w ≠ b) (h2 : b ∉ hostOps1_W)
    (h3 : ∀ w, (cfg1.win w).isOut = true → Pipeline.arrRef spec1 w ≠ b) (h4 : b ∉ hostOps2_W) :
    W4 m c (Proc.devRef .tc b) = m ((c.tc : Thread nD τ).loc b) :=
  (W4_keep m c b h4).trans ((W3_keep m c b h3).trans ((W2_keep m c b h2).trans ((W1_keep m c b h1).trans rfl)))
theorem W4_arg0 (c : Dev nD) : W4 m c (Proc.devRef .tc main_arg0) = m ((c.tc : Thread nD τ).loc main_arg0) := W4_arg m c main_arg0 (by decide) (by decide) (by decide) (by decide)
theorem W4_arg1 (c : Dev nD) : W4 m c (Proc.devRef .tc main_arg1) = m ((c.tc : Thread nD τ).loc main_arg1) := W4_arg m c main_arg1 (by decide) (by decide) (by decide) (by decide)
theorem W4_arg2 (c : Dev nD) : W4 m c (Proc.devRef .tc main_arg2) = m ((c.tc : Thread nD τ).loc main_arg2) := W4_arg m c main_arg2 (by decide) (by decide) (by decide) (by decide)
theorem W4_arg3 (c : Dev nD) : W4 m c (Proc.devRef .tc main_arg3) = m ((c.tc : Thread nD τ).loc main_arg3) := W4_arg m c main_arg3 (by decide) (by decide) (by decide) (by decide)

/-! ## The run -/

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.plainRest

abbrev segs : List (Pipeline.Seg (pcfgs (F := F)) adm (pdats m) () defs₀ Variants.none L lv) :=
  [ .region (reg0 m),
    .host (hseg hostOps1 hostOps1_sub hostOps1_fresh (W1 m)),
    .region (reg1 m),
    .host (hseg hostOps2 hostOps2_sub hostOps2_fresh (W3 m)),
    .region (reg2 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program terminates; the result array ends at what the last region's
    write-backs leave in it, and every argument as launched. -/
theorem run_all (ρ : Dev nD → PrngReg) :
    θ_run defs (onTc (τ := τ) (main (F := F))) ⟨m, fun _ => 0, ρ⟩ (fun r => ∀ c : Dev nD,
      r.2.mem ((c.tc : Thread nD τ).loc main_v6) = W5 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.plainRest c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show iprop(StableHlo.held (c.tc : Thread nD τ) (Pipeline.ucRefs τ sig) (W5 m c) ∗ Pipeline.plainRest c) ⊢ _
      unfold Pipeline.plainRest
      iintro ⟨Hh, HO, Hp⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.plainRest
      iintro ⟨⟨Hh, -, HO, -, Hp, -⟩, -⟩
      imodintro
      isplitl [Hh]; · iexact Hh
      isplitl [HO]; · iexists ∅; iexact HO
      iexists _; iexact Hp)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v6 (by decide)),
       (h c _ (mem_uc main_arg0 (by decide))).trans ((W5_of_ne m c main_arg0 (by decide)).trans (W4_arg0 m c)),
       (h c _ (mem_uc main_arg1 (by decide))).trans ((W5_of_ne m c main_arg1 (by decide)).trans (W4_arg1 m c)),
       (h c _ (mem_uc main_arg2 (by decide))).trans ((W5_of_ne m c main_arg2 (by decide)).trans (W4_arg2 m c)),
       (h c _ (mem_uc main_arg3 (by decide))).trans ((W5_of_ne m c main_arg3 (by decide)).trans (W4_arg3 m c))⟩)

end Cert.KernelIdeal.Hand

end
-- ==== Proof.KI.R0Pay.lean ====
import proofs.«129173_j30640296690052_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The degree kernel's three stored values, read at a row `p` of the block, over the
extended reals: the zero splat is `0`; the accumulation step adds the row sum of the
adjacency tile, `acc p + ∑ k, tile (p, k)`; the last step adds the self loop, `acc p + 1`.
-/

namespace Cert.KernelIdeal.Hand

open Cert.KernelIdeal Cert.KernelIdeal.Gen Idealize.ShloMosaic Idealize.ShloMosaic.ValueIdx
open scoped BigOperators

/-- The single-precision word `0x3F800000` denotes one. -/
theorem one_word : Ideal.ofBits .f32 0x3F800000#32 = 1 := by
  rw [show (1 : EReal) = ((1 : ℝ) : EReal) by norm_cast]
  simp [Ideal.ofBits, Ideal.ieee, -EReal.coe_mul]
  norm_num

/-- The zero splat at a row. -/
theorem k0_pay1_apply (p : Fin 1024) : (k0_pay1 (F := Ideal) : S1024.Idx → EReal) (ix1 p) = 0 := by
  show Ideal.ofBits .f32 0x00000000#32 = 0
  exact Ideal.ofBits_zero_f32

/-- A row of a `[1024, 2048]` tile summed over its lane axis. -/
theorem lane_sum_apply (v5 : FVec Ideal S1024x2048 .f32) (h : S1024x2048.Reduces [1] S1024)
    (hφ : FKind.Formats .f32) (hacc : (0x00000000#32 : BitVec 32) = FKind.add.neutral .f32 hφ) (p : Fin 1024) :
    multiReduction .add [1] S1024 v5 0x00000000#32 h hφ hacc (ix1 p) = ∑ k : Fin 2048, v5 (ix2 p k) := by
  refine (Ideal.multiReduction_add_single v5 0x00000000#32 h hφ hacc (ix1 p)).trans ?_
  refine Finset.sum_congr rfl fun k _ => congrArg v5 ?_
  funext c
  refine Fin.ext ?_
  match c with
  | ⟨0, _⟩ => rfl
  | ⟨1, _⟩ => rfl

/-- The accumulation step at a row: the accumulator plus the tile's row sum. -/
theorem k0_pay2_apply (v3 : FVec Ideal S1024 .f32) (v5 : FVec Ideal S1024x2048 .f32) (p : Fin 1024) :
    (k0_pay2 (F := Ideal) v3 v5 : S1024.Idx → EReal) (ix1 p) = v3 (ix1 p) + ∑ k : Fin 2048, v5 (ix2 p k) := by
  unfold k0_pay2
  show (shapeCast S1024 v3 shapeCasts_S1024_S1024) (ix1 p)
      + multiReduction .add [1] S1024 v5 0x00000000#32 reduces_S1024x2048_S1024 (.inl rfl) rfl (ix1 p) = _
  rw [shapeCast_self]
  exact congrArg (v3 (ix1 p) + ·) (lane_sum_apply v5 _ _ _ p)

/-- The last step at a row: the accumulator plus one. -/
theorem k0_pay3_apply (v12 : FVec Ideal S1024 .f32) (p : Fin 1024) :
    (k0_pay3 (F := Ideal) v12 : S1024.Idx → EReal) (ix1 p) = v12 (ix1 p) + 1 := by
  unfold k0_pay3
  show (shapeCast S1024 v12 shapeCasts_S1024_S1024) (ix1 p) + Ideal.ofBits .f32 0x3F800000#32 = _
  rw [shapeCast_self, one_word]

end Cert.KernelIdeal.Hand
-- ==== Proof.KI.R0Value.lean ====
/- The value the degree kernel (the first pallas_call) leaves in its output array, over the extended reals:
   row r of the degree array ends holding the sum of row r of the adjacency array, plus one.

   The kernel walks a 12 x 6 grid: point t works on rows (t / 6) * 1024 .. + 1023 and on columns
   (t % 6) * 2048 .. + 2047 of the adjacency array. Over the six column tiles of a row tile the output block is
   zeroed, then increased by each tile's row sums, then by one. So after point t the block holds, at row p, the
   sum of the first (t % 6 + 1) * 2048 entries of the array's row (t / 6) * 1024 + p (an induction on the point;
   the extended reals are a commutative additive monoid, so splitting a sum of 12288 entries into six runs of 2048
   needs no finiteness), and plus one after the sixth tile, when the block is written back. Every row of the
   array lies in exactly one written-back block. -/
import proofs.«129173_j30640296690052_1_alg».proof.Proof.KI.R0
import proofs.«129173_j30640296690052_1_alg».proof.Proof.KI.R0Pay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-! ## What each case's stored pieces read back as, for any float instance -/

section Pieces

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A middle column tile leaves the running block plus the tile's row sums: the payload of its one covering
    store, whose loads read the whole buffers. -/
theorem out0_B_1_eq (c : Dev nD) (i : grid0.Coords) (a2 : Memref sig .tc .vmem S1024x2048 .f32) (h2 : a2.IsWhole)
    (a3 : Memref sig .tc .vmem S1024 .f32) (h3 : a3.IsWhole) (hc0 : ¬cond0_0 i) (hc1 : ¬cond0_1 i)
    (x : Vec F S1024x2048 .f32) (xo : Vec F S1024 .f32) :
    out0_B_1 c i a2 h2 a3 h3 hc0 hc1 x xo = k0_pay2 xo x := by
  unfold out0_B_1
  rw [View.read_writes_eq_canon _ _ _ (cover0_B_1 c i a2 h2 a3 h3 hc0 hc1 x xo)]
  unfold kernelRun0_B
  dsimp only
  rw [View.canon_unit_zero hz1]
  simp only [View.readAt_eq_ld, h2.read_unread, h3.read_unread, View.ld_unit_zero (S := S1024) hz1,
    View.ld_unit_zero (S := S1024x2048) hz2]

/-- A first column tile stores the zero block, reads it back, and leaves it plus the tile's row sums. -/
theorem out0_A_1_eq (c : Dev nD) (i : grid0.Coords) (a2 : Memref sig .tc .vmem S1024x2048 .f32) (h2 : a2.IsWhole)
    (a3 : Memref sig .tc .vmem S1024 .f32) (h3 : a3.IsWhole) (hc0 : cond0_0 i) (hc1 : ¬cond0_1 i)
    (x : Vec F S1024x2048 .f32) :
    out0_A_1 c i a2 h2 a3 h3 hc0 hc1 x = k0_pay2 (k0_pay1 (F := F)) x := by
  unfold out0_A_1
  rw [View.read_writes_eq_canon _ _ _ (cover0_A_1 c i a2 h2 a3 h3 hc0 hc1 x)]
  unfold kernelRun0_A
  dsimp only
  sl_unfold_words
  rw [View.canon_cons_unit_zero (S := S1024) hz1, View.readCov_unit_zero (S := S1024) _ hz1]
  simp only [View.readAt_eq_ld, h2.read_unread, View.ld_unit_zero (S := S1024x2048) hz2]

/-- The last column tile leaves the running block plus the tile's row sums, read back, plus one. -/
theorem out0_C_1_eq (c : Dev nD) (i : grid0.Coords) (a2 : Memref sig .tc .vmem S1024x2048 .f32) (h2 : a2.IsWhole)
    (a3 : Memref sig .tc .vmem S1024 .f32) (h3 : a3.IsWhole) (hc0 : ¬cond0_0 i) (hc1 : cond0_1 i)
    (x : Vec F S1024x2048 .f32) (xo : Vec F S1024 .f32) :
    out0_C_1 c i a2 h2 a3 h3 hc0 hc1 x xo = k0_pay3 (k0_pay2 xo x) := by
  unfold out0_C_1
  rw [View.read_writes_eq_canon _ _ _ (cover0_C_1 c i a2 h2 a3 h3 hc0 hc1 x xo)]
  unfold kernelRun0_C
  dsimp only
  sl_unfold_words
  rw [View.canon_cons_unit_zero (S := S1024) hz1, View.readCov_unit_zero (S := S1024) _ hz1]
  simp only [View.readAt_eq_ld, h2.read_unread, h3.read_unread, View.ld_unit_zero (S := S1024) hz1,
    View.ld_unit_zero (S := S1024x2048) hz2]

end Pieces

/-! ## The degree array at the ideal instance -/

section AtIdeal

variable (V : Dev nD → Valuation τ sig (Elt Ideal))

/-- The block index maps over the grid: point `t` reads adjacency block (t / 6, t % 6) and writes degree block t / 6. -/
theorem idx_facts0 : ∀ t : Fin cfg0.N, win0_0.index t (0 : Fin 2) = t.val / 6 ∧ win0_0.index t (1 : Fin 2) = t.val % 6
    ∧ win0_1.index t (0 : Fin 1) = t.val / 6 :=
  (by decide +kernel : ∀ t : Fin grid0.N, _)

/-- Row `r` of a square array as a function of the column number, zero past the last column. -/
def rowOf (A : S12288x12288.Idx → EReal) (r : Fin 12288) (k : ℕ) : EReal :=
  if h : k < 12288 then A (ix2 r ⟨k, h⟩) else 0

/-- Inside the array it is the entry. -/
theorem rowOf_lt (A : S12288x12288.Idx → EReal) (r : Fin 12288) (k : ℕ) (h : k < 12288) : rowOf A r k = A (ix2 r ⟨k, h⟩) :=
  dif_pos h

/-- The sum of the first `n` entries of row `r`. -/
def rowSum (A : S12288x12288.Idx → EReal) (r : Fin 12288) (n : ℕ) : EReal := ∑ k ∈ Finset.range n, rowOf A r k

/-- The whole row's sum, over the column index itself. -/
theorem rowSum_full (A : S12288x12288.Idx → EReal) (r : Fin 12288) : rowSum A r 12288 = ∑ k : Fin 12288, A (ix2 r k) := by
  unfold rowSum
  rw [← Fin.sum_univ_eq_sum_range (fun k => rowOf A r k) 12288]
  exact Finset.sum_congr rfl fun k _ => rowOf_lt A r k.val k.isLt

/-- One more tile of 2048 columns. -/
theorem rowSum_tile (A : S12288x12288.Idx → EReal) (r : Fin 12288) (j : ℕ) :
    rowSum A r ((j + 1) * 2048) = rowSum A r (j * 2048) + ∑ q ∈ Finset.range 2048, rowOf A r (j * 2048 + q) := by
  unfold rowSum
  rw [show (j + 1) * 2048 = j * 2048 + 2048 from by omega, Finset.sum_range_add]

/-- The adjacency block at point `t`, as extended reals. -/
def blkE (c : Dev nD) (t : Fin cfg0.N) : S1024x2048.Idx → EReal := iblk0 V c 0 t

/-- What the output's staging buffer holds after point `n`, as extended reals. -/
def accE (c : Dev nD) (n : ℕ) (h : n < cfg0.N) : S1024.Idx → EReal := outsAt0 V c n h

/-- The adjacency block at point `t`, read at row `p` and column `q` of the block, is the array at row
    (t / 6) * 1024 + p and column (t % 6) * 2048 + q. -/
theorem blkE_apply (c : Dev nD) (A : S12288x12288.Idx → EReal) (hA : A = V c (Proc.devRef .tc main_arg1))
    (t : Fin cfg0.N) (p : Fin 1024) (q : Fin 2048) (r : Fin 12288) (k : Fin 12288)
    (hr : r.val = t.val / 6 * 1024 + p.val) (hk : k.val = t.val % 6 * 2048 + q.val) :
    blkE V c t (ix2 p q) = A (ix2 r k) := by
  obtain ⟨e0, e1, -⟩ := idx_facts0 t
  unfold blkE iblk0
  rw [View.read_apply, hA]
  show (V c (Proc.devRef .tc main_arg1) : S12288x12288.Idx → EReal) (((cfg0.win 0).blk t).view.emb (ix2 p q)) = _
  refine congrArg (V c (Proc.devRef .tc main_arg1) : S12288x12288.Idx → EReal) ?_
  funext a; apply Fin.ext
  match a with
  | ⟨0, _⟩ => show win0_0.index t (0 : Fin 2) * 1024 + 1 * p.val = r.val; omega
  | ⟨1, _⟩ => show win0_0.index t (1 : Fin 2) * 2048 + 1 * q.val = k.val; omega

/-- The row sums of the adjacency block at point `t`: the tile's 2048 columns of the array's row. -/
theorem tile_sum (c : Dev nD) (A : S12288x12288.Idx → EReal) (hA : A = V c (Proc.devRef .tc main_arg1))
    (t : Fin cfg0.N) (p : Fin 1024) (r : Fin 12288) (hr : r.val = t.val / 6 * 1024 + p.val) :
    ∑ q : Fin 2048, blkE V c t (ix2 p q) = ∑ q ∈ Finset.range 2048, rowOf A r (t.val % 6 * 2048 + q) := by
  have hN : t.val < 72 := lt_of_lt_of_eq t.isLt (show cfg0.N = 72 from N_0)
  rw [← Fin.sum_univ_eq_sum_range (fun q => rowOf A r (t.val % 6 * 2048 + q)) 2048]
  refine Finset.sum_congr rfl fun q _ => ?_
  have hq : q.val < 2048 := q.isLt
  have hk : t.val % 6 * 2048 + q.val < 12288 := by omega
  exact (blkE_apply V c A hA t p q r ⟨t.val % 6 * 2048 + q.val, hk⟩ hr rfl).trans (rowOf_lt A r _ hk).symm

/-- THE INVARIANT. After point `n` (row tile n / 6, column tile n % 6) the output's staging buffer holds, at row
    `p` of the block, the sum of the first (n % 6 + 1) * 2048 entries of the array's row (n / 6) * 1024 + p, plus
    one once the last column tile is done. By induction on the point. -/
theorem accE_apply (c : Dev nD) (A : S12288x12288.Idx → EReal) (hA : A = V c (Proc.devRef .tc main_arg1)) :
    ∀ (n : ℕ) (h : n < cfg0.N) (p : Fin 1024) (r : Fin 12288), r.val = n / 6 * 1024 + p.val →
      accE V c n h (ix1 p) = rowSum A r ((n % 6 + 1) * 2048) + (if n % 6 = 5 then 1 else 0) := by
  intro n
  induction n with
  | zero =>
    intro h p r hr
    unfold accE
    rw [outsAt0_A V c ⟨0, h⟩ rfl, out0_A_1_eq]
    show k0_pay2 (F := Ideal) (k0_pay1 (F := Ideal)) (blkE V c ⟨0, h⟩) (ix1 p) = _
    rw [k0_pay2_apply, k0_pay1_apply, tile_sum V c A hA ⟨0, h⟩ p r hr]
    simp [rowSum]
  | succ n ih =>
    intro h p r hr
    have hN : n + 1 < 72 := lt_of_lt_of_eq h (show cfg0.N = 72 from N_0)
    by_cases h0 : (n + 1) % 6 = 0
    · unfold accE
      rw [outsAt0_A V c ⟨n + 1, h⟩ h0, out0_A_1_eq]
      show k0_pay2 (F := Ideal) (k0_pay1 (F := Ideal)) (blkE V c ⟨n + 1, h⟩) (ix1 p) = _
      rw [k0_pay2_apply, k0_pay1_apply, tile_sum V c A hA ⟨n + 1, h⟩ p r hr]
      have h5 : ¬(n + 1) % 6 = 5 := by omega
      rw [if_neg h5, add_zero]
      show _ + (∑ q ∈ Finset.range 2048, rowOf A r ((n + 1) % 6 * 2048 + q)) = _
      rw [h0, rowSum_tile A r 0]
      simp [rowSum]
    · have ih' := ih (Nat.lt_of_succ_lt h) p r (by omega)
      have hprev : ¬n % 6 = 5 := by omega
      rw [if_neg hprev, add_zero] at ih'
      have e' : (n + 1) % 6 = n % 6 + 1 := by omega
      by_cases h1 : (n + 1) % 6 = 5
      · unfold accE
        rw [outsAt0_C V c ⟨n + 1, h⟩ h0 h1, out0_C_1_eq]
        show k0_pay3 (F := Ideal) (k0_pay2 (F := Ideal) (accE V c n (Nat.lt_of_succ_lt h)) (blkE V c ⟨n + 1, h⟩)) (ix1 p) = _
        rw [k0_pay3_apply, k0_pay2_apply, tile_sum V c A hA ⟨n + 1, h⟩ p r hr, ih', if_pos h1]
        show _ + (∑ q ∈ Finset.range 2048, rowOf A r ((n + 1) % 6 * 2048 + q)) + 1 = _
        rw [e', rowSum_tile A r (n % 6 + 1)]
      · unfold accE
        rw [outsAt0_B V c ⟨n + 1, h⟩ h0 h1, out0_B_1_eq]
        show k0_pay2 (F := Ideal) (accE V c n (Nat.lt_of_succ_lt h)) (blkE V c ⟨n + 1, h⟩) (ix1 p) = _
        rw [k0_pay2_apply, tile_sum V c A hA ⟨n + 1, h⟩ p r hr, ih', if_neg h1, add_zero]
        show _ + (∑ q ∈ Finset.range 2048, rowOf A r ((n + 1) % 6 * 2048 + q)) = _
        rw [e', rowSum_tile A r (n % 6 + 1)]

/-- What the degree array ends holding: each row's sum plus one. -/
def degOf (A : S12288x12288.Idx → EReal) : S12288.Idx → EReal :=
  fun i => rowSum A ⟨(i 0).val, (i 0).isLt⟩ 12288 + 1

/-- What a last column tile writes back is its block of `degOf`. -/
theorem flushed0_1_eq (c : Dev nD) (A : S12288x12288.Idx → EReal) (hA : A = V c (Proc.devRef .tc main_arg1))
    (t : Fin cfg0.N) (hf : (cfg0.win 1).flush t = true) :
    (dat0 V c).flushed 1 t = ((cfg0.win 1).blk t).view.read (Elt Ideal) (degOf A) := by
  have h5 : t.val % 6 = 5 := (flush0_1 t).mp hf
  have hN : t.val < 72 := lt_of_lt_of_eq t.isLt (show cfg0.N = 72 from N_0)
  obtain ⟨-, -, e2⟩ := idx_facts0 t
  show (cfg0.win 1).cut (grid0.coords t) ((dat0 V c).after 1 t) = _
  rw [after0_1]
  funext y
  obtain ⟨p, rfl⟩ : ∃ p : Fin 1024, y = ix1 p := ⟨y 0, eq_ix1 y⟩
  have hp : p.val < 1024 := p.isLt
  rw [View.read_apply]
  show accE V c t.val t.isLt (ix1 p) = degOf A (((cfg0.win 1).blk t).view.emb (ix1 p))
  have hemb : ((((cfg0.win 1).blk t).view.emb (ix1 p)) 0).val = t.val / 6 * 1024 + p.val := by
    show win0_1.index t (0 : Fin 1) * 1024 + 1 * p.val = _; omega
  rw [accE_apply V c A hA t.val t.isLt p ⟨_, (((cfg0.win 1).blk t).view.emb (ix1 p) 0).isLt⟩ hemb, if_pos h5]
  unfold degOf
  rw [h5]

/-- An index of the degree array is in point `t`'s block iff it is in the block's row range. -/
theorem mem_blk0_1 (t : Fin cfg0.N) (i : S12288.Idx) :
    i ∈ ((cfg0.win 1).blk t).view.set ↔ ∀ a : Fin 1, win0_1.index t a * S1024.size a ≤ (i a).val ∧ (i a).val < win0_1.index t a * S1024.size a + S1024.size a := by
  show i ∈ ((View.whole main_v0).slice (win0_1.rect t)).set ↔ _
  rw [View.set_slice_whole, Rect.mem_set_unit]
  exact Iff.rfl

/-- Every row of the degree array is written back by the last column tile of its row tile. -/
theorem covered0_1 (i : S12288.Idx) : ∃ t : Fin cfg0.N, (cfg0.win 1).flush t = true ∧ i ∈ ((cfg0.win 1).blk t).view.set := by
  have hi : (i 0).val < 12288 := (i 0).isLt
  have hN : cfg0.N = 72 := N_0
  let t : Fin cfg0.N := ⟨(i 0).val / 1024 * 6 + 5, by rw [hN]; omega⟩
  have ht : t.val = (i 0).val / 1024 * 6 + 5 := rfl
  obtain ⟨-, -, e2⟩ := idx_facts0 t
  refine ⟨t, (flush0_1 t).mpr (by omega), ?_⟩
  rw [mem_blk0_1]
  intro a
  match a with
  | ⟨0, _⟩ => show win0_1.index t (0 : Fin 1) * 1024 ≤ (i 0).val ∧ (i 0).val < win0_1.index t (0 : Fin 1) * 1024 + 1024; omega

/-- The degree array after the run. -/
theorem final0_1 (c : Dev nD) (A : S12288x12288.Idx → EReal) (hA : A = V c (Proc.devRef .tc main_arg1)) :
    (dat0 V c).arrAt 1 cfg0.N = degOf A :=
  (dat0 V c).arrAt_eq_of_cover 1 (degOf A) (flushed0_1_eq V c A hA) covered0_1

/-- THE VALUE: row `r` of the degree array ends holding the sum of row `r` of the adjacency array plus one. -/
theorem deg_value (c : Dev nD) (A : S12288x12288.Idx → EReal) (hA : A = V c (Proc.devRef .tc main_arg1)) (r : Fin 12288) :
    ((dat0 V c).arrAt 1 cfg0.N : S12288.Idx → EReal) (ix1 r) = (∑ k : Fin 12288, A (ix2 r k)) + 1 := by
  rw [final0_1 V c A hA]
  unfold degOf
  rw [← rowSum_full A r]

end AtIdeal

end Cert.KernelIdeal.Hand

end
-- ==== Proof.LibMatmulRows.lean ====
/-
  A product of an m×k by a k×n matrix into a zero accumulator, at the exact reading of the floats, read at one entry:

      (A · B)[a, b] = Σ_c A[a, c] · B[c, b],

  the sum over the one contracted coordinate. Also a row vector [1, n] spread over m rows read at an entry: B[0, b].
  Both for every m, k, n; sums are over the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.RefSide

open Idealize.ShloMosaic Idealize.ShloMosaic.ValueIdx

/-- Rows times columns: contracting the left operand's axis 1 with the right operand's axis 0, into a zero accumulator. -/
theorem matmul_rows_cols_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A row [1, n] spread over m rows, read at (a, b), is the row at (0, b). -/
theorem broadcast_row_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => exact (if_pos rfl).symm
  | ⟨1, _⟩ =>
    by_cases h1 : n = 1
    · subst h1
      show (b : Nat) = if (1 : Nat) = 1 then 0 else _
      rw [if_pos rfl]; omega
    · exact (if_neg h1).symm

end Cert.RefSide

end
-- ==== Proof.KI.R1Value.lean ====
import proofs.«129173_j30640296690052_1_alg».proof.Proof.KI.R1
import proofs.«129173_j30640296690052_1_alg».proof.Proof.LibMatmulRows
import Idealize.ShloMosaic.Lib.Pipeline.Value
import Idealize.ShloMosaic.Lib.ValueIdx
import Idealize.ShloMosaic.PureOps.Ideal.Laws

/-!
# The support matrix (custom_call 1) as a value

At the exact reading of the floats the support kernel leaves in its result array the matrix product `x · W`:
entry `(i, j)` is `Σ_l x[i, l] · W[l, j]`. Per grid point the stored block is the product of the loaded block of
`x` with `W` (the narrowings to bf16 are the identity on the extended reals); block `t` of the result is written
back at point `t`, the six blocks of 2048 rows tile the 12288 rows, so the array ends holding the whole product.
-/

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : Dev nD → Valuation τ sig (Elt Ideal))

/-! ## The product of a block of `x` with `W`, entry by entry -/

/-- Entry `(p, q)` of the body's stored value: row `p` of the loaded block of `x` against column `q` of `W`. The
    narrowing to bf16 before and after the product is the identity on the extended reals, and the accumulator the
    product is added to is zero. -/
theorem k1_pay1_apply (v0 : Vec Ideal S2048x256 .f32) (v2 : Vec Ideal S256x128 .f32) (p : Fin 2048) (q : Fin 128) :
    k1_pay1 v0 v2 (ix2 p q) = ∑ l : Fin 256, v0 (ix2 p l) * v2 (ix2 l q) := by
  unfold k1_pay1
  exact Cert.RefSide.matmul_rows_cols_apply dot_S2048x256_S256x128_S2048x128_1_0_0_1_n_n_wf none
    (truncf .bf16 v0 bitsLt_bf16_f32) (truncf .bf16 v2 bitsLt_bf16_f32) p q

/-! ## The whole product -/

/-- `x · W` as one function of the two arrays: entry `i` is row `i 0` of `x` against column `i 1` of `W`. -/
def supportG (A : S12288x256.Idx → EReal) (B : S256x128.Idx → EReal) : S12288x128.Idx → EReal :=
  fun i => ∑ l : Fin 256, A (ix2 (⟨(i 0).val, idx2_lt0 i⟩ : Fin 12288) l) * B (ix2 l (⟨(i 1).val, idx2_lt1 i⟩ : Fin 128))

theorem hz_r1 : (![0, 0] : Fin 2 → Nat) = fun _ => 0 := funext fun a => by fin_cases a <;> rfl

/-- The printed index maps over the six points: the blocks of `x` and of the result move down with the point, `W`
    stays. -/
theorem idx_facts_r1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the `x` window's block at point `t` is the entry of `x` 2048·t rows further down. -/
theorem iblk1_0_apply (c : Dev nD) (t : Fin cfg1.N) (y : S2048x256.Idx) (k : S12288x256.Idx)
    (hk0 : (k 0).val = 2048 * t.val + (y 0).val) (hk1 : (k 1).val = (y 1).val) :
    (iblk1 V c 0 t : Vec Ideal S2048x256 .f32) y = (V c (Proc.devRef .tc main_arg0) : S12288x256.Idx → EReal) k := by
  obtain ⟨e00, e01, -, -, -, -⟩ := idx_facts_r1 t
  unfold iblk1
  rw [View.read_apply]
  show (V c (Proc.devRef .tc main_arg0) : S12288x256.Idx → EReal) _ = _
  refine congrArg _ ?_
  funext a
  apply Fin.ext
  match a with
  | ⟨0, _⟩ => show win1_0.index t 0 * 2048 + 1 * (y 0).val = (k 0).val; rw [e00, hk0]; omega
  | ⟨1, _⟩ => show win1_0.index t 1 * 256 + 1 * (y 1).val = (k 1).val; rw [e01, hk1]; omega

/-- The `W` window's block at any point is `W`. -/
theorem iblk1_1_apply (c : Dev nD) (t : Fin cfg1.N) (y : S256x128.Idx) :
    (iblk1 V c 1 t : Vec Ideal S256x128 .f32) y = (V c (Proc.devRef .tc main_arg2) : S256x128.Idx → EReal) y := by
  obtain ⟨-, -, e10, e11, -, -⟩ := idx_facts_r1 t
  unfold iblk1
  rw [View.read_apply]
  show (V c (Proc.devRef .tc main_arg2) : S256x128.Idx → EReal) _ = _
  refine congrArg _ ?_
  funext a
  apply Fin.ext
  match a with
  | ⟨0, _⟩ => show win1_1.index t 0 * 256 + 1 * (y 0).val = (y 0).val; rw [e10]; omega
  | ⟨1, _⟩ => show win1_1.index t 1 * 128 + 1 * (y 1).val = (y 1).val; rw [e11]; omega

/-- What the body stores at point `t`, at entry `y` of the block, is the product's entry 2048·t rows further down. -/
theorem pay1_blk (c : Dev nD) (t : Fin cfg1.N) (y : S2048x128.Idx) (i : S12288x128.Idx)
    (hi0 : (i 0).val = 2048 * t.val + (y 0).val) (hi1 : (i 1).val = (y 1).val) :
    k1_pay1 (iblk1 V c 0 t) (iblk1 V c 1 t) y
      = supportG (V c (Proc.devRef .tc main_arg0)) (V c (Proc.devRef .tc main_arg2)) i := by
  obtain ⟨p, q, rfl⟩ : ∃ (p : Fin 2048) (q : Fin 128), y = ix2 p q := ⟨y 0, y 1, eq_ix2 y⟩
  refine (k1_pay1_apply _ _ p q).trans ?_
  unfold supportG
  refine Finset.sum_congr rfl fun l _ => ?_
  rw [iblk1_0_apply V c t (ix2 p l) (ix2 (⟨(i 0).val, idx2_lt0 i⟩ : Fin 12288) l) hi0 rfl, iblk1_1_apply V c t (ix2 l q)]
  refine congrArg _ (congrArg _ ?_)
  funext a
  apply Fin.ext
  match a with
  | ⟨0, _⟩ => rfl
  | ⟨1, _⟩ => exact hi1.symm

/-! ## From blocks to the array -/

/-- What point `t` writes back is block `t` of the product. -/
theorem flushed1_2_eq (c : Dev nD) (t : Fin cfg1.N) :
    (dat1 V c).flushed 2 t = ((cfg1.win 2).blk t).view.read (Elt Ideal)
      (supportG (V c (Proc.devRef .tc main_arg0)) (V c (Proc.devRef .tc main_arg2))) := by
  show (cfg1.win 2).cut (grid1.coords t) ((dat1 V c).after 2 t) = _
  rw [after1_2]
  unfold out1_2
  rw [View.canon_unit_zero hz_r1]
  simp only [View.ld_unit_zero (S := S2048x256) hz_r1, View.ld_unit_zero (S := S256x128) hz_r1]
  obtain ⟨-, -, -, -, e20, e21⟩ := idx_facts_r1 t
  funext y
  show k1_pay1 (iblk1 V c 0 t) (iblk1 V c 1 t) y = supportG _ _ (((cfg1.win 2).blk t).view.emb y)
  refine pay1_blk V c t y _ ?_ ?_
  · show win1_2.index t 0 * 2048 + 1 * (y 0).val = _; rw [e20]; omega
  · show win1_2.index t 1 * 128 + 1 * (y 1).val = _; rw [e21]; omega

/-- An index of the result is in point `t`'s block iff each coordinate is in the block's range on its axis. -/
theorem mem_blk1_2 (t : Fin cfg1.N) (i : S12288x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v3).slice (win1_2.rect t)).set ↔ _
  rw [View.set_slice_whole, Rect.mem_set_unit]
  exact Iff.rfl

/-- Every entry of the result lies in the block of the point its row belongs to: row `r` in block `r / 2048`. -/
theorem cover_r1 (i : S12288x128.Idx) : ∃ t : Fin cfg1.N, (cfg1.win 2).flush t = true ∧ i ∈ ((cfg1.win 2).blk t).view.set := by
  have hi0 : (i 0).val < 12288 := (i 0).isLt
  have hi1 : (i 1).val < 128 := (i 1).isLt
  have hN : cfg1.N = 6 := N_1
  let t : Fin cfg1.N := ⟨(i 0).val / 2048, by rw [hN]; omega⟩
  obtain ⟨-, -, -, -, e20, e21⟩ := idx_facts_r1 t
  have ht : t.val = (i 0).val / 2048 := rfl
  refine ⟨t, flush1_2 t, ?_⟩
  rw [mem_blk1_2]
  intro a
  match a with
  | ⟨0, _⟩ => show win1_2.index t (0 : Fin 2) * 2048 ≤ (i 0).val ∧ (i 0).val < win1_2.index t (0 : Fin 2) * 2048 + 2048; rw [e20, ht]; omega
  | ⟨1, _⟩ => show win1_2.index t (1 : Fin 2) * 128 ≤ (i 1).val ∧ (i 1).val < win1_2.index t (1 : Fin 2) * 128 + 128; rw [e21]; omega

/-- The result array after the region is the product `x · W`. -/
theorem final1_2 (c : Dev nD) : (dat1 V c).arrAt 2 cfg1.N
    = supportG (V c (Proc.devRef .tc main_arg0)) (V c (Proc.devRef .tc main_arg2)) :=
  (dat1 V c).arrAt_eq_of_cover 2 _ (fun t _ => flushed1_2_eq V c t) cover_r1

/-- THE SUPPORT MATRIX: after custom_call 1 the array `main_v3` holds, at `(i, j)`, row `i` of `x` against column `j`
    of `W`. -/
theorem support_value (c : Dev nD) (A : S12288x256.Idx → EReal) (B : S256x128.Idx → EReal)
    (hA : A = V c (Proc.devRef .tc main_arg0)) (hB : B = V c (Proc.devRef .tc main_arg2)) (i : Fin 12288) (j : Fin 128) :
    ((dat1 V c).arrAt 2 cfg1.N : S12288x128.Idx → EReal) (ix2 i j)
      = (∑ l : Fin 256, A (ix2 i l) * B (ix2 l j) : EReal) := by
  subst hA hB
  rw [final1_2]
  rfl

end Cert.KernelIdeal.Hand

end
-- ==== Proof.KI.R2Pay.lean ====
import proofs.«129173_j30640296690052_1_alg».proof.Proof.Gen.KernelIdeal.Skeleton
import proofs.«129173_j30640296690052_1_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

/-!
The convolution kernel's three stored values, read at an entry `(p, q)` of the block, over
the extended reals: the zero splat is `0`; the accumulation step adds to the accumulator the
product of the normalised adjacency tile, `(tile (p, k) · drow p) · dcol k`, with the support
block; the last step adds the self-loop term `(drow p · drow p) · sup (p, q)` and the bias.
The column `drow : [1024, 1]` is spread along rows and the row `dcol : [1, 1024]` along
columns; a change of float format is the identity.
-/

namespace Cert.KernelIdeal.Hand

open Cert.KernelIdeal Cert.KernelIdeal.Gen Idealize.ShloMosaic Idealize.ShloMosaic.ValueIdx
open scoped BigOperators

/-- A column `[a, 1]` spread over `b` columns, read at `(p, c)`, is the column at `(p, 0)`. -/
theorem broadcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The zero splat at an entry. -/
theorem k2_pay1_apply (p : Fin 1024) (q : Fin 128) :
    (k2_pay1 (F := Ideal) : S1024x128.Idx → EReal) (ix2 p q) = 0 := by
  unfold k2_pay1
  show (shapeCast S1024x128 (broadcast S1024x128 (Scalar.ofBits (F := Ideal) .f32 0x00000000#32))
    shapeCasts_S1024x128_S1024x128) (ix2 p q) = 0
  rw [shapeCast_self]
  exact Ideal.ofBits_zero_f32

/-- The accumulation step at an entry. -/
theorem k2_pay3_apply (v3 : FVec Ideal S1024x1 .f32) (v5 : FVec Ideal S1x1024 .f32) (v7 : FVec Ideal S1024x1024 .f32)
    (v13 : FVec Ideal S1024x128 .f32) (v14 : FVec Ideal S1024x128 .bf16) (p : Fin 1024) (q : Fin 128) :
    (k2_pay3 (F := Ideal) v3 v5 v7 v13 v14 : S1024x128.Idx → EReal) (ix2 p q)
      = v13 (ix2 p q) + ∑ k : Fin 1024, ((v7 (ix2 p k) * v3 (ix2 p 0)) * v5 (ix2 0 k)) * v14 (ix2 k q) := by
  unfold k2_pay3 k2_pay2
  simp only [shapeCast_self]
  show v13 (ix2 p q) + matmul dot_S1024x1024_S1024x128_S1024x128_1_0_0_1_n_n none
      (truncf .bf16 (mulf (mulf v7 (broadcastTo S1024x1024 v3 broadcasts_S1024x1_S1024x1024))
        (broadcastTo S1024x1024 v5 broadcasts_S1x1024_S1024x1024)) bitsLt_bf16_f32)
      v14 (constant S1024x128 .f32 0x00000000#32) (ix2 p q) = _
  refine congrArg (v13 (ix2 p q) + ·) ?_
  refine (Cert.RefSide.matmul_rows_cols_apply dot_S1024x1024_S1024x128_S1024x128_1_0_0_1_n_n_wf none _ v14 p q).trans ?_
  refine Finset.sum_congr rfl fun k _ => ?_
  refine congrArg (· * v14 (ix2 k q)) ?_
  show (v7 (ix2 p k) * broadcastTo S1024x1024 v3 broadcasts_S1024x1_S1024x1024 (ix2 p k))
      * broadcastTo S1024x1024 v5 broadcasts_S1x1024_S1024x1024 (ix2 p k) = _
  rw [broadcast_col_apply, broadcastTo_1b_ab_apply]

/-- The last step at an entry. -/
theorem k2_pay4_apply (v3 : FVec Ideal S1024x1 .f32) (v25 : FVec Ideal S1024x128 .bf16) (v30 : FVec Ideal S1024x128 .f32)
    (v32 : FVec Ideal S128 .f32) (p : Fin 1024) (q : Fin 128) :
    (k2_pay4 (F := Ideal) v3 v25 v30 v32 : S1024x128.Idx → EReal) (ix2 p q)
      = (v30 (ix2 p q) + (v3 (ix2 p 0) * v3 (ix2 p 0)) * v25 (ix2 p q)) + v32 (ix1 q) := by
  unfold k2_pay4 k2_pay2
  simp only [shapeCast_self]
  show (v30 (ix2 p q)
        + broadcastTo S1024x128 (mulf v3 v3) broadcasts_S1024x1_S1024x128 (ix2 p q) * v25 (ix2 p q))
      + broadcastTo S1024x128 (shapeCast S1x128 v32 shapeCasts_S128_S1x128) broadcasts_S1x128_S1024x128 (ix2 p q) = _
  rw [broadcast_col_apply, broadcastTo_1b_ab_apply, shapeCast_a_1a_apply]
  rfl

end Cert.KernelIdeal.Hand
-- ==== Proof.KI.R2Blocks.lean ====
/- The third kernel (scale, multiply, accumulate, add the bias): its windows' blocks read at explicit
   coordinates, and the passage from its written-back blocks to the whole output array, over the extended reals.

   The kernel walks a 12 x 12 grid: point t has row tile R = t / 12 and column tile J = t % 12. It reads the
   adjacency block (R, J) [1024 x 1024], the support rows of column tile J and of row tile R [1024 x 128 each],
   the row scale of row tile R [1024 x 1], the column scale of column tile J [1 x 1024] and the whole bias [128],
   and writes output block R [1024 x 128] back once, at column tile 11. An entry (p, k) of a block of row tile R
   and column tile J is the array's entry (1024 R + p, 1024 J + k); every row of the output array lies in exactly
   one written-back block, that of point 12 (row / 1024) + 11. -/
import proofs.«129173_j30640296690052_1_alg».proof.Proof.KI.R2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL Idealize.SL.RA Idealize.SL.Sem
open Idealize.ShloMosaic.Pipeline (Dat)
open Idealize.ShloMosaic.ValueIdx

namespace R2B

variable (q : Fin cfg2.W → PosShare TreeShare) (V : Dev nD → Valuation τ sig (Elt Ideal))

/-! ## The index maps over the grid -/

/-- With R = t / 12 and J = t % 12: the adjacency window reads block (R, J), the two support windows blocks
    (J, 0) and (R, 0), the row scale block (R, 0), the column scale block (0, J), the bias block 0, and the
    output window writes block (R, 0). -/
theorem idx_facts2 : ∀ t : Fin cfg2.N,
    win2_0.index t (0 : Fin 2) = t.val / 12 ∧ win2_0.index t (1 : Fin 2) = t.val % 12
    ∧ win2_1.index t (0 : Fin 2) = t.val % 12 ∧ win2_1.index t (1 : Fin 2) = 0
    ∧ win2_2.index t (0 : Fin 2) = t.val / 12 ∧ win2_2.index t (1 : Fin 2) = 0
    ∧ win2_3.index t (0 : Fin 2) = t.val / 12 ∧ win2_3.index t (1 : Fin 2) = 0
    ∧ win2_4.index t (0 : Fin 2) = 0 ∧ win2_4.index t (1 : Fin 2) = t.val % 12
    ∧ win2_5.index t (0 : Fin 1) = 0
    ∧ win2_6.index t (0 : Fin 2) = t.val / 12 ∧ win2_6.index t (1 : Fin 2) = 0 :=
  (by decide +kernel : ∀ t : Fin grid2.N, _)

/-! ## The input blocks as extended reals -/

/-- The adjacency block at point `t`. -/
def blk2E_0 (c : Dev nD) (t : Fin cfg2.N) : S1024x1024.Idx → EReal := iblk2 V c 0 t
/-- The support block of the point's column tile. -/
def blk2E_1 (c : Dev nD) (t : Fin cfg2.N) : S1024x128.Idx → EReal := iblk2 V c 1 t
/-- The support block of the point's row tile. -/
def blk2E_2 (c : Dev nD) (t : Fin cfg2.N) : S1024x128.Idx → EReal := iblk2 V c 2 t
/-- The row-scale block of the point's row tile. -/
def blk2E_3 (c : Dev nD) (t : Fin cfg2.N) : S1024x1.Idx → EReal := iblk2 V c 3 t
/-- The column-scale block of the point's column tile. -/
def blk2E_4 (c : Dev nD) (t : Fin cfg2.N) : S1x1024.Idx → EReal := iblk2 V c 4 t
/-- The bias. -/
def blk2E_5 (c : Dev nD) (t : Fin cfg2.N) : S128.Idx → EReal := iblk2 V c 5 t
/-- What the output's staging buffer holds after point `t`. -/
def out2E (c : Dev nD) (t : Fin cfg2.N) : S1024x128.Idx → EReal := (outsAt2 V c t.val t.isLt).1

theorem blk2E_0_def (c : Dev nD) (t : Fin cfg2.N) : blk2E_0 V c t = iblk2 V c 0 t := rfl
theorem blk2E_1_def (c : Dev nD) (t : Fin cfg2.N) : blk2E_1 V c t = iblk2 V c 1 t := rfl
theorem blk2E_2_def (c : Dev nD) (t : Fin cfg2.N) : blk2E_2 V c t = iblk2 V c 2 t := rfl
theorem blk2E_3_def (c : Dev nD) (t : Fin cfg2.N) : blk2E_3 V c t = iblk2 V c 3 t := rfl
theorem blk2E_4_def (c : Dev nD) (t : Fin cfg2.N) : blk2E_4 V c t = iblk2 V c 4 t := rfl
theorem blk2E_5_def (c : Dev nD) (t : Fin cfg2.N) : blk2E_5 V c t = iblk2 V c 5 t := rfl
theorem out2E_def (c : Dev nD) (t : Fin cfg2.N) : out2E V c t = (outsAt2 V c t.val t.isLt).1 := rfl

/-! ## Each input block read at explicit coordinates -/

/-- Entry (p, k) of the adjacency block at point `t` is the array's entry (1024 R + p, 1024 J + k). -/
theorem blk2E_0_apply (c : Dev nD) (A1 : S12288x12288.Idx → EReal) (hA1 : A1 = V c (Proc.devRef .tc main_arg1))
    (t : Fin cfg2.N) (p : Fin 1024) (k : Fin 1024) (r : Fin 12288) (s : Fin 12288)
    (hr : r.val = t.val / 12 * 1024 + p.val) (hs : s.val = t.val % 12 * 1024 + k.val) :
    blk2E_0 V c t (ix2 p k) = A1 (ix2 r s) := by
  obtain ⟨e0, e1, -⟩ := idx_facts2 t
  unfold blk2E_0 iblk2
  rw [View.read_apply, hA1]
  show (V c (Proc.devRef .tc main_arg1) : S12288x12288.Idx → EReal) (((cfg2.win 0).blk t).view.emb (ix2 p k)) = _
  refine congrArg (V c (Proc.devRef .tc main_arg1) : S12288x12288.Idx → EReal) ?_
  funext a; apply Fin.ext
  match a with
  | ⟨0, _⟩ => show win2_0.index t (0 : Fin 2) * 1024 + 1 * p.val = r.val; omega
  | ⟨1, _⟩ => show win2_0.index t (1 : Fin 2) * 1024 + 1 * k.val = s.val; omega

/-- Entry (k, j) of the column tile's support block is the support array's entry (1024 J + k, j). -/
theorem blk2E_1_apply (c : Dev nD) (Sup : S12288x128.Idx → EReal) (hSup : Sup = V c (Proc.devRef .tc main_v3))
    (t : Fin cfg2.N) (k : Fin 1024) (j : Fin 128) (s : Fin 12288) (hs : s.val = t.val % 12 * 1024 + k.val) :
    blk2E_1 V c t (ix2 k j) = Sup (ix2 s j) := by
  obtain ⟨-, -, e0, e1, -⟩ := idx_facts2 t
  unfold blk2E_1 iblk2
  rw [View.read_apply, hSup]
  show (V c (Proc.devRef .tc main_v3) : S12288x128.Idx → EReal) (((cfg2.win 1).blk t).view.emb (ix2 k j)) = _
  refine congrArg (V c (Proc.devRef .tc main_v3) : S12288x128.Idx → EReal) ?_
  funext a; apply Fin.ext
  match a with
  | ⟨0, _⟩ => show win2_1.index t (0 : Fin 2) * 1024 + 1 * k.val = s.val; omega
  | ⟨1, _⟩ => show win2_1.index t (1 : Fin 2) * 128 + 1 * j.val = j.val; omega

/-- Entry (p, j) of the row tile's support block is the support array's entry (1024 R + p, j). -/
theorem blk2E_2_apply (c : Dev nD) (Sup : S12288x128.Idx → EReal) (hSup : Sup = V c (Proc.devRef .tc main_v3))
    (t : Fin cfg2.N) (p : Fin 1024) (j : Fin 128) (r : Fin 12288) (hr : r.val = t.val / 12 * 1024 + p.val) :
    blk2E_2 V c t (ix2 p j) = Sup (ix2 r j) := by
  obtain ⟨-, -, -, -, e0, e1, -⟩ := idx_facts2 t
  unfold blk2E_2 iblk2
  rw [View.read_apply, hSup]
  show (V c (Proc.devRef .tc main_v3) : S12288x128.Idx → EReal) (((cfg2.win 2).blk t).view.emb (ix2 p j)) = _
  refine congrArg (V c (Proc.devRef .tc main_v3) : S12288x128.Idx → EReal) ?_
  funext a; apply Fin.ext
  match a with
  | ⟨0, _⟩ => show win2_2.index t (0 : Fin 2) * 1024 + 1 * p.val = r.val; omega
  | ⟨1, _⟩ => show win2_2.index t (1 : Fin 2) * 128 + 1 * j.val = j.val; omega

/-- Entry (p, 0) of the row-scale block is the row-scale array's entry (1024 R + p, 0). -/
theorem blk2E_3_apply (c : Dev nD) (Drow : S12288x1.Idx → EReal) (hDrow : Drow = V c (Proc.devRef .tc main_v4))
    (t : Fin cfg2.N) (p : Fin 1024) (r : Fin 12288) (hr : r.val = t.val / 12 * 1024 + p.val) :
    blk2E_3 V c t (ix2 p (0 : Fin 1)) = Drow (ix2 r (0 : Fin 1)) := by
  obtain ⟨-, -, -, -, -, -, e0, e1, -⟩ := idx_facts2 t
  unfold blk2E_3 iblk2
  rw [View.read_apply, hDrow]
  show (V c (Proc.devRef .tc main_v4) : S12288x1.Idx → EReal) (((cfg2.win 3).blk t).view.emb (ix2 p (0 : Fin 1))) = _
  refine congrArg (V c (Proc.devRef .tc main_v4) : S12288x1.Idx → EReal) ?_
  funext a; apply Fin.ext
  match a with
  | ⟨0, _⟩ => show win2_3.index t (0 : Fin 2) * 1024 + 1 * p.val = r.val; omega
  | ⟨1, _⟩ => show win2_3.index t (1 : Fin 2) * 1 + 1 * 0 = 0; omega

/-- Entry (0, k) of the column-scale block is the column-scale array's entry (0, 1024 J + k). -/
theorem blk2E_4_apply (c : Dev nD) (Dcol : S1x12288.Idx → EReal) (hDcol : Dcol = V c (Proc.devRef .tc main_v5))
    (t : Fin cfg2.N) (k : Fin 1024) (s : Fin 12288) (hs : s.val = t.val % 12 * 1024 + k.val) :
    blk2E_4 V c t (ix2 (0 : Fin 1) k) = Dcol (ix2 (0 : Fin 1) s) := by
  obtain ⟨-, -, -, -, -, -, -, -, e0, e1, -⟩ := idx_facts2 t
  unfold blk2E_4 iblk2
  rw [View.read_apply, hDcol]
  show (V c (Proc.devRef .tc main_v5) : S1x12288.Idx → EReal) (((cfg2.win 4).blk t).view.emb (ix2 (0 : Fin 1) k)) = _
  refine congrArg (V c (Proc.devRef .tc main_v5) : S1x12288.Idx → EReal) ?_
  funext a; apply Fin.ext
  match a with
  | ⟨0, _⟩ => show win2_4.index t (0 : Fin 2) * 1 + 1 * 0 = 0; omega
  | ⟨1, _⟩ => show win2_4.index t (1 : Fin 2) * 1024 + 1 * k.val = s.val; omega

/-- Entry j of the bias block is the bias array's entry j. -/
theorem blk2E_5_apply (c : Dev nD) (Bias : S128.Idx → EReal) (hBias : Bias = V c (Proc.devRef .tc main_arg3))
    (t : Fin cfg2.N) (j : Fin 128) :
    blk2E_5 V c t (ix1 j) = Bias (ix1 j) := by
  obtain ⟨-, -, -, -, -, -, -, -, -, -, e0, -⟩ := idx_facts2 t
  unfold blk2E_5 iblk2
  rw [View.read_apply, hBias]
  show (V c (Proc.devRef .tc main_arg3) : S128.Idx → EReal) (((cfg2.win 5).blk t).view.emb (ix1 j)) = _
  refine congrArg (V c (Proc.devRef .tc main_arg3) : S128.Idx → EReal) ?_
  funext a; apply Fin.ext
  match a with
  | ⟨0, _⟩ => show win2_5.index t (0 : Fin 1) * 128 + 1 * j.val = j.val; omega

/-! ## From the written-back blocks to the output array -/

/-- An index of the output array is in point `t`'s block iff each coordinate is in the block's range on its axis. -/
theorem mem_blk2_6 (t : Fin cfg2.N) (i : S12288x128.Idx) :
    i ∈ ((cfg2.win 6).blk t).view.set ↔ ∀ a : Fin 2, win2_6.index t a * S1024x128.size a ≤ (i a).val ∧ (i a).val < win2_6.index t a * S1024x128.size a + S1024x128.size a := by
  show i ∈ ((View.whole main_v6).slice (win2_6.rect t)).set ↔ _
  rw [View.set_slice_whole, Rect.mem_set_unit]
  exact Iff.rfl

/-- Every entry of the output array is written back by the last column tile of its row tile: the point
    12 (row / 1024) + 11. -/
theorem covered2_6 (i : S12288x128.Idx) : ∃ t : Fin cfg2.N, (cfg2.win 6).flush t = true ∧ i ∈ ((cfg2.win 6).blk t).view.set := by
  have hi0 : (i 0).val < 12288 := (i 0).isLt
  have hi1 : (i 1).val < 128 := (i 1).isLt
  have hN : cfg2.N = 144 := N_2
  let t : Fin cfg2.N := ⟨(i 0).val / 1024 * 12 + 11, by rw [hN]; omega⟩
  have ht : t.val = (i 0).val / 1024 * 12 + 11 := rfl
  obtain ⟨-, -, -, -, -, -, -, -, -, -, -, e0, e1⟩ := idx_facts2 t
  refine ⟨t, (flush2_6 t).mpr (by omega), ?_⟩
  rw [mem_blk2_6]
  intro a
  match a with
  | ⟨0, _⟩ => show win2_6.index t (0 : Fin 2) * 1024 ≤ (i 0).val ∧ (i 0).val < win2_6.index t (0 : Fin 2) * 1024 + 1024; omega
  | ⟨1, _⟩ => show win2_6.index t (1 : Fin 2) * 128 ≤ (i 1).val ∧ (i 1).val < win2_6.index t (1 : Fin 2) * 128 + 128; omega

/-- THE WHOLE ARRAY from the blocks: if what every last column tile writes back is its block of one function `G`
    of the output array's index, the output array ends holding `G`. -/
theorem final2_6 (c : Dev nD) (G : S12288x128.Idx → EReal)
    (hG : ∀ t : Fin cfg2.N, (cfg2.win 6).flush t = true →
      (dat2 q V c).flushed 6 t = ((cfg2.win 6).blk t).view.read (Elt Ideal) G) :
    (dat2 q V c).arrAt 6 cfg2.N = G :=
  (dat2 q V c).arrAt_eq_of_cover 6 G hG covered2_6

/-- The same hypothesis entry by entry: at a point of column tile 11, entry (p, j) of what the body leaves in the
    output's staging buffer is `G` at (1024 R + p, j). -/
theorem flushed2_6_of (c : Dev nD) (G : S12288x128.Idx → EReal)
    (h : ∀ (t : Fin cfg2.N), t.val % 12 = 11 → ∀ (p : Fin 1024) (j : Fin 128) (r : Fin 12288),
      r.val = t.val / 12 * 1024 + p.val → out2E V c t (ix2 p j) = G (ix2 r j))
    (t : Fin cfg2.N) (hf : (cfg2.win 6).flush t = true) :
    (dat2 q V c).flushed 6 t = ((cfg2.win 6).blk t).view.read (Elt Ideal) G := by
  have h11 : t.val % 12 = 11 := (flush2_6 t).mp hf
  have hN : t.val < 144 := lt_of_lt_of_eq t.isLt (show cfg2.N = 144 from N_2)
  obtain ⟨-, -, -, -, -, -, -, -, -, -, -, e0, e1⟩ := idx_facts2 t
  show (cfg2.win 6).cut (grid2.coords t) ((dat2 q V c).after 6 t) = _
  rw [after2_6]
  funext y
  obtain ⟨p, j, rfl⟩ : ∃ (p : Fin 1024) (j : Fin 128), y = ix2 p j := ⟨y 0, y 1, eq_ix2 y⟩
  have hp : p.val < 1024 := p.isLt
  have hj : j.val < 128 := j.isLt
  rw [View.read_apply]
  show out2E V c t (ix2 p j) = G (((cfg2.win 6).blk t).view.emb (ix2 p j))
  have hr : ((((cfg2.win 6).blk t).view.emb (ix2 p j)) 0).val = t.val / 12 * 1024 + p.val := by
    show win2_6.index t (0 : Fin 2) * 1024 + 1 * p.val = _; omega
  rw [h t h11 p j ⟨_, (((cfg2.win 6).blk t).view.emb (ix2 p j) 0).isLt⟩ hr]
  refine congrArg G ?_
  funext a; apply Fin.ext
  match a with
  | ⟨0, _⟩ => rfl
  | ⟨1, _⟩ => show j.val = win2_6.index t (1 : Fin 2) * 128 + 1 * j.val; omega

/-- Both together: from the entry-by-entry hypothesis to the whole output array. -/
theorem final2_6_of (c : Dev nD) (G : S12288x128.Idx → EReal)
    (h : ∀ (t : Fin cfg2.N), t.val % 12 = 11 → ∀ (p : Fin 1024) (j : Fin 128) (r : Fin 12288),
      r.val = t.val / 12 * 1024 + p.val → out2E V c t (ix2 p j) = G (ix2 r j)) :
    (dat2 q V c).arrAt 6 cfg2.N = G :=
  final2_6 q V c G (flushed2_6_of q V c G h)

end R2B

end Cert.KernelIdeal.Hand

end
-- ==== Proof.KI.R2Value.lean ====
import proofs.«129173_j30640296690052_1_alg».proof.Proof.KI.R2
import proofs.«129173_j30640296690052_1_alg».proof.Proof.KI.R2Pay
import proofs.«129173_j30640296690052_1_alg».proof.Proof.KI.R2Blocks
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)
open scoped BigOperators

/-! # The value of the third kernel's output array, over the extended reals

The kernel computes `out = D^-1/2 (A + I) D^-1/2 · S + b` tile by tile: for each row tile, twelve column tiles of the
scaled adjacency `(A (r, k) · drow r) · dcol k` are multiplied with the matching rows of the support `S` and
accumulated; at the last column tile the self-loop term `(drow r · drow r) · S (r, ·)` and the bias are added and the
block is written back. This module reads what each case of the body leaves as the body's arithmetic, shows by
induction over the grid that the accumulator is a partial sum of the product's terms, and concludes what the result
array holds entry by entry. Over the extended reals sums may be split and joined freely (addition is commutative and
associative there), so no finiteness is needed. -/

namespace R2V

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- At a middle column tile the accumulator ends at the accumulation step of what it held and the point's blocks. -/
theorem sout_B (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : ¬cond2_1 i) (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    sout2_B_0 c i arg2 harg2 arg3 harg3 arg4 harg4 arg5 harg5 arg6 harg6 arg7 harg7 arg8 harg8 arg9 harg9 hc0 hc1 x0 x1 x2 x3 x4 x5 xs0 = k2_pay3 x3 x4 x0 xs0 x1 := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 x4 x5 xs0)]
  unfold kernelRun2_B
  dsimp only
  rw [View.canon_unit_zero hz2]
  simp only [View.readAt_eq_ld, harg2.read_unread, harg3.read_unread, harg4.read_unread, harg5.read_unread, harg6.read_unread, harg7.read_unread, harg9.read_unread, View.ld_unit_zero (S := S1024x1) hz2, View.ld_unit_zero (S := S1x1024) hz2, View.ld_unit_zero (S := S1024x1024) hz2, View.ld_unit_zero (S := S1024x128) hz2, View.ld_unit_zero (S := S128) hz1]

/-- At the last column tile likewise. -/
theorem sout_C (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    sout2_C_0 c i arg2 harg2 arg3 harg3 arg4 harg4 arg5 harg5 arg6 harg6 arg7 harg7 arg8 harg8 arg9 harg9 hc0 hc1 x0 x1 x2 x3 x4 x5 xs0 = k2_pay3 x3 x4 x0 xs0 x1 := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S1024x1) hz2, View.ld_unit_zero (S := S1x1024) hz2, View.ld_unit_zero (S := S1024x1024) hz2, View.ld_unit_zero (S := S1024x128) hz2, View.ld_unit_zero (S := S128) hz1]

/-- At the first column tile the accumulator is zeroed first: it ends at the accumulation step of the zero block. -/
theorem sout_A (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : cond2_0 i) (hc1 : ¬cond2_1 i) (x0 : Vec F S1024x1024 .f32) (x1 : Vec F S1024x128 .bf16) (x2 : Vec F S1024x128 .bf16) (x3 : Vec F S1024x1 .f32) (x4 : Vec F S1x1024 .f32) (x5 : Vec F S128 .f32) :
    sout2_A_0 c i arg2 harg2 arg3 harg3 arg4 harg4 arg5 harg5 arg6 harg6 arg7 harg7 arg8 harg8 arg9 harg9 hc0 hc1 x0 x1 x2 x3 x4 x5 = k2_pay3 x3 x4 x0 (k2_pay1 (F := F)) x1 := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S1024x128) hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x1) hz2, View.ld_unit_zero (S := S1x1024) hz2, View.ld_unit_zero (S := S1024x1024) hz2, View.ld_unit_zero (S := S1024x128) hz2, View.ld_unit_zero (S := S128) hz1]

/-- At the last column tile the output block is the last step of the finished accumulator. -/
theorem out_C (c : Dev nD) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S128 .f32) (harg7 : arg7.IsWhole) (arg8 : Memref sig .tc .vmem S1024x128 .f32) (harg8 : arg8.IsWhole) (arg9 : Memref sig .tc .vmem S1024x128 .f32) (harg9 : arg9.IsWhole) (hc0 : ¬cond2_0 i) (hc1 : cond2_1 i) (x0 : Vec F S1024x1024 .f32) (x1 : Vec F S1024x128 .bf16) (x2 : Vec F S1024x128 .bf16) (x3 : Vec F S1024x1 .f32) (x4 : Vec F S1x1024 .f32) (x5 : Vec F S128 .f32) (xs0 : Vec F S1024x128 .f32) :
    out2_C_6 c i arg2 harg2 arg3 harg3 arg4 harg4 arg5 harg5 arg6 harg6 arg7 harg7 arg8 harg8 arg9 harg9 hc0 hc1 x0 x1 x2 x3 x4 x5 xs0 = k2_pay4 x3 x2 (k2_pay3 x3 x4 x0 xs0 x1) x5 := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero hz2, View.readCov_unit_zero (S := S1024x128) _ hz2]
  simp only [View.readAt_eq_ld, harg2.read_unread, harg3.read_unread, harg4.read_unread, harg5.read_unread, harg6.read_unread, harg7.read_unread, harg9.read_unread, View.ld_unit_zero (S := S1024x1) hz2, View.ld_unit_zero (S := S1x1024) hz2, View.ld_unit_zero (S := S1024x1024) hz2, View.ld_unit_zero (S := S1024x128) hz2, View.ld_unit_zero (S := S128) hz1]

/-! ## The accumulator and the output block, point by point, as the body's arithmetic -/

section Steps

variable (V : Dev nD → Valuation τ sig (Elt F))

/-- After a first column tile the accumulator is the accumulation step of the zero block. -/
theorem acc_A (c : Dev nD) (t : Fin cfg2.N) (h0 : t.val % 12 = 0) (h1 : ¬t.val % 12 = 11) :
    (outsAt2 V c t.val t.isLt).2 = k2_pay3 (iblk2 V c 3 t) (iblk2 V c 4 t) (iblk2 V c 0 t) (k2_pay1 (F := F)) (iblk2 V c 1 t) := by
  rw [outsAt2_A V c t h0 h1]
  dsimp only
  exact sout_A ..

/-- After a middle column tile it is the accumulation step of what the point before left. -/
theorem acc_B (c : Dev nD) (t : Fin cfg2.N) (h0 : ¬t.val % 12 = 0) (h1 : ¬t.val % 12 = 11) :
    (outsAt2 V c t.val t.isLt).2 = k2_pay3 (iblk2 V c 3 t) (iblk2 V c 4 t) (iblk2 V c 0 t) (outsAt2 V c (t.val - 1) (Nat.lt_of_le_of_lt (Nat.sub_le _ _) t.isLt)).2 (iblk2 V c 1 t) := by
  rw [outsAt2_B V c t h0 h1]
  dsimp only
  exact sout_B ..

/-- After a last column tile likewise, -/
theorem acc_C (c : Dev nD) (t : Fin cfg2.N) (h0 : ¬t.val % 12 = 0) (h1 : t.val % 12 = 11) :
    (outsAt2 V c t.val t.isLt).2 = k2_pay3 (iblk2 V c 3 t) (iblk2 V c 4 t) (iblk2 V c 0 t) (outsAt2 V c (t.val - 1) (Nat.lt_of_le_of_lt (Nat.sub_le _ _) t.isLt)).2 (iblk2 V c 1 t) := by
  rw [outsAt2_C V c t h0 h1]
  dsimp only
  exact sout_C ..

/-- and the output block is the last step of the finished accumulator. -/
theorem out_at_C (c : Dev nD) (t : Fin cfg2.N) (h0 : ¬t.val % 12 = 0) (h1 : t.val % 12 = 11) :
    (outsAt2 V c t.val t.isLt).1 = k2_pay4 (iblk2 V c 3 t) (iblk2 V c 2 t) (outsAt2 V c t.val t.isLt).2 (iblk2 V c 5 t) := by
  rw [outsAt2_C V c t h0 h1]
  dsimp only
  rw [out_C, sout_C]

end Steps

/-! ## Over the extended reals: the accumulator is a partial sum of the normalised product -/

section Reals

variable (V : Dev nD → Valuation τ sig (Elt Ideal)) (c : Dev nD)

/-- The windows' blocks at a point, as functions into the extended reals. -/
abbrev b0 (t : Fin cfg2.N) : S1024x1024.Idx → EReal := iblk2 V c 0 t
abbrev b1 (t : Fin cfg2.N) : S1024x128.Idx → EReal := iblk2 V c 1 t
abbrev b2 (t : Fin cfg2.N) : S1024x128.Idx → EReal := iblk2 V c 2 t
abbrev b3 (t : Fin cfg2.N) : S1024x1.Idx → EReal := iblk2 V c 3 t
abbrev b4 (t : Fin cfg2.N) : S1x1024.Idx → EReal := iblk2 V c 4 t
abbrev b5 (t : Fin cfg2.N) : S128.Idx → EReal := iblk2 V c 5 t

/-- One point's contribution to the accumulator at `(p, j)`: row `p` of the scaled adjacency tile against column
    `j` of the support block. -/
def tileSum (t : Fin cfg2.N) (p : Fin 1024) (j : Fin 128) : EReal :=
  ∑ k : Fin 1024, ((b0 V c t (ix2 p k) * b3 V c t (ix2 p 0)) * b4 V c t (ix2 0 k)) * b1 V c t (ix2 k j)

/-- After a first column tile the accumulator is that tile's contribution (the zero block adds nothing). -/
theorem accE_first (t : Fin cfg2.N) (h0 : t.val % 12 = 0) (p : Fin 1024) (j : Fin 128) :
    ((outsAt2 V c t.val t.isLt).2 : S1024x128.Idx → EReal) (ix2 p j) = tileSum V c t p j := by
  rw [acc_A V c t h0 (by omega)]
  refine (k2_pay3_apply (b3 V c t) (b4 V c t) (b0 V c t) (k2_pay1 (F := Ideal)) (b1 V c t) p j).trans ?_
  rw [k2_pay1_apply, zero_add]
  rfl

/-- After any other point it is what the point before left plus this tile's contribution. -/
theorem accE_next (t : Fin cfg2.N) (h0 : ¬t.val % 12 = 0) (p : Fin 1024) (j : Fin 128) :
    ((outsAt2 V c t.val t.isLt).2 : S1024x128.Idx → EReal) (ix2 p j)
      = ((outsAt2 V c (t.val - 1) (Nat.lt_of_le_of_lt (Nat.sub_le _ _) t.isLt)).2 : S1024x128.Idx → EReal) (ix2 p j) + tileSum V c t p j := by
  by_cases h1 : t.val % 12 = 11
  · rw [acc_C V c t h0 h1]
    exact k2_pay3_apply (b3 V c t) (b4 V c t) (b0 V c t) (outsAt2 V c (t.val - 1) (Nat.lt_of_le_of_lt (Nat.sub_le _ _) t.isLt)).2 (b1 V c t) p j
  · rw [acc_B V c t h0 h1]
    exact k2_pay3_apply (b3 V c t) (b4 V c t) (b0 V c t) (outsAt2 V c (t.val - 1) (Nat.lt_of_le_of_lt (Nat.sub_le _ _) t.isLt)).2 (b1 V c t) p j

/-- One term of the normalised product `D^-1/2 A D^-1/2 · support` at row `a`, column `k`, feature `j`, extended by zero
    off the arrays so that sums over ranges of naturals can be split and joined freely. -/
def term (A1 : S12288x12288.Idx → EReal) (Drow : S12288x1.Idx → EReal) (Dcol : S1x12288.Idx → EReal) (Sup : S12288x128.Idx → EReal) (a : ℕ) (j : Fin 128) (k : ℕ) : EReal :=
  if h : a < 12288 ∧ k < 12288 then
    ((A1 (ix2 ⟨a, h.1⟩ ⟨k, h.2⟩) * Drow (ix2 ⟨a, h.1⟩ (0 : Fin 1))) * Dcol (ix2 (0 : Fin 1) ⟨k, h.2⟩)) * Sup (ix2 ⟨k, h.2⟩ j)
  else 0

/-- THE INVARIANT. After point `n` (row tile `n / 12`, column tile `n % 12`) the accumulator at `(p, j)` holds the
    terms of row `1024 (n / 12) + p` over the columns of the tiles met so far — given that each tile's contribution is
    its 1024 terms (`htile`, read off the blocks). By induction on the point: a first column tile starts the sum afresh,
    any other appends its tile's terms. -/
theorem acc_eq (A1 : S12288x12288.Idx → EReal) (Drow : S12288x1.Idx → EReal) (Dcol : S1x12288.Idx → EReal) (Sup : S12288x128.Idx → EReal)
    (htile : ∀ (t : Fin cfg2.N) (p : Fin 1024) (j : Fin 128), tileSum V c t p j
      = ∑ k ∈ Finset.range 1024, term A1 Drow Dcol Sup (1024 * (t.val / 12) + p.val) j (1024 * (t.val % 12) + k)) :
    ∀ (n : ℕ) (hn : n < cfg2.N) (p : Fin 1024) (j : Fin 128),
      ((outsAt2 V c n hn).2 : S1024x128.Idx → EReal) (ix2 p j)
        = ∑ k ∈ Finset.range (1024 * (n % 12 + 1)), term A1 Drow Dcol Sup (1024 * (n / 12) + p.val) j k
  | 0, hn, p, j => by
    refine (accE_first V c ⟨0, hn⟩ rfl p j).trans ?_
    rw [htile]
    show ∑ k ∈ Finset.range 1024, term A1 Drow Dcol Sup (1024 * (0 / 12) + p.val) j (1024 * (0 % 12) + k)
      = ∑ k ∈ Finset.range (1024 * (0 % 12 + 1)), term A1 Drow Dcol Sup (1024 * (0 / 12) + p.val) j k
    simp only [Nat.zero_mod, Nat.mul_zero, Nat.zero_add, Nat.mul_one]
  | n + 1, hn, p, j => by
    by_cases h0 : (n + 1) % 12 = 0
    · refine (accE_first V c ⟨n + 1, hn⟩ h0 p j).trans ?_
      rw [htile]
      show ∑ k ∈ Finset.range 1024, term A1 Drow Dcol Sup (1024 * ((n + 1) / 12) + p.val) j (1024 * ((n + 1) % 12) + k)
        = ∑ k ∈ Finset.range (1024 * ((n + 1) % 12 + 1)), term A1 Drow Dcol Sup (1024 * ((n + 1) / 12) + p.val) j k
      rw [h0]
      simp only [Nat.mul_zero, Nat.zero_add, Nat.mul_one]
    · refine (accE_next V c ⟨n + 1, hn⟩ h0 p j).trans ?_
      rw [htile]
      have ih := acc_eq A1 Drow Dcol Sup htile n (Nat.lt_of_succ_lt hn) p j
      have e1 : (n + 1) / 12 = n / 12 := by omega
      have e2 : (n + 1) % 12 = n % 12 + 1 := by omega
      show ((outsAt2 V c n (Nat.lt_of_succ_lt hn)).2 : S1024x128.Idx → EReal) (ix2 p j)
          + ∑ k ∈ Finset.range 1024, term A1 Drow Dcol Sup (1024 * ((n + 1) / 12) + p.val) j (1024 * ((n + 1) % 12) + k)
        = ∑ k ∈ Finset.range (1024 * ((n + 1) % 12 + 1)), term A1 Drow Dcol Sup (1024 * ((n + 1) / 12) + p.val) j k
      rw [ih, e1, e2, show 1024 * (n % 12 + 1 + 1) = 1024 * (n % 12 + 1) + 1024 from by ring, Finset.sum_range_add]

end Reals

section Value

variable (V : Dev nD → Valuation τ sig (Elt Ideal)) (c : Dev nD)

/-- The terms of a whole row, summed over the range, are the sum over the array's column index. -/
theorem sum_terms (A1 : S12288x12288.Idx → EReal) (Drow : S12288x1.Idx → EReal) (Dcol : S1x12288.Idx → EReal) (Sup : S12288x128.Idx → EReal) (r : Fin 12288) (j : Fin 128) :
    ∑ k ∈ Finset.range 12288, term A1 Drow Dcol Sup r.val j k
      = ∑ k : Fin 12288, ((A1 (ix2 r k) * Drow (ix2 r 0)) * Dcol (ix2 0 k)) * Sup (ix2 k j) := by
  rw [← Fin.sum_univ_eq_sum_range (fun k => term A1 Drow Dcol Sup r.val j k) 12288]
  refine Finset.sum_congr rfl fun k _ => ?_
  unfold term
  rw [dif_pos ⟨r.isLt, k.isLt⟩]

/-- The claimed entry `(r, j)` of the result: the normalised product, the self-loop term, the bias. -/
def entry (A1 : S12288x12288.Idx → EReal) (Drow : S12288x1.Idx → EReal) (Dcol : S1x12288.Idx → EReal) (Sup : S12288x128.Idx → EReal) (Bias : S128.Idx → EReal) (r : Fin 12288) (j : Fin 128) : EReal :=
  ((∑ k : Fin 12288, ((A1 (ix2 r k) * Drow (ix2 r 0)) * Dcol (ix2 0 k)) * Sup (ix2 k j))
    + (Drow (ix2 r 0) * Drow (ix2 r 0)) * Sup (ix2 r j)) + Bias (ix1 j)

/-- The claimed result array. -/
def result (A1 : S12288x12288.Idx → EReal) (Drow : S12288x1.Idx → EReal) (Dcol : S1x12288.Idx → EReal) (Sup : S12288x128.Idx → EReal) (Bias : S128.Idx → EReal) : S12288x128.Idx → EReal :=
  fun i => entry A1 Drow Dcol Sup Bias ⟨(i 0).val, idx2_lt0 i⟩ ⟨(i 1).val, idx2_lt1 i⟩

theorem result_apply (A1 : S12288x12288.Idx → EReal) (Drow : S12288x1.Idx → EReal) (Dcol : S1x12288.Idx → EReal) (Sup : S12288x128.Idx → EReal) (Bias : S128.Idx → EReal) (r : Fin 12288) (j : Fin 128) :
    result A1 Drow Dcol Sup Bias (ix2 r j) = entry A1 Drow Dcol Sup Bias r j := rfl

/-- WHAT A LAST COLUMN TILE WRITES BACK. At a point with `t % 12 = 11` the output block at `(p, j)` is the claimed
    entry of row `1024 (t / 12) + p`: the accumulator then holds the whole row's terms (the invariant at twelve
    tiles), and the last step adds the self-loop term and the bias, read off the row-side blocks. -/
theorem out_entry (A1 : S12288x12288.Idx → EReal) (Drow : S12288x1.Idx → EReal) (Dcol : S1x12288.Idx → EReal) (Sup : S12288x128.Idx → EReal) (Bias : S128.Idx → EReal)
    (htile : ∀ (t : Fin cfg2.N) (p : Fin 1024) (j : Fin 128), tileSum V c t p j
      = ∑ k ∈ Finset.range 1024, term A1 Drow Dcol Sup (1024 * (t.val / 12) + p.val) j (1024 * (t.val % 12) + k))
    (hb2 : ∀ (t : Fin cfg2.N) (p : Fin 1024) (j : Fin 128) (r : Fin 12288), r.val = 1024 * (t.val / 12) + p.val →
      b2 V c t (ix2 p j) = Sup (ix2 r j))
    (hb3 : ∀ (t : Fin cfg2.N) (p : Fin 1024) (r : Fin 12288), r.val = 1024 * (t.val / 12) + p.val →
      b3 V c t (ix2 p 0) = Drow (ix2 r 0))
    (hb5 : ∀ (t : Fin cfg2.N) (j : Fin 128), b5 V c t (ix1 j) = Bias (ix1 j))
    (t : Fin cfg2.N) (h1 : t.val % 12 = 11) (p : Fin 1024) (j : Fin 128) (r : Fin 12288)
    (hr : r.val = 1024 * (t.val / 12) + p.val) :
    ((outsAt2 V c t.val t.isLt).1 : S1024x128.Idx → EReal) (ix2 p j) = entry A1 Drow Dcol Sup Bias r j := by
  have h0 : ¬t.val % 12 = 0 := by omega
  rw [out_at_C V c t h0 h1]
  refine (k2_pay4_apply (b3 V c t) (b2 V c t) (outsAt2 V c t.val t.isLt).2 (b5 V c t) p j).trans ?_
  rw [acc_eq V c A1 Drow Dcol Sup htile t.val t.isLt p j, h1, ← hr, hb2 t p j r hr, hb3 t p r hr, hb5 t j]
  unfold entry
  rw [← sum_terms]

end Value

section Blocks

variable (V : Dev nD → Valuation τ sig (Elt Ideal)) (c : Dev nD)

/-- One tile's contribution, read off the arrays: block element `(p, k)` of the adjacency tile at point `t` is the
    array's element `(1024 (t / 12) + p, 1024 (t % 12) + k)`, the row scale is read at the same row, the column scale and
    the support row at the same column. -/
theorem tile_eq (A1 : S12288x12288.Idx → EReal) (Drow : S12288x1.Idx → EReal) (Dcol : S1x12288.Idx → EReal) (Sup : S12288x128.Idx → EReal) (hA1 : A1 = V c (Proc.devRef .tc main_arg1)) (hDrow : Drow = V c (Proc.devRef .tc main_v4)) (hDcol : Dcol = V c (Proc.devRef .tc main_v5)) (hSup : Sup = V c (Proc.devRef .tc main_v3))
    (t : Fin cfg2.N) (p : Fin 1024) (j : Fin 128) :
    tileSum V c t p j
      = ∑ k ∈ Finset.range 1024, term A1 Drow Dcol Sup (1024 * (t.val / 12) + p.val) j (1024 * (t.val % 12) + k) := by
  have hN : t.val < 144 := lt_of_lt_of_eq t.isLt (show cfg2.N = 144 from N_2)
  rw [← Fin.sum_univ_eq_sum_range (fun k => term A1 Drow Dcol Sup (1024 * (t.val / 12) + p.val) j (1024 * (t.val % 12) + k)) 1024]
  unfold tileSum
  refine Finset.sum_congr rfl fun k _ => ?_
  have ha : 1024 * (t.val / 12) + p.val < 12288 := by have := p.isLt; omega
  have hb : 1024 * (t.val % 12) + k.val < 12288 := by have := k.isLt; omega
  have ca : 1024 * (t.val / 12) + p.val = t.val / 12 * 1024 + p.val := by omega
  have cb : 1024 * (t.val % 12) + k.val = t.val % 12 * 1024 + k.val := by omega
  have e0 : b0 V c t (ix2 p k) = A1 (ix2 ⟨1024 * (t.val / 12) + p.val, ha⟩ ⟨1024 * (t.val % 12) + k.val, hb⟩) :=
    R2B.blk2E_0_apply V c A1 hA1 t p k ⟨1024 * (t.val / 12) + p.val, ha⟩ ⟨1024 * (t.val % 12) + k.val, hb⟩ ca cb
  have e3 : b3 V c t (ix2 p (0 : Fin 1)) = Drow (ix2 ⟨1024 * (t.val / 12) + p.val, ha⟩ (0 : Fin 1)) :=
    R2B.blk2E_3_apply V c Drow hDrow t p ⟨1024 * (t.val / 12) + p.val, ha⟩ ca
  have e4 : b4 V c t (ix2 (0 : Fin 1) k) = Dcol (ix2 (0 : Fin 1) ⟨1024 * (t.val % 12) + k.val, hb⟩) :=
    R2B.blk2E_4_apply V c Dcol hDcol t k ⟨1024 * (t.val % 12) + k.val, hb⟩ cb
  have e1 : b1 V c t (ix2 k j) = Sup (ix2 ⟨1024 * (t.val % 12) + k.val, hb⟩ j) :=
    R2B.blk2E_1_apply V c Sup hSup t k j ⟨1024 * (t.val % 12) + k.val, hb⟩ cb
  unfold term
  rw [dif_pos ⟨ha, hb⟩, e0, e3, e4, e1]

end Blocks

end R2V

/-- THE RESULT ARRAY of the third kernel, entry by entry: row `r` of the normalised adjacency (self-loops included)
    against column `j` of the support, plus the bias. Every row is written back once, by the last column tile of its row
    tile, from the finished accumulator. -/
theorem out_value (q : Fin cfg2.W → PosShare TreeShare) (V : Dev nD → Valuation τ sig (Elt Ideal)) (c : Dev nD) (A1 : S12288x12288.Idx → EReal) (Drow : S12288x1.Idx → EReal) (Dcol : S1x12288.Idx → EReal) (Sup : S12288x128.Idx → EReal) (Bias : S128.Idx → EReal) (hA1 : A1 = V c (Proc.devRef .tc main_arg1)) (hDrow : Drow = V c (Proc.devRef .tc main_v4)) (hDcol : Dcol = V c (Proc.devRef .tc main_v5)) (hSup : Sup = V c (Proc.devRef .tc main_v3)) (hBias : Bias = V c (Proc.devRef .tc main_arg3)) (r : Fin 12288) (j : Fin 128) :
      ((dat2 q V c).arrAt 6 cfg2.N : S12288x128.Idx → EReal) (ix2 r j) = ((∑ k : Fin 12288, ((A1 (ix2 r k) * Drow (ix2 r 0)) * Dcol (ix2 0 k)) * Sup (ix2 k j)) + (Drow (ix2 r 0) * Drow (ix2 r 0)) * Sup (ix2 r j)) + Bias (ix1 j) := by
  have hfin : (dat2 q V c).arrAt 6 cfg2.N = R2V.result A1 Drow Dcol Sup Bias :=
    R2B.final2_6_of q V c (R2V.result A1 Drow Dcol Sup Bias) fun t h11 p i r' hr' => by
      show ((outsAt2 V c t.val t.isLt).1 : S1024x128.Idx → EReal) (ix2 p i) = R2V.result A1 Drow Dcol Sup Bias (ix2 r' i)
      rw [R2V.result_apply]
      exact R2V.out_entry V c A1 Drow Dcol Sup Bias (R2V.tile_eq V c A1 Drow Dcol Sup hA1 hDrow hDcol hSup)
        (fun t p i r hr => R2B.blk2E_2_apply V c Sup hSup t p i r (by omega))
        (fun t p r hr => R2B.blk2E_3_apply V c Drow hDrow t p r (by omega))
        (fun t i => R2B.blk2E_5_apply V c Bias hBias t i)
        t h11 p i r' (by omega)
  rw [hfin]
  rfl

end Cert.KernelIdeal.Hand

end
-- ==== Proof.KI.KernelValue.lean ====
/-
  The value of the result array, index by index.

  The degree of row r is the sum of the adjacency row plus one; its inverse square root is the power of the
  degree to the exponent −1/2, spread as a column and as a row; the support matrix is the product of the
  features and the weights; the last region sums, over all columns k, the adjacency entry scaled by the two
  inverse square roots times the support row k, and adds the diagonal term and the bias.
-/
import proofs.«129173_j30640296690052_1_alg».proof.Proof.KI.Run
import proofs.«129173_j30640296690052_1_alg».proof.Proof.KI.R0Value
import proofs.«129173_j30640296690052_1_alg».proof.Proof.KI.R1Value
import proofs.«129173_j30640296690052_1_alg».proof.Proof.KI.R2Value
import proofs.«129173_j30640296690052_1_alg».proof.Proof.Spec
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable (mI : (ℓ : Loc nD τ sig) → Buf (Elt Ideal) ℓ)

/-- The power stretch: the inverse square roots are the power of the degrees to the constant exponent. -/
theorem W2_v2 (c : Dev nD) :
    W2 mI c (Proc.devRef .tc main_v2)
      = Host.powf (W1 mI c (Proc.devRef .tc main_v0)) (broadcastInDim S12288 ![] bcast_S_S12288 (constant (F := Ideal) S_ .f32 0xBF000000#32)) := by
  unfold W2
  after_results

/-- The column of inverse square roots. -/
theorem W4_v4 (c : Dev nD) :
    W4 mI c (Proc.devRef .tc main_v4) = broadcastInDim S12288x1 ![0] bcast_S12288_S12288x1_0 (W3 mI c (Proc.devRef .tc main_v2)) := by
  unfold W4
  after_results

/-- The row of inverse square roots. -/
theorem W4_v5 (c : Dev nD) :
    W4 mI c (Proc.devRef .tc main_v5) = broadcastInDim S1x12288 ![1] bcast_S12288_S1x12288_1 (W3 mI c (Proc.devRef .tc main_v2)) := by
  unfold W4
  after_results

/-- The inverse square root of row `r`'s degree, as the power stretch leaves it. -/
theorem dinv_apply (c : Dev nD) (A : S12288x12288.Idx → EReal) (hA : A = mI ((c.tc : Thread nD τ).loc main_arg1)) (r : Fin 12288) :
    (W3 mI c (Proc.devRef .tc main_v2) : S12288.Idx → EReal) (ix1 r)
      = Ideal.pow (Cert.Spec.degK (fun r k => A (ix2 r k)) r) Cert.Spec.e := by
  rw [W3_keep mI c main_v2 (by decide), W2_v2]
  show Ideal.pow ((W1 mI c (Proc.devRef .tc main_v0) : S12288.Idx → EReal) (ix1 r))
    ((broadcastInDim S12288 ![] bcast_S_S12288 (constant (F := Ideal) S_ .f32 0xBF000000#32) : S12288.Idx → EReal) (ix1 r)) = _
  rw [W1_v0, deg_value (W0 mI) c A (by rw [hA]; rfl) r,
    broadcastInDim_apply _ bcast_S_S12288 (constant (F := Ideal) S_ .f32 0xBF000000#32) (ix1 r) (fun a => a.elim0) (fun a => a.elim0)]
  rfl

theorem W2_arg (c : Dev nD) (b : Ref sig .tc) (h1 : ∀ w, (cfg0.win w).isOut = true → Pipeline.arrRef spec0 w ≠ b) (h2 : b ∉ hostOps1_W) :
    W2 mI c (Proc.devRef .tc b) = mI ((c.tc : Thread nD τ).loc b) :=
  (W2_keep mI c b h2).trans ((W1_keep mI c b h1).trans rfl)

/-- Index by index, the result array ends at the kernel's closed form of the four argument arrays. -/
theorem kernel_apply (c : Dev nD) (A : S12288x12288.Idx → EReal) (X : S12288x256.Idx → EReal) (Wt : S256x128.Idx → EReal) (Bv : S128.Idx → EReal)
    (hA : A = mI ((c.tc : Thread nD τ).loc main_arg1)) (hX : X = mI ((c.tc : Thread nD τ).loc main_arg0))
    (hW : Wt = mI ((c.tc : Thread nD τ).loc main_arg2)) (hB : Bv = mI ((c.tc : Thread nD τ).loc main_arg3)) (r : Fin 12288) (j : Fin 128) :
    (W5 mI c (Proc.devRef .tc main_v6) : S12288x128.Idx → EReal) (ix2 r j)
      = Cert.Spec.outK (fun r k => A (ix2 r k)) (fun i l => X (ix2 i l)) (fun l j => Wt (ix2 l j)) (fun j => Bv (ix1 j)) r j := by
  have hv4 : ∀ r' : Fin 12288, (W4 mI c (Proc.devRef .tc main_v4) : S12288x1.Idx → EReal) (ix2 r' 0)
      = Ideal.pow (Cert.Spec.degK (fun r k => A (ix2 r k)) r') Cert.Spec.e := by
    intro r'
    rw [W4_v4, broadcastInDim_apply _ bcast_S12288_S12288x1_0 _ (ix2 r' 0) (ix1 r') (fun a => match a with
      | ⟨0, _⟩ => by show r'.val = if (12288 : Nat) = 1 then 0 else r'.val; rw [if_neg (by decide)])]
    exact dinv_apply mI c A hA r'
  have hv5 : ∀ k : Fin 12288, (W4 mI c (Proc.devRef .tc main_v5) : S1x12288.Idx → EReal) (ix2 0 k)
      = Ideal.pow (Cert.Spec.degK (fun r k => A (ix2 r k)) k) Cert.Spec.e := by
    intro k
    rw [W4_v5, broadcastInDim_apply _ bcast_S12288_S1x12288_1 _ (ix2 0 k) (ix1 k) (fun a => match a with
      | ⟨0, _⟩ => by show k.val = if (12288 : Nat) = 1 then 0 else k.val; rw [if_neg (by decide)])]
    exact dinv_apply mI c A hA k
  have hv3 : ∀ (k : Fin 12288) (j' : Fin 128), (W4 mI c (Proc.devRef .tc main_v3) : S12288x128.Idx → EReal) (ix2 k j')
      = Cert.Spec.sup (fun i l => X (ix2 i l)) (fun l j => Wt (ix2 l j)) k j' := by
    intro k j'
    rw [W4_keep mI c main_v3 (by decide), W3_v3,
      support_value (W2 mI) c X Wt (by rw [hX, W2_arg mI c main_arg0 (by decide) (by decide)]) (by rw [hW, W2_arg mI c main_arg2 (by decide) (by decide)]) k j']
    rfl
  rw [W5_v6, out_value q2 (W4 mI) c A (W4 mI c (Proc.devRef .tc main_v4)) (W4 mI c (Proc.devRef .tc main_v5)) (W4 mI c (Proc.devRef .tc main_v3)) Bv
    (by rw [hA, W4_arg1]) rfl rfl rfl (by rw [hB, W4_arg3]) r j]
  unfold Cert.Spec.outK
  simp only [hv4, hv5, hv3]

end Cert.KernelIdeal.Hand

end
-- ==== Proof.lean ====
import proofs.«129173_j30640296690052_1_alg».proof.Defs
import proofs.«129173_j30640296690052_1_alg».proof.Proof.Gen.Kernel
import proofs.«129173_j30640296690052_1_alg».proof.Proof.Gen.Kernel.Skeleton
import proofs.«129173_j30640296690052_1_alg».proof.Proof.Gen.Kernel.Launch
import proofs.«129173_j30640296690052_1_alg».proof.Proof.Gen.Kernel.Regions
import proofs.«129173_j30640296690052_1_alg».proof.Proof.Gen.Kernel.Points
import proofs.«129173_j30640296690052_1_alg».proof.Proof.Gen.KernelIdeal
import proofs.«129173_j30640296690052_1_alg».proof.Proof.Gen.KernelIdeal.Skeleton
import proofs.«129173_j30640296690052_1_alg».proof.Proof.Gen.KernelIdeal.Launch
import proofs.«129173_j30640296690052_1_alg».proof.Proof.Gen.KernelIdeal.Regions
import proofs.«129173_j30640296690052_1_alg».proof.Proof.Gen.KernelIdeal.Points
import proofs.«129173_j30640296690052_1_alg».proof.Proof.Gen.ReferenceIdeal
import proofs.«129173_j30640296690052_1_alg».proof.Proof.Gen.ReferenceIdeal.Run
import proofs.«129173_j30640296690052_1_alg».proof.Proof.Gen.ReferenceIdeal.Read
import proofs.«129173_j30640296690052_1_alg».proof.Proof.Gen.Pre_finite_inputs
import proofs.«129173_j30640296690052_1_alg».proof.Proof.Spec
import proofs.«129173_j30640296690052_1_alg».proof.Proof.Algebra
import proofs.«129173_j30640296690052_1_alg».proof.Proof.RefValue
import proofs.«129173_j30640296690052_1_alg».proof.Proof.Finite
import proofs.«129173_j30640296690052_1_alg».proof.Proof.K.Run
import proofs.«129173_j30640296690052_1_alg».proof.Proof.KI.Run
import proofs.«129173_j30640296690052_1_alg».proof.Proof.KI.KernelValue
import Idealize.ShloMosaic.Adequacy
import Idealize.ShloMosaic.Init

/-!
The certificate for the normalised graph convolution `D^(-1/2) (A + I) D^(-1/2) (X W) + b`.

The kernel computes it in three passes: the degrees `d r = (∑ k, a r k) + 1` accumulated over
column tiles, the support matrix `S = X W`, and the output accumulated over column tiles,
with the identity's contribution `(d r)^(-1/2) (d r)^(-1/2) S r` added at the last tile.  The
reference adds the identity matrix to `A` first and takes one row sum and two contractions.
Both run and leave the arguments unchanged; that is the three frame claims.  At the exact
reading of the floats the kernel's result is the closed form `Spec.outK` of the argument
arrays and the reference's is `Spec.outR`; under the precondition every input entry is a
real number, and there the two closed forms agree by distributivity and the Kronecker sum
(`Spec.outK_eq_outR`): that is the algebraic claim.  The idealisation rewrote nothing, so
the preservation claim is trivial.
-/

noncomputable section

namespace Cert.Proof

open Idealize.ShloMosaic Idealize.SL.Sem Idealize.ShloMosaic.ValueIdx

/-- The word-level kernel runs and leaves its arguments unchanged. -/
theorem frame_k : Cert.frame_Kernel := fun m ρ _ =>
  (θ_run Cert.Kernel.defs _ _).mono (fun _ h c => (h c).2) (Cert.Kernel.Hand.run_all (F := Bits) m ρ)

/-- The kernel at the exact reading of the floats runs and leaves its arguments unchanged. -/
theorem frame_ki : Cert.frame_KernelIdeal := fun m ρ _ =>
  (θ_run Cert.KernelIdeal.defs _ _).mono (fun _ h c => (h c).2) (Cert.KernelIdeal.Hand.run_all (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's are equal entry by
    entry: the kernel's is `outK` of the arguments, the reference's is `outR`, and the two agree on real inputs. -/
theorem algebraic : Cert.algebraic_KernelIdeal_ReferenceIdeal := by
  intro m ρ m' ρ' hpre hagree
  refine ⟨fun c => Cert.KernelIdeal.Hand.W5 m c (Proc.devRef .tc Cert.KernelIdeal.main_v6),
    Cert.KernelIdeal.Hand.run_all (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v20_eq]
  obtain ⟨h0, h1, h2, h3⟩ := Cert.Proof.Finite.real_of_pre m hpre c
  funext i
  obtain ⟨r, j, rfl⟩ : ∃ (r : Fin 12288) (j : Fin 128), i = ix2 r j := ⟨i 0, i 1, eq_ix2 i⟩
  refine (Cert.ReferenceIdeal.RefValue.ref_apply _ _ _ _ r j).trans ?_
  refine Eq.trans ?_ (Cert.KernelIdeal.Hand.kernel_apply m c _ _ _ _ rfl rfl rfl rfl r j).symm
  exact (Cert.Spec.outK_eq_outR _ _ _ _ (fun r k => h1 (ix2 r k)) (fun i l => h0 (ix2 i l))
    (fun l j => h2 (ix2 l j)) (fun j => h3 (ix1 j)) r j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
